-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v209) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S3x2x300000 : Shape := ⟨3, ![3, 2, 300000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x128 .f32) (main_arg1 : FVec F S3x128x128 .f32) (main_arg2 : FVec F S3x128 .f32) (main_arg3 : FVec F S3x128x64 .f32) (main_arg4 : FVec F S3x64 .f32) (main_arg5 : IVec S3x2x300000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x64 .f32 := Host.absf main_arg3
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg4 main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S3x2x300000 : Shape := ⟨3, ![3, 2, 300000]⟩
abbrev S_ : Shape := ⟨0, ![]⟩
abbrev S300000 : Shape := ⟨1, ![300000]⟩
abbrev S3x1x300000 : Shape := ⟨3, ![3, 1, 300000]⟩
abbrev S3x300000 : Shape := ⟨2, ![3, 300000]⟩
abbrev S1x300000 : Shape := ⟨2, ![1, 300000]⟩
abbrev S100000 : Shape := ⟨1, ![100000]⟩
abbrev S300000x1 : Shape := ⟨2, ![300000, 1]⟩
abbrev S1x100000 : Shape := ⟨2, ![1, 100000]⟩
abbrev S3x100000 : Shape := ⟨2, ![3, 100000]⟩
abbrev S3x100000x1 : Shape := ⟨3, ![3, 100000, 1]⟩
abbrev S3x100000x128 : Shape := ⟨3, ![3, 100000, 128]⟩
abbrev S2000x128 : Shape := ⟨2, ![2000, 128]⟩
abbrev S1x2000x1 : Shape := ⟨3, ![1, 2000, 1]⟩
abbrev S1x128x128 : Shape := ⟨3, ![1, 128, 128]⟩
abbrev S1x2000x128 : Shape := ⟨3, ![1, 2000, 128]⟩
abbrev S2000x1 : Shape := ⟨2, ![2000, 1]⟩
abbrev S128x128 : Shape := ⟨2, ![128, 128]⟩
abbrev S1x100000x128 : Shape := ⟨3, ![1, 100000, 128]⟩
abbrev S300000x128 : Shape := ⟨2, ![300000, 128]⟩
abbrev S3x2000x128 : Shape := ⟨3, ![3, 2000, 128]⟩
abbrev S3x2000x1 : Shape := ⟨3, ![3, 2000, 1]⟩
abbrev S1x128 : Shape := ⟨2, ![1, 128]⟩
abbrev S128 : Shape := ⟨1, ![128]⟩
abbrev S3x100000x64 : Shape := ⟨3, ![3, 100000, 64]⟩
abbrev S1x128x64 : Shape := ⟨3, ![1, 128, 64]⟩
abbrev S1x2000x64 : Shape := ⟨3, ![1, 2000, 64]⟩
abbrev S128x64 : Shape := ⟨2, ![128, 64]⟩
abbrev S2000x64 : Shape := ⟨2, ![2000, 64]⟩
abbrev S1x100000x64 : Shape := ⟨3, ![1, 100000, 64]⟩
abbrev S100000x64 : Shape := ⟨2, ![100000, 64]⟩
abbrev S300000x64 : Shape := ⟨2, ![300000, 64]⟩
abbrev S3x2000x64 : Shape := ⟨3, ![3, 2000, 64]⟩
abbrev S1x64 : Shape := ⟨2, ![1, 64]⟩
abbrev S64 : Shape := ⟨1, ![64]⟩

abbrev nBuf : Space → Nat
  | .hbm => 284
  | .vmem => 30
  | .smem => 0
  | _ => 0

abbrev hbmTy0_0 (i : Nat) : BufTy := match i % 128 with
  | 0 => ⟨S100000x128, .f32⟩
  | 1 => ⟨S3x128x128, .f32⟩
  | 2 => ⟨S3x128, .f32⟩
  | 3 => ⟨S3x128x64, .f32⟩
  | 4 => ⟨S3x64, .f32⟩
  | 5 => ⟨S3x2x300000, .i32⟩
  | 6 => ⟨S_, .f32⟩
  | 7 => ⟨S300000, .f32⟩
  | 8 => ⟨S3x1x300000, .i32⟩
  | 9 => ⟨S3x300000, .i32⟩
  | 10 => ⟨S3x1x300000, .i32⟩
  | 11 => ⟨S3x300000, .i32⟩
  | 12 => ⟨S1x300000, .i32⟩
  | 13 => ⟨S300000, .i32⟩
  | 14 => ⟨S1x300000, .i32⟩
  | 15 => ⟨S300000, .i32⟩
  | 16 => ⟨S_, .f32⟩
  | 17 => ⟨S100000, .f32⟩
  | 18 => ⟨S300000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S300000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S1x300000, .i32⟩
  | 33 => ⟨S300000, .i32⟩
  | 34 => ⟨S1x300000, .i32⟩
  | 35 => ⟨S300000, .i32⟩
  | 36 => ⟨S_, .f32⟩
  | 37 => ⟨S100000, .f32⟩
  | 38 => ⟨S300000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S300000x1, .i32⟩
  | 47 => ⟨S100000, .f32⟩
  | 48 => ⟨S_, .f32⟩
  | 49 => ⟨S_, .f32⟩
  | 50 => ⟨S100000, .f32⟩
  | 51 => ⟨S100000, .f32⟩
  | 52 => ⟨S1x300000, .i32⟩
  | 53 => ⟨S300000, .i32⟩
  | 54 => ⟨S1x300000, .i32⟩
  | 55 => ⟨S300000, .i32⟩
  | 56 => ⟨S_, .f32⟩
  | 57 => ⟨S100000, .f32⟩
  | 58 => ⟨S300000x1, .i32⟩
  | 59 => ⟨S100000, .f32⟩
  | 60 => ⟨S_, .f32⟩
  | 61 => ⟨S_, .f32⟩
  | 62 => ⟨S100000, .f32⟩
  | 63 => ⟨S100000, .f32⟩
  | 64 => ⟨S_, .f32⟩
  | 65 => ⟨S100000, .f32⟩
  | 66 => ⟨S300000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S1x100000, .f32⟩
  | 73 => ⟨S1x100000, .f32⟩
  | 74 => ⟨S1x100000, .f32⟩
  | 75 => ⟨S3x100000, .f32⟩
  | 76 => ⟨S3x100000x1, .f32⟩
  | 77 => ⟨S1x100000, .f32⟩
  | 78 => ⟨S1x100000, .f32⟩
  | 79 => ⟨S1x100000, .f32⟩
  | 80 => ⟨S3x100000, .f32⟩
  | 81 => ⟨S3x100000x1, .f32⟩
  | 82 => ⟨S3x100000x128, .f32⟩
  | 83 => ⟨S1x300000, .i32⟩
  | 84 => ⟨S300000, .i32⟩
  | 85 => ⟨S1x300000, .i32⟩
  | 86 => ⟨S300000, .i32⟩
  | 87 => ⟨S1x100000x128, .f32⟩
  | 88 => ⟨S100000x128, .f32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S300000x128, .f32⟩
  | 98 => ⟨S_, .f32⟩
  | 99 => ⟨S100000x128, .f32⟩
  | 100 => ⟨S300000x1, .i32⟩
  | 101 => ⟨S100000x128, .f32⟩
  | 102 => ⟨S1x300000, .i32⟩
  | 103 => ⟨S300000, .i32⟩
  | 104 => ⟨S1x300000, .i32⟩
  | 105 => ⟨S300000, .i32⟩
  | 106 => ⟨S1x100000x128, .f32⟩
  | 107 => ⟨S100000x128, .f32⟩
  | 108 => ⟨S_, .i32⟩
  | 109 => ⟨S300000, .i32⟩
  | 110 => ⟨S300000, .i1⟩
  | 111 => ⟨S_, .i32⟩
  | 112 => ⟨S300000, .i32⟩
  | 113 => ⟨S300000, .i32⟩
  | 114 => ⟨S300000, .i32⟩
  | 115 => ⟨S300000x1, .i32⟩
  | 116 => ⟨S300000x128, .f32⟩
  | 117 => ⟨S_, .f32⟩
  | 118 => ⟨S100000x128, .f32⟩
  | 119 => ⟨S300000x1, .i32⟩
  | 120 => ⟨S100000x128, .f32⟩
  | 121 => ⟨S1x300000, .i32⟩
  | 122 => ⟨S300000, .i32⟩
  | 123 => ⟨S1x300000, .i32⟩
  | 124 => ⟨S300000, .i32⟩
  | 125 => ⟨S1x100000x128, .f32⟩
  | 126 => ⟨S100000x128, .f32⟩
  | 127 => ⟨S_, .i32⟩
  | _ => ⟨S100000x128, .f32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x128, .f32⟩
  | 8 => ⟨S_, .f32⟩
  | 9 => ⟨S100000x128, .f32⟩
  | 10 => ⟨S300000x1, .i32⟩
  | 11 => ⟨S100000x128, .f32⟩
  | 12 => ⟨S1x100000x128, .f32⟩
  | 13 => ⟨S1x100000x128, .f32⟩
  | 14 => ⟨S1x100000x128, .f32⟩
  | 15 => ⟨S3x100000x128, .f32⟩
  | 16 => ⟨S100000x128, .f32⟩
  | 17 => ⟨S_, .f32⟩
  | 18 => ⟨S300000, .f32⟩
  | 19 => ⟨S3x1x300000, .i32⟩
  | 20 => ⟨S3x300000, .i32⟩
  | 21 => ⟨S3x1x300000, .i32⟩
  | 22 => ⟨S3x300000, .i32⟩
  | 23 => ⟨S1x300000, .i32⟩
  | 24 => ⟨S300000, .i32⟩
  | 25 => ⟨S1x300000, .i32⟩
  | 26 => ⟨S300000, .i32⟩
  | 27 => ⟨S_, .f32⟩
  | 28 => ⟨S100000, .f32⟩
  | 29 => ⟨S300000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S300000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S1x300000, .i32⟩
  | 44 => ⟨S300000, .i32⟩
  | 45 => ⟨S1x300000, .i32⟩
  | 46 => ⟨S300000, .i32⟩
  | 47 => ⟨S_, .f32⟩
  | 48 => ⟨S100000, .f32⟩
  | 49 => ⟨S300000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S_, .f32⟩
  | 56 => ⟨S100000, .f32⟩
  | 57 => ⟨S300000x1, .i32⟩
  | 58 => ⟨S100000, .f32⟩
  | 59 => ⟨S_, .f32⟩
  | 60 => ⟨S_, .f32⟩
  | 61 => ⟨S100000, .f32⟩
  | 62 => ⟨S100000, .f32⟩
  | 63 => ⟨S1x300000, .i32⟩
  | 64 => ⟨S300000, .i32⟩
  | 65 => ⟨S1x300000, .i32⟩
  | 66 => ⟨S300000, .i32⟩
  | 67 => ⟨S_, .f32⟩
  | 68 => ⟨S100000, .f32⟩
  | 69 => ⟨S300000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S100000, .f32⟩
  | 77 => ⟨S300000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S1x100000, .f32⟩
  | 84 => ⟨S1x100000, .f32⟩
  | 85 => ⟨S1x100000, .f32⟩
  | 86 => ⟨S3x100000, .f32⟩
  | 87 => ⟨S3x100000x1, .f32⟩
  | 88 => ⟨S1x100000, .f32⟩
  | 89 => ⟨S1x100000, .f32⟩
  | 90 => ⟨S1x100000, .f32⟩
  | 91 => ⟨S3x100000, .f32⟩
  | 92 => ⟨S3x100000x1, .f32⟩
  | 93 => ⟨S3x100000x64, .f32⟩
  | 94 => ⟨S1x300000, .i32⟩
  | 95 => ⟨S300000, .i32⟩
  | 96 => ⟨S1x300000, .i32⟩
  | 97 => ⟨S300000, .i32⟩
  | 98 => ⟨S1x100000x64, .f32⟩
  | 99 => ⟨S100000x64, .f32⟩
  | 100 => ⟨S_, .i32⟩
  | 101 => ⟨S300000, .i32⟩
  | 102 => ⟨S300000, .i1⟩
  | 103 => ⟨S_, .i32⟩
  | 104 => ⟨S300000, .i32⟩
  | 105 => ⟨S300000, .i32⟩
  | 106 => ⟨S300000, .i32⟩
  | 107 => ⟨S300000x1, .i32⟩
  | 108 => ⟨S300000x64, .f32⟩
  | 109 => ⟨S_, .f32⟩
  | 110 => ⟨S100000x64, .f32⟩
  | 111 => ⟨S300000x1, .i32⟩
  | 112 => ⟨S100000x64, .f32⟩
  | 113 => ⟨S1x300000, .i32⟩
  | 114 => ⟨S300000, .i32⟩
  | 115 => ⟨S1x300000, .i32⟩
  | 116 => ⟨S300000, .i32⟩
  | 117 => ⟨S1x100000x64, .f32⟩
  | 118 => ⟨S100000x64, .f32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S300000x64, .f32⟩
  | _ => ⟨S100000x128, .f32⟩

abbrev hbmTy0_2 (i : Nat) : BufTy := match i % 128 with
  | 0 => ⟨S_, .f32⟩
  | 1 => ⟨S100000x64, .f32⟩
  | 2 => ⟨S300000x1, .i32⟩
  | 3 => ⟨S100000x64, .f32⟩
  | 4 => ⟨S1x300000, .i32⟩
  | 5 => ⟨S300000, .i32⟩
  | 6 => ⟨S1x300000, .i32⟩
  | 7 => ⟨S300000, .i32⟩
  | 8 => ⟨S1x100000x64, .f32⟩
  | 9 => ⟨S100000x64, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x64, .f32⟩
  | 19 => ⟨S_, .f32⟩
  | 20 => ⟨S100000x64, .f32⟩
  | 21 => ⟨S300000x1, .i32⟩
  | 22 => ⟨S100000x64, .f32⟩
  | 23 => ⟨S1x100000x64, .f32⟩
  | 24 => ⟨S1x100000x64, .f32⟩
  | 25 => ⟨S1x100000x64, .f32⟩
  | 26 => ⟨S3x100000x64, .f32⟩
  | 27 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S1x2000x1, .f32⟩
  | .local _ .vmem, ⟨3, _⟩ => ⟨S1x2000x1, .f32⟩
  | .local _ .vmem, ⟨4, _⟩ => ⟨S1x128x128, .f32⟩
  | .local _ .vmem, ⟨5, _⟩ => ⟨S1x128x128, .f32⟩
  | .local _ .vmem, ⟨6, _⟩ => ⟨S1x2000x128, .f32⟩
  | .local _ .vmem, ⟨7, _⟩ => ⟨S1x2000x128, .f32⟩
  | .local _ .vmem, ⟨8, _⟩ => ⟨S3x2000x128, .f32⟩
  | .local _ .vmem, ⟨9, _⟩ => ⟨S3x2000x128, .f32⟩
  | .local _ .vmem, ⟨10, _⟩ => ⟨S3x2000x1, .f32⟩
  | .local _ .vmem, ⟨11, _⟩ => ⟨S3x2000x1, .f32⟩
  | .local _ .vmem, ⟨12, _⟩ => ⟨S3x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x2000x1, .f32⟩
  | .local _ .vmem, ⟨18, _⟩ => ⟨S1x2000x1, .f32⟩
  | .local _ .vmem, ⟨19, _⟩ => ⟨S1x128x64, .f32⟩
  | .local _ .vmem, ⟨20, _⟩ => ⟨S1x128x64, .f32⟩
  | .local _ .vmem, ⟨21, _⟩ => ⟨S1x2000x64, .f32⟩
  | .local _ .vmem, ⟨22, _⟩ => ⟨S1x2000x64, .f32⟩
  | .local _ .vmem, ⟨23, _⟩ => ⟨S3x2000x64, .f32⟩
  | .local _ .vmem, ⟨24, _⟩ => ⟨S3x2000x64, .f32⟩
  | .local _ .vmem, ⟨25, _⟩ => ⟨S3x2000x1, .f32⟩
  | .local _ .vmem, ⟨26, _⟩ => ⟨S3x2000x1, .f32⟩
  | .local _ .vmem, ⟨27, _⟩ => ⟨S3x64, .f32⟩
  | .local _ .vmem, ⟨28, _⟩ => ⟨S2000x64, .f32⟩
  | .local _ .vmem, ⟨29, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_call3_v0 : Ref sig .tc := ⟨.hbm, 49, rfl⟩
abbrev main_call3_v1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_call4_v0 : Ref sig .tc := ⟨.hbm, 61, rfl⟩
abbrev main_call4_v1 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_call5_v0 : Ref sig .tc := ⟨.hbm, 69, rfl⟩
abbrev main_call5_v1 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_17 : Ref sig .tc := ⟨.hbm, 127, rfl⟩
abbrev main_v90 : Ref sig .tc := ⟨.hbm, 128, rfl⟩
abbrev main_v91 : Ref sig .tc := ⟨.hbm, 129, rfl⟩
abbrev main_c_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_20 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_21 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_call6_v0 : Ref sig .tc := ⟨.hbm, 160, rfl⟩
abbrev main_call6_v1 : Ref sig .tc := ⟨.hbm, 161, rfl⟩
abbrev main_v117 : Ref sig .tc := ⟨.hbm, 162, rfl⟩
abbrev main_cst_23 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_24 : Ref sig .tc := ⟨.hbm, 167, rfl⟩
abbrev main_call7_v0 : Ref sig .tc := ⟨.hbm, 168, rfl⟩
abbrev main_call7_v1 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_25 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_26 : Ref sig .tc := ⟨.hbm, 179, rfl⟩
abbrev main_call8_v0 : Ref sig .tc := ⟨.hbm, 180, rfl⟩
abbrev main_call8_v1 : Ref sig .tc := ⟨.hbm, 181, rfl⟩
abbrev main_v129 : Ref sig .tc := ⟨.hbm, 182, rfl⟩
abbrev main_cst_27 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_28 : Ref sig .tc := ⟨.hbm, 187, rfl⟩
abbrev main_call9_v0 : Ref sig .tc := ⟨.hbm, 188, rfl⟩
abbrev main_call9_v1 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_29 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_30 : Ref sig .tc := ⟨.hbm, 199, rfl⟩
abbrev main_call10_v0 : Ref sig .tc := ⟨.hbm, 200, rfl⟩
abbrev main_call10_v1 : Ref sig .tc := ⟨.hbm, 201, rfl⟩
abbrev main_v141 : Ref sig .tc := ⟨.hbm, 202, rfl⟩
abbrev main_cst_31 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_32 : Ref sig .tc := ⟨.hbm, 207, rfl⟩
abbrev main_call11_v0 : Ref sig .tc := ⟨.hbm, 208, rfl⟩
abbrev main_call11_v1 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_c_33 : Ref sig .tc := ⟨.hbm, 228, rfl⟩
abbrev main_v163 : Ref sig .tc := ⟨.hbm, 229, rfl⟩
abbrev main_v164 : Ref sig .tc := ⟨.hbm, 230, rfl⟩
abbrev main_c_34 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_35 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_c_36 : Ref sig .tc := ⟨.hbm, 247, rfl⟩
abbrev main_v179 : Ref sig .tc := ⟨.hbm, 248, rfl⟩
abbrev main_v180 : Ref sig .tc := ⟨.hbm, 249, rfl⟩
abbrev main_c_37 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_38 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_c_39 : Ref sig .tc := ⟨.hbm, 266, rfl⟩
abbrev main_v195 : Ref sig .tc := ⟨.hbm, 267, rfl⟩
abbrev main_v196 : Ref sig .tc := ⟨.hbm, 268, rfl⟩
abbrev main_c_40 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_cst_41 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![50, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![50, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S300000 : S_.BroadcastsInDim S300000 (![] : Fin 0 → Fin S300000.rank)
  slices_S3x2x300000_S3x1x300000_0_0_0 : S3x2x300000.Slices ![0, 0, 0] S3x1x300000
  shapeCasts_S3x1x300000_S3x300000 : S3x1x300000.ShapeCasts S3x300000
  slices_S3x2x300000_S3x1x300000_0_1_0 : S3x2x300000.Slices ![0, 1, 0] S3x1x300000
  slices_S3x300000_S1x300000_0_0 : S3x300000.Slices ![0, 0] S1x300000
  shapeCasts_S1x300000_S300000 : S1x300000.ShapeCasts S300000
  bcast_S_S100000 : S_.BroadcastsInDim S100000 (![] : Fin 0 → Fin S100000.rank)
  bcast_S300000_S300000x1_0 : S300000.BroadcastsInDim S300000x1 (![0] : Fin 1 → Fin S300000x1.rank)
  slices_S3x300000_S1x300000_1_0 : S3x300000.Slices ![1, 0] S1x300000
  slices_S3x300000_S1x300000_2_0 : S3x300000.Slices ![2, 0] S1x300000
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S3x100000_S3x100000x1_0_1 : S3x100000.BroadcastsInDim S3x100000x1 (![0, 1] : Fin 2 → Fin S3x100000x1.rank)
  inb_S2000x128_S2000x128_0_0 : ∀ a, (![0, 0] : Fin 2 → Nat) a + S2000x128.size a ≤ S2000x128.size a
  h_S2000x128 : 0 < S2000x128.numel
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S2000x1 : S1x2000x1.ShapeCasts S2000x1
  broadcasts_S2000x1_S2000x128 : S2000x1.Broadcasts S2000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S3x100000x128_S1x100000x128_0_0_0 : S3x100000x128.Slices ![0, 0, 0] S1x100000x128
  shapeCasts_S1x100000x128_S100000x128 : S1x100000x128.ShapeCasts S100000x128
  bcast_S_S100000x128 : S_.BroadcastsInDim S100000x128 (![] : Fin 0 → Fin S100000x128.rank)
  slices_S3x100000x128_S1x100000x128_1_0_0 : S3x100000x128.Slices ![1, 0, 0] S1x100000x128
  slices_S3x100000x128_S1x100000x128_2_0_0 : S3x100000x128.Slices ![2, 0, 0] S1x100000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  inb_S3x2000x1_S1x2000x1_0_0_0 : ∀ a, (![0, 0, 0] : Fin 3 → Nat) a + S1x2000x1.size a ≤ S3x2000x1.size a
  inb_S3x2000x128_S1x2000x128_0_0_0 : ∀ a, (![0, 0, 0] : Fin 3 → Nat) a + S1x2000x128.size a ≤ S3x2000x128.size a
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x2000x1_S1x2000x1_1_0_0 : ∀ a, (![1, 0, 0] : Fin 3 → Nat) a + S1x2000x1.size a ≤ S3x2000x1.size a
  inb_S3x2000x128_S1x2000x128_1_0_0 : ∀ a, (![1, 0, 0] : Fin 3 → Nat) a + S1x2000x128.size a ≤ S3x2000x128.size a
  inb_S3x128_S1x128_1_0 : ∀ a, (![1, 0] : Fin 2 → Nat) a + S1x128.size a ≤ S3x128.size a
  inb_S3x2000x1_S1x2000x1_2_0_0 : ∀ a, (![2, 0, 0] : Fin 3 → Nat) a + S1x2000x1.size a ≤ S3x2000x1.size a
  inb_S3x2000x128_S1x2000x128_2_0_0 : ∀ a, (![2, 0, 0] : Fin 3 → Nat) a + S1x2000x128.size a ≤ S3x2000x128.size a
  inb_S3x128_S1x128_2_0 : ∀ a, (![2, 0] : Fin 2 → Nat) a + S1x128.size a ≤ S3x128.size a
  shapeCasts_S2000x128_S2000x128 : S2000x128.ShapeCasts S2000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  slices_S3x100000x64_S1x100000x64_0_0_0 : S3x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  slices_S3x100000x64_S1x100000x64_1_0_0 : S3x100000x64.Slices ![1, 0, 0] S1x100000x64
  slices_S3x100000x64_S1x100000x64_2_0_0 : S3x100000x64.Slices ![2, 0, 0] S1x100000x64
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S3x2000x64_S1x2000x64_0_0_0 : ∀ a, (![0, 0, 0] : Fin 3 → Nat) a + S1x2000x64.size a ≤ S3x2000x64.size a
  broadcasts_S2000x1_S2000x64 : S2000x1.Broadcasts S2000x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  inb_S3x2000x64_S1x2000x64_1_0_0 : ∀ a, (![1, 0, 0] : Fin 3 → Nat) a + S1x2000x64.size a ≤ S3x2000x64.size a
  inb_S3x64_S1x64_1_0 : ∀ a, (![1, 0] : Fin 2 → Nat) a + S1x64.size a ≤ S3x64.size a
  inb_S3x2000x64_S1x2000x64_2_0_0 : ∀ a, (![2, 0, 0] : Fin 3 → Nat) a + S1x2000x64.size a ≤ S3x2000x64.size a
  inb_S3x64_S1x64_2_0 : ∀ a, (![2, 0] : Fin 2 → Nat) a + S1x64.size a ≤ S3x64.size a
  inb_S2000x64_S2000x64_0_0 : ∀ a, (![0, 0] : Fin 2 → Nat) a + S2000x64.size a ≤ S2000x64.size a
  h_S2000x64 : 0 < S2000x64.numel
  scatter_S100000_S300000x1_S300000_n_0_0_1_wf : ScatterDims.WF S100000 S300000x1 S300000 [] [0] [0] 1
  dot_S2000x128_S128x128_S2000x128_1_0_0_1_n_n_wf : DotDims.WF S2000x128 S128x128 S2000x128 [1] [0] [0] [1] [] []
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  dot_S2000x128_S128x64_S2000x64_1_0_0_1_n_n_wf : DotDims.WF S2000x128 S128x64 S2000x64 [1] [0] [0] [1] [] []
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x1.size a ≤ S3x100000x1.size a
  hwx0_1 : ∀ i : grid0.Coords, EltTy.bits .f32 = 32 ∨ (Rect.block (s := S3x100000x1) S1x2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S3x128x128.size a
  hwx0_2 : ∀ i : grid0.Coords, EltTy.bits .f32 = 32 ∨ (Rect.block (s := S3x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x128.size a ≤ S3x100000x128.size a
  hwx0_3 : ∀ i : grid0.Coords, EltTy.bits .f32 = 32 ∨ (Rect.block (s := S3x100000x128) S1x2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x1.size a ≤ S3x100000x1.size a
  hwx1_1 : ∀ i : grid1.Coords, EltTy.bits .f32 = 32 ∨ (Rect.block (s := S3x100000x1) S3x2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2000x1.size a ≤ S3x100000x1.size a
  hwx2_1 : ∀ i : grid2.Coords, EltTy.bits .f32 = 32 ∨ (Rect.block (s := S3x100000x1) S1x2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x64.size a ≤ S3x128x64.size a
  hwx2_2 : ∀ i : grid2.Coords, EltTy.bits .f32 = 32 ∨ (Rect.block (s := S3x128x64) S1x128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2000x64.size a ≤ S3x100000x64.size a
  hwx2_3 : ∀ i : grid2.Coords, EltTy.bits .f32 = 32 ∨ (Rect.block (s := S3x100000x64) S1x2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x2000x64.size a ≤ S3x100000x64.size a
  hwx3_0 : ∀ i : grid3.Coords, EltTy.bits .f32 = 32 ∨ (Rect.block (s := S3x100000x64) S3x2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x2000x1.size a ≤ S3x100000x1.size a
  hwx3_1 : ∀ i : grid3.Coords, EltTy.bits .f32 = 32 ∨ (Rect.block (s := S3x100000x1) S3x2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x64.size a ≤ S3x64.size a
  hwx3_2 : ∀ i : grid3.Coords, EltTy.bits .f32 = 32 ∨ (Rect.block (s := S3x64) S3x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v103) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S3x2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v104) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v104) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v150) S1x2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S1x128x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v156) S1x2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v208) S3x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v155) S3x2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S3x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v209) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S3x2x300000 : Shape := ⟨3, ![3, 2, 300000]⟩
abbrev S_ : Shape := ⟨0, ![]⟩
abbrev S300000 : Shape := ⟨1, ![300000]⟩
abbrev S1x1x300000 : Shape := ⟨3, ![1, 1, 300000]⟩
abbrev S100000 : Shape := ⟨1, ![100000]⟩
abbrev S300000x1 : Shape := ⟨2, ![300000, 1]⟩
abbrev S100000x1 : Shape := ⟨2, ![100000, 1]⟩
abbrev S1x128x128 : Shape := ⟨3, ![1, 128, 128]⟩
abbrev S128x128 : Shape := ⟨2, ![128, 128]⟩
abbrev S300000x128 : Shape := ⟨2, ![300000, 128]⟩
abbrev S1x128 : Shape := ⟨2, ![1, 128]⟩
abbrev S128 : Shape := ⟨1, ![128]⟩
abbrev S100000x64 : Shape := ⟨2, ![100000, 64]⟩
abbrev S1x128x64 : Shape := ⟨3, ![1, 128, 64]⟩
abbrev S128x64 : Shape := ⟨2, ![128, 64]⟩
abbrev S300000x64 : Shape := ⟨2, ![300000, 64]⟩
abbrev S1x64 : Shape := ⟨2, ![1, 64]⟩
abbrev S64 : Shape := ⟨1, ![64]⟩

abbrev nBuf : Space → Nat
  | .hbm => 344
  | .vmem => 0
  | .smem => 0
  | _ => 0

abbrev hbmTy0_0 (i : Nat) : BufTy := match i % 128 with
  | 0 => ⟨S100000x128, .f32⟩
  | 1 => ⟨S3x128x128, .f32⟩
  | 2 => ⟨S3x128, .f32⟩
  | 3 => ⟨S3x128x64, .f32⟩
  | 4 => ⟨S3x64, .f32⟩
  | 5 => ⟨S3x2x300000, .i32⟩
  | 6 => ⟨S_, .f32⟩
  | 7 => ⟨S100000x128, .f32⟩
  | 8 => ⟨S_, .f32⟩
  | 9 => ⟨S300000, .f32⟩
  | 10 => ⟨S1x1x300000, .i32⟩
  | 11 => ⟨S300000, .i32⟩
  | 12 => ⟨S1x1x300000, .i32⟩
  | 13 => ⟨S300000, .i32⟩
  | 14 => ⟨S_, .f32⟩
  | 15 => ⟨S100000, .f32⟩
  | 16 => ⟨S300000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S300000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S1x128x128, .f32⟩
  | 37 => ⟨S128x128, .f32⟩
  | 38 => ⟨S100000x128, .f32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x128, .f32⟩
  | 48 => ⟨S_, .f32⟩
  | 49 => ⟨S100000x128, .f32⟩
  | 50 => ⟨S300000x1, .i32⟩
  | 51 => ⟨S100000x128, .f32⟩
  | 52 => ⟨S_, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S1x1x300000, .i32⟩
  | 65 => ⟨S300000, .i32⟩
  | 66 => ⟨S1x1x300000, .i32⟩
  | 67 => ⟨S300000, .i32⟩
  | 68 => ⟨S_, .f32⟩
  | 69 => ⟨S100000, .f32⟩
  | 70 => ⟨S300000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S_, .f32⟩
  | 77 => ⟨S100000, .f32⟩
  | 78 => ⟨S300000x1, .i32⟩
  | 79 => ⟨S100000, .f32⟩
  | 80 => ⟨S_, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x128, .f32⟩
  | 102 => ⟨S_, .f32⟩
  | 103 => ⟨S100000x128, .f32⟩
  | 104 => ⟨S300000x1, .i32⟩
  | 105 => ⟨S100000x128, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x1x300000, .i32⟩
  | 119 => ⟨S300000, .i32⟩
  | 120 => ⟨S1x1x300000, .i32⟩
  | 121 => ⟨S300000, .i32⟩
  | 122 => ⟨S_, .f32⟩
  | 123 => ⟨S100000, .f32⟩
  | 124 => ⟨S300000x1, .i32⟩
  | 125 => ⟨S100000, .f32⟩
  | 126 => ⟨S_, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S_, .f32⟩
  | 3 => ⟨S100000, .f32⟩
  | 4 => ⟨S300000x1, .i32⟩
  | 5 => ⟨S100000, .f32⟩
  | 6 => ⟨S_, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S1x128x128, .f32⟩
  | 17 => ⟨S128x128, .f32⟩
  | 18 => ⟨S100000x128, .f32⟩
  | 19 => ⟨S_, .i32⟩
  | 20 => ⟨S300000, .i32⟩
  | 21 => ⟨S300000, .i1⟩
  | 22 => ⟨S_, .i32⟩
  | 23 => ⟨S300000, .i32⟩
  | 24 => ⟨S300000, .i32⟩
  | 25 => ⟨S300000, .i32⟩
  | 26 => ⟨S300000x1, .i32⟩
  | 27 => ⟨S300000x128, .f32⟩
  | 28 => ⟨S_, .f32⟩
  | 29 => ⟨S100000x128, .f32⟩
  | 30 => ⟨S300000x1, .i32⟩
  | 31 => ⟨S100000x128, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S100000x64, .f32⟩
  | 49 => ⟨S_, .f32⟩
  | 50 => ⟨S300000, .f32⟩
  | 51 => ⟨S1x1x300000, .i32⟩
  | 52 => ⟨S300000, .i32⟩
  | 53 => ⟨S1x1x300000, .i32⟩
  | 54 => ⟨S300000, .i32⟩
  | 55 => ⟨S_, .f32⟩
  | 56 => ⟨S100000, .f32⟩
  | 57 => ⟨S300000x1, .i32⟩
  | 58 => ⟨S100000, .f32⟩
  | 59 => ⟨S_, .f32⟩
  | 60 => ⟨S_, .f32⟩
  | 61 => ⟨S100000, .f32⟩
  | 62 => ⟨S100000, .f32⟩
  | 63 => ⟨S_, .f32⟩
  | 64 => ⟨S100000, .f32⟩
  | 65 => ⟨S300000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S1x128x64, .f32⟩
  | 78 => ⟨S128x64, .f32⟩
  | 79 => ⟨S100000x64, .f32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S300000x64, .f32⟩
  | 89 => ⟨S_, .f32⟩
  | 90 => ⟨S100000x64, .f32⟩
  | 91 => ⟨S300000x1, .i32⟩
  | 92 => ⟨S100000x64, .f32⟩
  | 93 => ⟨S_, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S1x1x300000, .i32⟩
  | 106 => ⟨S300000, .i32⟩
  | 107 => ⟨S1x1x300000, .i32⟩
  | 108 => ⟨S300000, .i32⟩
  | 109 => ⟨S_, .f32⟩
  | 110 => ⟨S100000, .f32⟩
  | 111 => ⟨S300000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S_, .f32⟩
  | 118 => ⟨S100000, .f32⟩
  | 119 => ⟨S300000x1, .i32⟩
  | 120 => ⟨S100000, .f32⟩
  | 121 => ⟨S_, .f32⟩
  | 122 => ⟨S_, .f32⟩
  | 123 => ⟨S100000, .f32⟩
  | 124 => ⟨S100000, .f32⟩
  | 125 => ⟨S_, .f32⟩
  | 126 => ⟨S100000, .f32⟩
  | 127 => ⟨S100000, .f32⟩
  | _ => ⟨S100000x128, .f32⟩

abbrev hbmTy0_2 (i : Nat) : BufTy := match i % 128 with
  | 0 => ⟨S100000x1, .f32⟩
  | 1 => ⟨S100000x128, .f32⟩
  | 2 => ⟨S100000x128, .f32⟩
  | 3 => ⟨S1x128x64, .f32⟩
  | 4 => ⟨S128x64, .f32⟩
  | 5 => ⟨S100000x64, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x64, .f32⟩
  | 15 => ⟨S_, .f32⟩
  | 16 => ⟨S100000x64, .f32⟩
  | 17 => ⟨S300000x1, .i32⟩
  | 18 => ⟨S100000x64, .f32⟩
  | 19 => ⟨S_, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x1x300000, .i32⟩
  | 32 => ⟨S300000, .i32⟩
  | 33 => ⟨S1x1x300000, .i32⟩
  | 34 => ⟨S300000, .i32⟩
  | 35 => ⟨S_, .f32⟩
  | 36 => ⟨S100000, .f32⟩
  | 37 => ⟨S300000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S300000x1, .i32⟩
  | 46 => ⟨S100000, .f32⟩
  | 47 => ⟨S_, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S1x128x64, .f32⟩
  | 58 => ⟨S128x64, .f32⟩
  | 59 => ⟨S100000x64, .f32⟩
  | 60 => ⟨S_, .i32⟩
  | 61 => ⟨S300000, .i32⟩
  | 62 => ⟨S300000, .i1⟩
  | 63 => ⟨S_, .i32⟩
  | 64 => ⟨S300000, .i32⟩
  | 65 => ⟨S300000, .i32⟩
  | 66 => ⟨S300000, .i32⟩
  | 67 => ⟨S300000x1, .i32⟩
  | 68 => ⟨S300000x64, .f32⟩
  | 69 => ⟨S_, .f32⟩
  | 70 => ⟨S100000x64, .f32⟩
  | 71 => ⟨S300000x1, .i32⟩
  | 72 => ⟨S100000x64, .f32⟩
  | 73 => ⟨S_, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_call3_v0 : Ref sig .tc := ⟨.hbm, 81, rfl⟩
abbrev main_call3_v1 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_call4_v0 : Ref sig .tc := ⟨.hbm, 127, rfl⟩
abbrev main_call4_v1 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_21 : Ref sig .tc := ⟨.hbm, 134, rfl⟩
abbrev main_call5_v0 : Ref sig .tc := ⟨.hbm, 135, rfl⟩
abbrev main_call5_v1 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_23 : Ref sig .tc := ⟨.hbm, 147, rfl⟩
abbrev main_v104 : Ref sig .tc := ⟨.hbm, 148, rfl⟩
abbrev main_v105 : Ref sig .tc := ⟨.hbm, 149, rfl⟩
abbrev main_c_24 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_25 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_26 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_call6_cst : Ref sig .tc := ⟨.hbm, 172, rfl⟩
abbrev main_call6_v0 : Ref sig .tc := ⟨.hbm, 173, rfl⟩
abbrev main_v125 : Ref sig .tc := ⟨.hbm, 174, rfl⟩
abbrev main_cst_27 : Ref sig .tc := ⟨.hbm, 175, rfl⟩
abbrev main_v126 : Ref sig .tc := ⟨.hbm, 176, rfl⟩
abbrev main_cst_28 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_29 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_30 : Ref sig .tc := ⟨.hbm, 187, rfl⟩
abbrev main_call7_v0 : Ref sig .tc := ⟨.hbm, 188, rfl⟩
abbrev main_call7_v1 : Ref sig .tc := ⟨.hbm, 189, rfl⟩
abbrev main_v135 : Ref sig .tc := ⟨.hbm, 190, rfl⟩
abbrev main_cst_31 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_32 : Ref sig .tc := ⟨.hbm, 195, rfl⟩
abbrev main_call8_v0 : Ref sig .tc := ⟨.hbm, 196, rfl⟩
abbrev main_call8_v1 : Ref sig .tc := ⟨.hbm, 197, rfl⟩
abbrev main_v139 : Ref sig .tc := ⟨.hbm, 198, rfl⟩
abbrev main_cst_33 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_c_34 : Ref sig .tc := ⟨.hbm, 208, rfl⟩
abbrev main_v148 : Ref sig .tc := ⟨.hbm, 209, rfl⟩
abbrev main_v149 : Ref sig .tc := ⟨.hbm, 210, rfl⟩
abbrev main_c_35 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_36 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_37 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_38 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_cst_39 : Ref sig .tc := ⟨.hbm, 241, rfl⟩
abbrev main_call9_v0 : Ref sig .tc := ⟨.hbm, 242, rfl⟩
abbrev main_call9_v1 : Ref sig .tc := ⟨.hbm, 243, rfl⟩
abbrev main_v176 : Ref sig .tc := ⟨.hbm, 244, rfl⟩
abbrev main_cst_40 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_41 : Ref sig .tc := ⟨.hbm, 249, rfl⟩
abbrev main_call10_v0 : Ref sig .tc := ⟨.hbm, 250, rfl⟩
abbrev main_call10_v1 : Ref sig .tc := ⟨.hbm, 251, rfl⟩
abbrev main_v180 : Ref sig .tc := ⟨.hbm, 252, rfl⟩
abbrev main_cst_42 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_c_43 : Ref sig .tc := ⟨.hbm, 262, rfl⟩
abbrev main_v189 : Ref sig .tc := ⟨.hbm, 263, rfl⟩
abbrev main_v190 : Ref sig .tc := ⟨.hbm, 264, rfl⟩
abbrev main_c_44 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_45 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_cst_46 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_47 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_cst_48 : Ref sig .tc := ⟨.hbm, 295, rfl⟩
abbrev main_call11_v0 : Ref sig .tc := ⟨.hbm, 296, rfl⟩
abbrev main_call11_v1 : Ref sig .tc := ⟨.hbm, 297, rfl⟩
abbrev main_v217 : Ref sig .tc := ⟨.hbm, 298, rfl⟩
abbrev main_cst_49 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_cst_50 : Ref sig .tc := ⟨.hbm, 303, rfl⟩
abbrev main_call12_v0 : Ref sig .tc := ⟨.hbm, 304, rfl⟩
abbrev main_call12_v1 : Ref sig .tc := ⟨.hbm, 305, rfl⟩
abbrev main_v221 : Ref sig .tc := ⟨.hbm, 306, rfl⟩
abbrev main_cst_51 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_c_52 : Ref sig .tc := ⟨.hbm, 316, rfl⟩
abbrev main_v230 : Ref sig .tc := ⟨.hbm, 317, rfl⟩
abbrev main_v231 : Ref sig .tc := ⟨.hbm, 318, rfl⟩
abbrev main_c_53 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_cst_54 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_cst_55 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_call13_cst : Ref sig .tc := ⟨.hbm, 341, rfl⟩
abbrev main_call13_v0 : Ref sig .tc := ⟨.hbm, 342, rfl⟩
abbrev main_v251 : Ref sig .tc := ⟨.hbm, 343, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S300000 : S_.BroadcastsInDim S300000 (![] : Fin 0 → Fin S300000.rank)
  slices_S3x2x300000_S1x1x300000_0_0_0 : S3x2x300000.Slices ![0, 0, 0] S1x1x300000
  shapeCasts_S1x1x300000_S300000 : S1x1x300000.ShapeCasts S300000
  slices_S3x2x300000_S1x1x300000_0_1_0 : S3x2x300000.Slices ![0, 1, 0] S1x1x300000
  bcast_S_S100000 : S_.BroadcastsInDim S100000 (![] : Fin 0 → Fin S100000.rank)
  bcast_S300000_S300000x1_0 : S300000.BroadcastsInDim S300000x1 (![0] : Fin 1 → Fin S300000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x300000_S1x1x300000_1_0_0 : S3x2x300000.Slices ![1, 0, 0] S1x1x300000
  slices_S3x2x300000_S1x1x300000_1_1_0 : S3x2x300000.Slices ![1, 1, 0] S1x1x300000
  slices_S3x128x128_S1x128x128_1_0_0 : S3x128x128.Slices ![1, 0, 0] S1x128x128
  slices_S3x128_S1x128_1_0 : S3x128.Slices ![1, 0] S1x128
  slices_S3x2x300000_S1x1x300000_2_0_0 : S3x2x300000.Slices ![2, 0, 0] S1x1x300000
  slices_S3x2x300000_S1x1x300000_2_1_0 : S3x2x300000.Slices ![2, 1, 0] S1x1x300000
  slices_S3x128x128_S1x128x128_2_0_0 : S3x128x128.Slices ![2, 0, 0] S1x128x128
  slices_S3x128_S1x128_2_0 : S3x128.Slices ![2, 0] S1x128
  bcast_S_S100000x64 : S_.BroadcastsInDim S100000x64 (![] : Fin 0 → Fin S100000x64.rank)
  slices_S3x128x64_S1x128x64_0_0_0 : S3x128x64.Slices ![0, 0, 0] S1x128x64
  shapeCasts_S1x128x64_S128x64 : S1x128x64.ShapeCasts S128x64
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  scatter_S100000_S300000x1_S300000_n_0_0_1_wf : ScatterDims.WF S100000 S300000x1 S300000 [] [0] [0] 1
  dot_S100000x128_S128x128_S100000x128_1_0_0_1_n_n_wf : DotDims.WF S100000x128 S128x128 S100000x128 [1] [0] [0] [1] [] []
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  dot_S100000x128_S128x64_S100000x64_1_0_0_1_n_n_wf : DotDims.WF S100000x128 S128x64 S100000x64 [1] [0] [0] [1] [] []
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf

class Facts : Prop extends Facts₀ where

variable [Facts]
-- ==== Proof.BitsRegionData.lean ====
/-
  The four pipelined regions of the two-layer relational graph convolution, as data: for each region the block of
  every window at a grid point, read off the arrays the region is entered with; what the body's single store leaves
  in the output window's buffer, as a function of the three input blocks; and the pipeline's proof data built from
  them. Regions 0 and 2 scale the rows of the features by the reciprocal root of the out-degree and multiply by one
  relation's weights (grid: row block × relation); regions 1 and 3 scale each relation's aggregate by the
  reciprocal root of the in-degree, add the relation's bias, sum over the three relations and clip at zero
  (grid: row block). Everything here is stated at any float instance.
-/
import proofs.«142468_j3186865733925_1_alg».proof.Proof.Gen.Kernel.Launch
import proofs.«142468_j3186865733925_1_alg».proof.Proof.Gen.Kernel.Skeleton
import proofs.«142468_j3186865733925_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI Idealize.SL.Sem
open Idealize.ShloMosaic.Pipeline (Dat Cfg Window BodyObligation)

variable {F : FTy → Type} [FloatOps F]

-- the TensorCore's buffer contents when a region is entered
variable (V : (c : Dev nD) → (b : Ref sig .tc) → Buf (Elt F) ((c : Thread nD τ).loc b))

/-! ## Region 0: rows scaled by out-degree^(-1/2), times one relation's 128×128 weights -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x128 := Rect.unit (s := S2000x128) ![0, 0] S2000x128.size inb_S2000x128_S2000x128_0_0
abbrev r0_d : Rect S1x2000x1 := Rect.unit (s := S1x2000x1) ![0, 0, 0] S1x2000x1.size inb_S1x2000x1_S1x2000x1_0_0_0
abbrev r0_w : Rect S1x128x128 := Rect.unit (s := S1x128x128) ![0, 0, 0] S1x128x128.size inb_S1x128x128_S1x128x128_0_0_0
abbrev r0_o : Rect S1x2000x128 := Rect.unit (s := S1x2000x128) ![0, 0, 0] S1x2000x128.size inb_S1x2000x128_S1x2000x128_0_0_0

/-- The output window's buffer after the body of region 0: its one store, over the three input blocks. -/
def out0_3 (x0 : Vec F S2000x128 .f32) (x1 : Vec F S1x2000x1 .f32) (x2 : Vec F S1x128x128 .f32) : Vec F S1x2000x128 .f32 :=
  View.canon [⟨r0_o, k0_pay1 (View.ld x0 r0_x) (View.ld x1 r0_d) (View.ld x2 r0_w)⟩]

/-- Proof data of region 0 on core `c`: arrays as entered; inputs keep their blocks, the output takes the store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the three relations' aggregates combined into the first layer's output (128 features) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a0 : Rect S3x2000x128 := Rect.unit (s := S3x2000x128) ![0, 0, 0] S1x2000x128.size inb_S3x2000x128_S1x2000x128_0_0_0
abbrev r1_a1 : Rect S3x2000x128 := Rect.unit (s := S3x2000x128) ![1, 0, 0] S1x2000x128.size inb_S3x2000x128_S1x2000x128_1_0_0
abbrev r1_a2 : Rect S3x2000x128 := Rect.unit (s := S3x2000x128) ![2, 0, 0] S1x2000x128.size inb_S3x2000x128_S1x2000x128_2_0_0
abbrev r1_d0 : Rect S3x2000x1 := Rect.unit (s := S3x2000x1) ![0, 0, 0] S1x2000x1.size inb_S3x2000x1_S1x2000x1_0_0_0
abbrev r1_d1 : Rect S3x2000x1 := Rect.unit (s := S3x2000x1) ![1, 0, 0] S1x2000x1.size inb_S3x2000x1_S1x2000x1_1_0_0
abbrev r1_d2 : Rect S3x2000x1 := Rect.unit (s := S3x2000x1) ![2, 0, 0] S1x2000x1.size inb_S3x2000x1_S1x2000x1_2_0_0
abbrev r1_b0 : Rect S3x128 := Rect.unit (s := S3x128) ![0, 0] S1x128.size inb_S3x128_S1x128_0_0
abbrev r1_b1 : Rect S3x128 := Rect.unit (s := S3x128) ![1, 0] S1x128.size inb_S3x128_S1x128_1_0
abbrev r1_b2 : Rect S3x128 := Rect.unit (s := S3x128) ![2, 0] S1x128.size inb_S3x128_S1x128_2_0
abbrev r1_o : Rect S2000x128 := Rect.unit (s := S2000x128) ![0, 0] S2000x128.size inb_S2000x128_S2000x128_0_0

/-- The output window's buffer after the body of region 1, over the three input blocks (aggregates, in-degrees, biases). -/
def out1_3 (x0 : Vec F S3x2000x128 .f32) (x1 : Vec F S3x2000x1 .f32) (x2 : Vec F S3x128 .f32) : Vec F S2000x128 .f32 :=
  View.canon [⟨r1_o, k1_pay1 (k1_pay2 (View.ld x1 r1_d0) (View.ld x0 r1_a0) (View.ld x2 r1_b0) (View.ld x1 r1_d1) (View.ld x0 r1_a1)
    (View.ld x2 r1_b1) (View.ld x1 r1_d2) (View.ld x0 r1_a2)) (View.ld x2 r1_b2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: as region 0, on the first layer's output, with 128×64 weights -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S2000x128 := Rect.unit (s := S2000x128) ![0, 0] S2000x128.size inb_S2000x128_S2000x128_0_0
abbrev r2_d : Rect S1x2000x1 := Rect.unit (s := S1x2000x1) ![0, 0, 0] S1x2000x1.size inb_S1x2000x1_S1x2000x1_0_0_0
abbrev r2_w : Rect S1x128x64 := Rect.unit (s := S1x128x64) ![0, 0, 0] S1x128x64.size inb_S1x128x64_S1x128x64_0_0_0
abbrev r2_o : Rect S1x2000x64 := Rect.unit (s := S1x2000x64) ![0, 0, 0] S1x2000x64.size inb_S1x2000x64_S1x2000x64_0_0_0

def out2_3 (x0 : Vec F S2000x128 .f32) (x1 : Vec F S1x2000x1 .f32) (x2 : Vec F S1x128x64 .f32) : Vec F S1x2000x64 .f32 :=
  View.canon [⟨r2_o, k2_pay1 (View.ld x0 r2_x) (View.ld x1 r2_d) (View.ld x2 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## Region 3: as region 1, for the second layer (64 features) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a0 : Rect S3x2000x64 := Rect.unit (s := S3x2000x64) ![0, 0, 0] S1x2000x64.size inb_S3x2000x64_S1x2000x64_0_0_0
abbrev r3_a1 : Rect S3x2000x64 := Rect.unit (s := S3x2000x64) ![1, 0, 0] S1x2000x64.size inb_S3x2000x64_S1x2000x64_1_0_0
abbrev r3_a2 : Rect S3x2000x64 := Rect.unit (s := S3x2000x64) ![2, 0, 0] S1x2000x64.size inb_S3x2000x64_S1x2000x64_2_0_0
abbrev r3_d0 : Rect S3x2000x1 := Rect.unit (s := S3x2000x1) ![0, 0, 0] S1x2000x1.size inb_S3x2000x1_S1x2000x1_0_0_0
abbrev r3_d1 : Rect S3x2000x1 := Rect.unit (s := S3x2000x1) ![1, 0, 0] S1x2000x1.size inb_S3x2000x1_S1x2000x1_1_0_0
abbrev r3_d2 : Rect S3x2000x1 := Rect.unit (s := S3x2000x1) ![2, 0, 0] S1x2000x1.size inb_S3x2000x1_S1x2000x1_2_0_0
abbrev r3_b0 : Rect S3x64 := Rect.unit (s := S3x64) ![0, 0] S1x64.size inb_S3x64_S1x64_0_0
abbrev r3_b1 : Rect S3x64 := Rect.unit (s := S3x64) ![1, 0] S1x64.size inb_S3x64_S1x64_1_0
abbrev r3_b2 : Rect S3x64 := Rect.unit (s := S3x64) ![2, 0] S1x64.size inb_S3x64_S1x64_2_0
abbrev r3_o : Rect S2000x64 := Rect.unit (s := S2000x64) ![0, 0] S2000x64.size inb_S2000x64_S2000x64_0_0

def out3_3 (x0 : Vec F S3x2000x64 .f32) (x1 : Vec F S3x2000x1 .f32) (x2 : Vec F S3x64 .f32) : Vec F S2000x64 .f32 :=
  View.canon [⟨r3_o, k3_pay1 (k3_pay2 (View.ld x1 r3_d0) (View.ld x0 r3_a0) (View.ld x2 r3_b0) (View.ld x1 r3_d1) (View.ld x0 r3_a1)
    (View.ld x2 r3_b1) (View.ld x1 r3_d2) (View.ld x0 r3_a2)) (View.ld x2 r3_b2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.Kernel.Hand

end
-- ==== Proof.BitsBody0.lean ====
/-
  Region 0 of the two-layer relational graph convolution: the body obligation of its pipeline.
  At each point (row block, relation) the body reads a 2000×128 block of feature rows, the 2000 out-degrees of
  those rows for the relation, and the relation's 128×128 weights, and writes the 2000×128 product of the rows
  scaled by out-degree^(-1/2) with the weights. Shown here, at any float instance: the body's triple on whole
  buffers; that each input buffer holds its block at every point, whether or not it was brought in afresh there;
  and from the two the obligation the pipeline asks of the body at a generic point.
-/
import proofs.«142468_j3186865733925_1_alg».proof.Proof.BitsRegionData
import Idealize.ShloMosaic.Lib.Tactic

-- membership in a rectangle with a 2000-long axis: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The feature rows' buffer holds row block `t / 3` at every point `t`. The block is brought in only when the
    row block changes (at the points ≡ 0 mod 3); at the two points in between the block index has not moved and
    the body has left the buffer as it found it, so it still holds the same block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The out-degrees' buffer holds its block (one relation, one row block) at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The weights' buffer holds the relation's matrix at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's single store covers the output buffer -/

/-- The one store writes the whole 1×2000×128 rectangle, so every index of the output buffer lies in it. -/
theorem cover0_3 (p0 : Vec F S1x2000x128 .f32) (y : S1x2000x128.Idx) :
    ∃ pc ∈ ([⟨r0_o, p0⟩] : List (View.Piece (Elt F) S1x2000x128 .f32)), y ∈ pc.1.set :=
  View.cover_of_tiled [⟨r0_o, p0⟩] S1x2000x128.size (by rfl) y

/-! ## The body's triple -/

set_option maxHeartbeats 1000000 in
/-- The body on four whole buffers: with the inputs reading `x0`, `x1`, `x2` and the output holding anything, it
    runs to a state where the inputs read what they did and the output reads `out0_3 x0 x1 x2`. The body loads the
    three inputs whole (and the output, whose value it drops), and stores one value over the whole output; reading
    the buffer back after a store that covers it gives the stored value at every index. -/
theorem sound_kernel0 (c : Dev nD) (E : Set ℕ) (i : grid0.Coords)
    (arg0 : Memref sig .tc .vmem S2000x128 .f32) (harg0 : arg0.IsWhole)
    (arg1 : Memref sig .tc .vmem S1x2000x1 .f32) (harg1 : arg1.IsWhole)
    (arg2 : Memref sig .tc .vmem S1x128x128 .f32) (harg2 : arg2.IsWhole)
    (arg3 : Memref sig .tc .vmem S1x2000x128 .f32) (harg3 : arg3.IsWhole)
    (x0 : Vec F S2000x128 .f32) (x1 : Vec F S1x2000x1 .f32) (x2 : Vec F S1x128x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E
          (cc0__scale_matmul_kernel i arg0 harg0 arg1 harg1 arg2 harg2 arg3 harg3) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation at a generic point -/

/-- What the body is entered with at point `t`: the region's invariant, the core's debt (none), and the four
    current staging buffers, the inputs holding whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: each input buffer holds its block there, so the body's triple applies with the three
    blocks for `x0`, `x1`, `x2`; the invariant and the debt are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every point of its 50 × 3 grid. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBody1.lean ====
/-
  Region 1 of the two-layer relational graph convolution: the body obligation of its pipeline.
  At each row block the body reads the three relations' aggregated rows (3×2000×128), the in-degrees of those
  rows per relation (3×2000×1) and the three biases (3×128); it scales each relation's aggregate by
  in-degree^(-1/2), adds the relation's bias, sums over the relations, clips at zero, and writes the 2000×128
  result. Shown here, at any float instance: the body's triple on whole buffers; that each input buffer holds its
  block at every point, whether or not it was brought in afresh there; and from the two the obligation the
  pipeline asks of the body at a generic point.
-/
import proofs.«142468_j3186865733925_1_alg».proof.Proof.BitsRegionData
import Idealize.ShloMosaic.Lib.Tactic

-- membership in a rectangle with a 2000-long axis: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The aggregates' buffer holds the three relations' rows of row block `t` at every point `t`. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The in-degrees' buffer holds the three relations' degrees of row block `t` at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The biases' buffer holds the whole 3×128 array at every point. Its block index is constant over the grid, so it
    is brought in at the first point only; at every later point the index has not moved and the body has left
    the buffer as it found it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's single store covers the output buffer -/

/-- The one store writes the whole 2000×128 rectangle, so every index of the output buffer lies in it. -/
theorem cover1_3 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 1000000 in
/-- The body on four whole buffers: with the inputs reading `x0` (aggregates), `x1` (in-degrees), `x2` (biases) and
    the output holding anything, it runs to a state where the inputs read what they did and the output reads
    `out1_3 x0 x1 x2`. Its first part loads, relation by relation, the degrees, the aggregate and the bias (the
    third relation's bias is loaded after the part returns) and returns the running sum; the body then adds the
    last bias, clips at zero and stores the result over the whole output. -/
theorem sound_kernel1 (c : Dev nD) (E : Set ℕ) (i : grid1.Coords)
    (arg0 : Memref sig .tc .vmem S3x2000x128 .f32) (harg0 : arg0.IsWhole)
    (arg1 : Memref sig .tc .vmem S3x2000x1 .f32) (harg1 : arg1.IsWhole)
    (arg2 : Memref sig .tc .vmem S3x128 .f32) (harg2 : arg2.IsWhole)
    (arg3 : Memref sig .tc .vmem S2000x128 .f32) (harg3 : arg3.IsWhole)
    (x0 : Vec F S3x2000x128 .f32) (x1 : Vec F S3x2000x1 .f32) (x2 : Vec F S3x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E
          (cc1__combine_kernel i arg0 harg0 arg1 harg1 arg2 harg2 arg3 harg3) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The body obligation at a generic point -/

/-- What the body is entered with at point `t`: the region's invariant, the core's debt (none), and the four
    current staging buffers, the inputs holding whatever the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same invariant and debt, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: each input buffer holds its block there, so the body's triple applies with the three
    blocks for `x0`, `x1`, `x2`; the invariant and the debt are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point of its grid of 50 row blocks. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsBody2.lean ====
/-
  Region 2 of the two-layer relational graph convolution: the body obligation of its pipeline.
  At each point (row block, relation) the body reads a 2000×128 block of rows of the first layer's output, the 2000 out-degrees of
  those rows for the relation, and the relation's 128×64 weights, and writes the 2000×64 product of the rows
  scaled by out-degree^(-1/2) with the weights. Shown here, at any float instance: the body's triple on whole
  buffers; that each input buffer holds its block at every point, whether or not it was brought in afresh there;
  and from the two the obligation the pipeline asks of the body at a generic point.
-/
import proofs.«142468_j3186865733925_1_alg».proof.Proof.BitsRegionData
import Idealize.ShloMosaic.Lib.Tactic

-- membership in a rectangle with a 2000-long axis: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The first layer's rows' buffer holds row block `t / 3` at every point `t`. The block is brought in only when the
    row block changes (at the points ≡ 0 mod 3); at the two points in between the block index has not moved and
    the body has left the buffer as it found it, so it still holds the same block. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The out-degrees' buffer holds its block (one relation, one row block) at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The weights' buffer holds the relation's matrix at every point. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's single store covers the output buffer -/

/-- The one store writes the whole 1×2000×64 rectangle, so every index of the output buffer lies in it. -/
theorem cover2_3 (p0 : Vec F S1x2000x64 .f32) (y : S1x2000x64.Idx) :
    ∃ pc ∈ ([⟨r2_o, p0⟩] : List (View.Piece (Elt F) S1x2000x64 .f32)), y ∈ pc.1.set :=
  View.cover_of_tiled [⟨r2_o, p0⟩] S1x2000x64.size (by rfl) y

/-! ## The body's triple -/

set_option maxHeartbeats 1000000 in
/-- The body on four whole buffers: with the inputs reading `x0`, `x1`, `x2` and the output holding anything, it
    runs to a state where the inputs read what they did and the output reads `out2_3 x0 x1 x2`. The body loads the
    three inputs whole (and the output, whose value it drops), and stores one value over the whole output; reading
    the buffer back after a store that covers it gives the stored value at every index. -/
theorem sound_kernel2 (c : Dev nD) (E : Set ℕ) (i : grid2.Coords)
    (arg0 : Memref sig .tc .vmem S2000x128 .f32) (harg0 : arg0.IsWhole)
    (arg1 : Memref sig .tc .vmem S1x2000x1 .f32) (harg1 : arg1.IsWhole)
    (arg2 : Memref sig .tc .vmem S1x128x64 .f32) (harg2 : arg2.IsWhole)
    (arg3 : Memref sig .tc .vmem S1x2000x64 .f32) (harg3 : arg3.IsWhole)
    (x0 : Vec F S2000x128 .f32) (x1 : Vec F S1x2000x1 .f32) (x2 : Vec F S1x128x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E
          (cc2__scale_matmul_kernel i arg0 harg0 arg1 harg1 arg2 harg2 arg3 harg3) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation at a generic point -/

/-- What the body is entered with at point `t`: the region's invariant, the core's debt (none), and the four
    current staging buffers, the inputs holding whatever the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, and each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: each input buffer holds its block there, so the body's triple applies with the three
    blocks for `x0`, `x1`, `x2`; the invariant and the debt are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 2, at every point of its 50 × 3 grid. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsBody3.lean ====
/-
  Region 3 of the two-layer relational graph convolution: the body obligation of its pipeline.
  At each row block the body reads the three relations' aggregated rows of the second layer (3×2000×64), the in-degrees of those
  rows per relation (3×2000×1) and the three biases (3×64); it scales each relation's aggregate by
  in-degree^(-1/2), adds the relation's bias, sums over the relations, clips at zero, and writes the 2000×64
  result. Shown here, at any float instance: the body's triple on whole buffers; that each input buffer holds its
  block at every point, whether or not it was brought in afresh there; and from the two the obligation the
  pipeline asks of the body at a generic point.
-/
import proofs.«142468_j3186865733925_1_alg».proof.Proof.BitsRegionData
import Idealize.ShloMosaic.Lib.Tactic

-- membership in a rectangle with a 2000-long axis: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The aggregates' buffer holds the three relations' rows of row block `t` at every point `t`. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- The in-degrees' buffer holds the three relations' degrees of row block `t` at every point. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The biases' buffer holds the whole 3×64 array at every point. Its block index is constant over the grid, so it
    is brought in at the first point only; at every later point the index has not moved and the body has left
    the buffer as it found it. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body's single store covers the output buffer -/

/-- The one store writes the whole 2000×64 rectangle, so every index of the output buffer lies in it. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 1000000 in
/-- The body on four whole buffers: with the inputs reading `x0` (aggregates), `x1` (in-degrees), `x2` (biases) and
    the output holding anything, it runs to a state where the inputs read what they did and the output reads
    `out3_3 x0 x1 x2`. Its first part loads, relation by relation, the degrees, the aggregate and the bias (the
    third relation's bias is loaded after the part returns) and returns the running sum; the body then adds the
    last bias, clips at zero and stores the result over the whole output. -/
theorem sound_kernel3 (c : Dev nD) (E : Set ℕ) (i : grid3.Coords)
    (arg0 : Memref sig .tc .vmem S3x2000x64 .f32) (harg0 : arg0.IsWhole)
    (arg1 : Memref sig .tc .vmem S3x2000x1 .f32) (harg1 : arg1.IsWhole)
    (arg2 : Memref sig .tc .vmem S3x64 .f32) (harg2 : arg2.IsWhole)
    (arg3 : Memref sig .tc .vmem S2000x64 .f32) (harg3 : arg3.IsWhole)
    (x0 : Vec F S3x2000x64 .f32) (x1 : Vec F S3x2000x1 .f32) (x2 : Vec F S3x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out3_3 x0 x1 x2)) -∗ K ⟨⟩))
      ⊢ wp frame (wpE (defs₀ (F := F)) Variants.none c none) E
          (cc3__combine_kernel i arg0 harg0 arg1 harg1 arg2 harg2 arg3 harg3) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The body obligation at a generic point -/

/-- What the body is entered with at point `t`: the region's invariant, the core's debt (none), and the four
    current staging buffers, the inputs holding whatever the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns: the same invariant and debt, and each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: each input buffer holds its block there, so the body's triple applies with the three
    blocks for `x0`, `x1`, `x2`; the invariant and the debt are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 3, at every point of its grid of 50 row blocks. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRun.lean ====
/-
  The run of the two-layer relational graph convolution's @main over its segments. The four pipelined regions are entered
  one after another, host operations between them; what each leaves in its output buffer is defined region by region,
  each from the buffer contents the earlier regions determine (region 0's entry contents depend on no region, region 1's
  on region 0's output only, and so on), so the family of outputs is well founded. Each region is then a segment over the
  thread state "every unscoped buffer at the boundary's contents, the generator register at some state, nothing owed":
  its arrays are split out of the unscoped buffers at entry and put back at exit, where the input arrays are unchanged
  and the output array holds what the pipeline's write-backs leave. The run theorem reads the last region's output
  buffer, and each argument, off the final memory. Everything here is stated at any float instance.
-/
import proofs.«142468_j3186865733925_1_alg».proof.Proof.BitsRegionData
import proofs.«142468_j3186865733925_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import proofs.«142468_j3186865733925_1_alg».proof.Proof.BitsBody0
import proofs.«142468_j3186865733925_1_alg».proof.Proof.BitsBody1
import proofs.«142468_j3186865733925_1_alg».proof.Proof.BitsBody2
import proofs.«142468_j3186865733925_1_alg».proof.Proof.BitsBody3

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the four regions leave, stage by stage

Region 0 is entered at contents that do not depend on any region's output; region 1's entry contents depend only on
what region 0 left, region 2's on what regions 0 and 1 left, region 3's on all three. The outputs are therefore
defined one region at a time, each from the valuation the earlier ones determine. -/

/-- A TensorCore's buffer contents, one core at a time, read at its own references. -/
abbrev TcVal : Type := (c : Dev nD) → (b : Ref sig .tc) → Buf (Elt F) ((c : Thread nD τ).loc b)

/-- After region 0: its arrays at what the pipeline leaves, every other buffer as entered. -/
def X14 (c : Dev nD) : Valuation τ sig (Elt F) :=
  Pipeline.withArrays spec0 c (V13 m c) fun w => (dat0 (fun c b => V13 m c b) c).arrAt w cfg0.N
/-- The regions' outputs as known after region 0. -/
def oA : Outs (F := F) := fun _ r c => X14 m c r

/-- After region 1, entered at the contents region 0's output determines. -/
def X16 (c : Dev nD) : Valuation τ sig (Elt F) :=
  Pipeline.withArrays spec1 c (V15 m (oA m) c) fun w => (dat1 (fun c b => V15 m (oA m) c b) c).arrAt w cfg1.N
/-- The regions' outputs as known after region 1. -/
def oB : Outs (F := F) := fun J r c => if J ≤ 14 then X14 m c r else X16 m c r

/-- After region 2. -/
def X30 (c : Dev nD) : Valuation τ sig (Elt F) :=
  Pipeline.withArrays spec2 c (V29 m (oB m) c) fun w => (dat2 (fun c b => V29 m (oB m) c b) c).arrAt w cfg2.N
/-- The regions' outputs as known after region 2. -/
def oC : Outs (F := F) := fun J r c => if J ≤ 14 then X14 m c r else if J ≤ 16 then X16 m c r else X30 m c r

/-- After region 3. -/
def X32 (c : Dev nD) : Valuation τ sig (Elt F) :=
  Pipeline.withArrays spec3 c (V31 m (oC m) c) fun w => (dat3 (fun c b => V31 m (oC m) c b) c).arrAt w cfg3.N

/-- What the four regions leave in the buffers they write. -/
def outs : Outs (F := F) := fun J r c =>
  if J ≤ 14 then X14 m c r else if J ≤ 16 then X16 m c r else if J ≤ 30 then X30 m c r else X32 m c r

/-! ### The valuations depend on the outputs only at the points read before them -/

section Congr
variable (o o' : Outs (F := F)) (c : Dev nD)

theorem V14_congr (h14 : o 14 main_v51 c = o' 14 main_v51 c) : V14 m o c = V14 m o' c :=
  congrArg (Function.update (V13 m c) main_v51) h14

theorem V15_congr (h14 : o 14 main_v51 c = o' 14 main_v51 c) : V15 m o c = V15 m o' c :=
  congrArg (StableHlo.after hostOps1) (V14_congr m o o' c h14)

theorem V16_congr (h14 : o 14 main_v51 c = o' 14 main_v51 c) (h16 : o 16 main_v104 c = o' 16 main_v104 c) :
    V16 m o c = V16 m o' c := by
  show Function.update (V15 m o c) main_v104 (o 16 main_v104 c) = Function.update (V15 m o' c) main_v104 (o' 16 main_v104 c)
  rw [V15_congr m o o' c h14, h16]

theorem V29_congr (h14 : o 14 main_v51 c = o' 14 main_v51 c) (h16 : o 16 main_v104 c = o' 16 main_v104 c) :
    V29 m o c = V29 m o' c :=
  congrArg (StableHlo.after hostOps2_12) <| congrArg (StableHlo.after hostOps2_11) <|
  congrArg (StableHlo.after hostOps2_10) <| congrArg (StableHlo.after hostOps2_9) <|
  congrArg (StableHlo.after hostOps2_8) <| congrArg (StableHlo.after hostOps2_7) <|
  congrArg (StableHlo.after hostOps2_6) <| congrArg (StableHlo.after hostOps2_5) <|
  congrArg (StableHlo.after hostOps2_4) <| congrArg (StableHlo.after hostOps2_3) <|
  congrArg (StableHlo.after hostOps2_2) <| congrArg (StableHlo.after hostOps2_1) <|
  congrArg (StableHlo.after hostOps2) (V16_congr m o o' c h14 h16)

theorem V30_congr (h14 : o 14 main_v51 c = o' 14 main_v51 c) (h16 : o 16 main_v104 c = o' 16 main_v104 c)
    (h30 : o 30 main_v156 c = o' 30 main_v156 c) : V30 m o c = V30 m o' c := by
  show Function.update (V29 m o c) main_v156 (o 30 main_v156 c) = Function.update (V29 m o' c) main_v156 (o' 30 main_v156 c)
  rw [V29_congr m o o' c h14 h16, h30]

theorem V31_congr (h14 : o 14 main_v51 c = o' 14 main_v51 c) (h16 : o 16 main_v104 c = o' 16 main_v104 c)
    (h30 : o 30 main_v156 c = o' 30 main_v156 c) : V31 m o c = V31 m o' c :=
  congrArg (StableHlo.after hostOps3) (V30_congr m o o' c h14 h16 h30)

end Congr

/-! ### The outputs at the points read -/

theorem outs_at14 (r : Ref sig .tc) (c : Dev nD) : outs m 14 r c = X14 m c r := if_pos (by decide)
theorem outs_at16 (r : Ref sig .tc) (c : Dev nD) : outs m 16 r c = X16 m c r :=
  (if_neg (by decide)).trans (if_pos (by decide))
theorem outs_at30 (r : Ref sig .tc) (c : Dev nD) : outs m 30 r c = X30 m c r :=
  (if_neg (by decide)).trans ((if_neg (by decide)).trans (if_pos (by decide)))
theorem outs_at32 (r : Ref sig .tc) (c : Dev nD) : outs m 32 r c = X32 m c r :=
  (if_neg (by decide)).trans ((if_neg (by decide)).trans (if_neg (by decide)))
theorem oB_at14 (r : Ref sig .tc) (c : Dev nD) : oB m 14 r c = X14 m c r := if_pos (by decide)
theorem oB_at16 (r : Ref sig .tc) (c : Dev nD) : oB m 16 r c = X16 m c r := if_neg (by decide)
theorem oC_at14 (r : Ref sig .tc) (c : Dev nD) : oC m 14 r c = X14 m c r := if_pos (by decide)
theorem oC_at16 (r : Ref sig .tc) (c : Dev nD) : oC m 16 r c = X16 m c r :=
  (if_neg (by decide)).trans (if_pos (by decide))
theorem oC_at30 (r : Ref sig .tc) (c : Dev nD) : oC m 30 r c = X30 m c r :=
  (if_neg (by decide)).trans (if_neg (by decide))

/-- Region 1's entry contents under the final outputs are those under region 0's output alone. -/
theorem entry1_eq : ((fun c b => V15 m (outs m) c b : TcVal (F := F))) = ((fun c b => V15 m (oA m) c b : TcVal (F := F))) :=
  funext fun c => funext fun b => congrFun (V15_congr m (outs m) (oA m) c (outs_at14 m _ c)) _

/-- Region 2's entry contents under the final outputs are those under the first two outputs. -/
theorem entry2_eq : ((fun c b => V29 m (outs m) c b : TcVal (F := F))) = ((fun c b => V29 m (oB m) c b : TcVal (F := F))) :=
  funext fun c => funext fun b => congrFun (V29_congr m (outs m) (oB m) c
    ((outs_at14 m _ c).trans (oB_at14 m _ c).symm) ((outs_at16 m _ c).trans (oB_at16 m _ c).symm)) _

/-- Region 3's entry contents under the final outputs are those under the first three outputs. -/
theorem entry3_eq : ((fun c b => V31 m (outs m) c b : TcVal (F := F))) = ((fun c b => V31 m (oC m) c b : TcVal (F := F))) :=
  funext fun c => funext fun b => congrFun (V31_congr m (outs m) (oC m) c
    ((outs_at14 m _ c).trans (oC_at14 m _ c).symm) ((outs_at16 m _ c).trans (oC_at16 m _ c).symm)
    ((outs_at30 m _ c).trans (oC_at30 m _ c).symm)) _

/-- Region 0 leaves in its output array what its pipeline's write-backs make of the entry contents. -/
theorem outs_14 (c : Dev nD) : outs m 14 main_v51 c = (dat0 (fun c b => V13 m c b) c).arrAt 3 cfg0.N :=
  (outs_at14 m main_v51 c).trans (Pipeline.withArrays_arr spec0 launch0.win.arr_inj c _ _ 3)

theorem outs_16 (c : Dev nD) : outs m 16 main_v104 c = (dat1 (fun c b => V15 m (outs m) c b) c).arrAt 3 cfg1.N :=
  ((outs_at16 m main_v104 c).trans (Pipeline.withArrays_arr spec1 launch1.win.arr_inj c _ _ 3)).trans
    (congrArg (fun V => (dat1 V c).arrAt 3 cfg1.N) (entry1_eq m).symm)

theorem outs_30 (c : Dev nD) : outs m 30 main_v156 c = (dat2 (fun c b => V29 m (outs m) c b) c).arrAt 3 cfg2.N :=
  ((outs_at30 m main_v156 c).trans (Pipeline.withArrays_arr spec2 launch2.win.arr_inj c _ _ 3)).trans
    (congrArg (fun V => (dat2 V c).arrAt 3 cfg2.N) (entry2_eq m).symm)

theorem outs_32 (c : Dev nD) : outs m 32 main_v209 c = (dat3 (fun c b => V31 m (outs m) c b) c).arrAt 3 cfg3.N :=
  ((outs_at32 m main_v209 c).trans (Pipeline.withArrays_arr spec3 launch3.win.arr_inj c _ _ 3)).trans
    (congrArg (fun V => (dat3 V c).arrAt 3 cfg3.N) (entry3_eq m).symm)

/-! ## The run, given the regions' records -/

set_option backward.isDefEq.respectTransparency.types false in
/-- The run of @main from the regions' records, for any contents `o` the regions leave: every weakly fair execution from
    memory `m` with zero counters terminates, and every final memory holds in the last region's output buffer what the last
    valuation has there, and each argument as launched. The launch over @main's segments, the last thread state read against the
    final state. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (o : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m o c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m o c) ∗ E 1 c) ⊢ R1.pre c)
    (hpost1 : ∀ c : Dev nD, R1.post c ⊢ iprop(StableHlo.held (c : Thread nD τ) (Pipeline.ucRefs τ sig) (V16 m o c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V29 m o c) ∗ E 2 c) ⊢ R2.pre c)
    (hpost2 : ∀ c : Dev nD, R2.post c ⊢ iprop(StableHlo.held (c : Thread nD τ) (Pipeline.ucRefs τ sig) (V30 m o c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V31 m o c) ∗ E 3 c) ⊢ R3.pre c)
    (hpost3 : ∀ c : Dev nD, R3.post c ⊢ iprop(StableHlo.held (c : Thread nD τ) (Pipeline.ucRefs τ sig) (V32 m o c) ∗ E 4 c)) :
    θ_run defs (onTc (τ := τ) (main (F := F))) ⟨m, fun _ => 0, ρ⟩ (fun r => ∀ c : Dev nD,
      r.2.mem ((c.tc : Thread nD τ).loc main_v209) = o 32 main_v209 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m o 𝒱₀ L lv E ι pdats R0 R1 R2 R3)
    (fun c Q => by
      rewrite [main_chain c, Seg.run_eq_chain,
        show (segs m o 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m o c))
    (hch := fun c => ⟨.rfl, .rfl, .rfl, .rfl, .rfl, .rfl, .rfl, .rfl, .rfl, .rfl, .rfl, .rfl, .rfl, hpre0 c, hpost0 c, hpre1 c, hpost1 c, .rfl, .rfl, .rfl, .rfl, .rfl, .rfl, .rfl, .rfl, .rfl, .rfl, .rfl, .rfl, hpre2 c, hpost2 c, hpre3 c, (hpost3 c).trans (sep_mono .rfl (hE4 c))⟩)
    (hinit := ?_) (QY := fun c s => s.mem ((c.tc : Thread nD τ).loc main_v209) = o 32 main_v209 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V32 m o c) s') $$ [Hh HSI]
    · isplitl [Hh] <;> iassumption
    icases Hr with ⟨%h, HSI⟩
    imodintro
    isplitr
    · ipureintro
      exact ⟨(h (Proc.devRef .tc main_v209) (Finset.mem_filter.mpr ⟨StableHlo.devRef_mem_tcRefs main_v209, by decide⟩)).trans
          (Function.update_self (β := fun b : DevRef τ sig => b.ty.Contents (Elt F)) main_v209 _ (V31 m o c)),
        (h (Proc.devRef .tc main_arg0) (Finset.mem_filter.mpr ⟨StableHlo.devRef_mem_tcRefs main_arg0, by decide⟩)).trans (V32_main_arg0 m o c),
        (h (Proc.devRef .tc main_arg1) (Finset.mem_filter.mpr ⟨StableHlo.devRef_mem_tcRefs main_arg1, by decide⟩)).trans (V32_main_arg1 m o c),
        (h (Proc.devRef .tc main_arg2) (Finset.mem_filter.mpr ⟨StableHlo.devRef_mem_tcRefs main_arg2, by decide⟩)).trans (V32_main_arg2 m o c),
        (h (Proc.devRef .tc main_arg3) (Finset.mem_filter.mpr ⟨StableHlo.devRef_mem_tcRefs main_arg3, by decide⟩)).trans (V32_main_arg3 m o c),
        (h (Proc.devRef .tc main_arg4) (Finset.mem_filter.mpr ⟨StableHlo.devRef_mem_tcRefs main_arg4, by decide⟩)).trans (V32_main_arg4 m o c),
        (h (Proc.devRef .tc main_arg5) (Finset.mem_filter.mpr ⟨StableHlo.devRef_mem_tcRefs main_arg5, by decide⟩)).trans (V32_main_arg5 m o c)⟩
    · iexact HSI

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (fun c b => V13 m c b) c
  | ⟨1, _⟩ => fun c => dat1 (fun c b => V15 m (outs m) c b) c
  | ⟨2, _⟩ => fun c => dat2 (fun c b => V29 m (outs m) c b) c
  | ⟨3, _⟩ => fun c => dat3 (fun c b => V31 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-! ## At a region's exit: its arrays hold what the pipeline leaves, every other buffer what it held at entry -/

/-- An input array is never written and is not the buffer the region changes; the output array holds the region's result. -/
theorem hF0 (c : Dev nD) (w : Fin cfg0.W) :
    (dat0 (fun c b => V13 m c b) c).arrAt w cfg0.N = V14 m (outs m) c (Pipeline.arrRef spec0 w) :=
  match w with
  | ⟨0, _⟩ => ((dat0 (fun c b => V13 m c b) c).arrAt_in 0 rfl _).trans
      ((A_eq0 (fun c b => V13 m c b) c 0).trans (V14_of m (outs m) c (Pipeline.arrRef spec0 0) (by decide)).symm)
  | ⟨1, _⟩ => ((dat0 (fun c b => V13 m c b) c).arrAt_in 1 rfl _).trans
      ((A_eq0 (fun c b => V13 m c b) c 1).trans (V14_of m (outs m) c (Pipeline.arrRef spec0 1) (by decide)).symm)
  | ⟨2, _⟩ => ((dat0 (fun c b => V13 m c b) c).arrAt_in 2 rfl _).trans
      ((A_eq0 (fun c b => V13 m c b) c 2).trans (V14_of m (outs m) c (Pipeline.arrRef spec0 2) (by decide)).symm)
  | ⟨3, _⟩ => (outs_14 m c).symm.trans (Function.update_self (β := fun b : DevRef τ sig => b.ty.Contents (Elt F)) main_v51 _ (V13 m c)).symm

theorem hrest0 (c : Dev nD) : ∀ b : Ref sig .tc, b ∉ Finset.univ.image (Pipeline.arrRef spec0) → V14 m (outs m) c b = V13 m c b :=
  fun b hb => V14_of m (outs m) c b fun hmem => hb (by
    rw [List.mem_singleton] at hmem; subst hmem
    exact Finset.mem_image.mpr ⟨3, Finset.mem_univ _, rfl⟩)

/-- An input array is never written and is not the buffer the region changes; the output array holds the region's result. -/
theorem hF1 (c : Dev nD) (w : Fin cfg1.W) :
    (dat1 (fun c b => V15 m (outs m) c b) c).arrAt w cfg1.N = V16 m (outs m) c (Pipeline.arrRef spec1 w) :=
  match w with
  | ⟨0, _⟩ => ((dat1 (fun c b => V15 m (outs m) c b) c).arrAt_in 0 rfl _).trans
      ((A_eq1 (fun c b => V15 m (outs m) c b) c 0).trans (V16_of m (outs m) c (Pipeline.arrRef spec1 0) (by decide)).symm)
  | ⟨1, _⟩ => ((dat1 (fun c b => V15 m (outs m) c b) c).arrAt_in 1 rfl _).trans
      ((A_eq1 (fun c b => V15 m (outs m) c b) c 1).trans (V16_of m (outs m) c (Pipeline.arrRef spec1 1) (by decide)).symm)
  | ⟨2, _⟩ => ((dat1 (fun c b => V15 m (outs m) c b) c).arrAt_in 2 rfl _).trans
      ((A_eq1 (fun c b => V15 m (outs m) c b) c 2).trans (V16_of m (outs m) c (Pipeline.arrRef spec1 2) (by decide)).symm)
  | ⟨3, _⟩ => (outs_16 m c).symm.trans (Function.update_self (β := fun b : DevRef τ sig => b.ty.Contents (Elt F)) main_v104 _ (V15 m (outs m) c)).symm

theorem hrest1 (c : Dev nD) : ∀ b : Ref sig .tc, b ∉ Finset.univ.image (Pipeline.arrRef spec1) → V16 m (outs m) c b = V15 m (outs m) c b :=
  fun b hb => V16_of m (outs m) c b fun hmem => hb (by
    rw [List.mem_singleton] at hmem; subst hmem
    exact Finset.mem_image.mpr ⟨3, Finset.mem_univ _, rfl⟩)

/-- An input array is never written and is not the buffer the region changes; the output array holds the region's result. -/
theorem hF2 (c : Dev nD) (w : Fin cfg2.W) :
    (dat2 (fun c b => V29 m (outs m) c b) c).arrAt w cfg2.N = V30 m (outs m) c (Pipeline.arrRef spec2 w) :=
  match w with
  | ⟨0, _⟩ => ((dat2 (fun c b => V29 m (outs m) c b) c).arrAt_in 0 rfl _).trans
      ((A_eq2 (fun c b => V29 m (outs m) c b) c 0).trans (V30_of m (outs m) c (Pipeline.arrRef spec2 0) (by decide)).symm)
  | ⟨1, _⟩ => ((dat2 (fun c b => V29 m (outs m) c b) c).arrAt_in 1 rfl _).trans
      ((A_eq2 (fun c b => V29 m (outs m) c b) c 1).trans (V30_of m (outs m) c (Pipeline.arrRef spec2 1) (by decide)).symm)
  | ⟨2, _⟩ => ((dat2 (fun c b => V29 m (outs m) c b) c).arrAt_in 2 rfl _).trans
      ((A_eq2 (fun c b => V29 m (outs m) c b) c 2).trans (V30_of m (outs m) c (Pipeline.arrRef spec2 2) (by decide)).symm)
  | ⟨3, _⟩ => (outs_30 m c).symm.trans (Function.update_self (β := fun b : DevRef τ sig => b.ty.Contents (Elt F)) main_v156 _ (V29 m (outs m) c)).symm

theorem hrest2 (c : Dev nD) : ∀ b : Ref sig .tc, b ∉ Finset.univ.image (Pipeline.arrRef spec2) → V30 m (outs m) c b = V29 m (outs m) c b :=
  fun b hb => V30_of m (outs m) c b fun hmem => hb (by
    rw [List.mem_singleton] at hmem; subst hmem
    exact Finset.mem_image.mpr ⟨3, Finset.mem_univ _, rfl⟩)

/-- An input array is never written and is not the buffer the region changes; the output array holds the region's result. -/
theorem hF3 (c : Dev nD) (w : Fin cfg3.W) :
    (dat3 (fun c b => V31 m (outs m) c b) c).arrAt w cfg3.N = V32 m (outs m) c (Pipeline.arrRef spec3 w) :=
  match w with
  | ⟨0, _⟩ => ((dat3 (fun c b => V31 m (outs m) c b) c).arrAt_in 0 rfl _).trans
      ((A_eq3 (fun c b => V31 m (outs m) c b) c 0).trans (V32_of m (outs m) c (Pipeline.arrRef spec3 0) (by decide)).symm)
  | ⟨1, _⟩ => ((dat3 (fun c b => V31 m (outs m) c b) c).arrAt_in 1 rfl _).trans
      ((A_eq3 (fun c b => V31 m (outs m) c b) c 1).trans (V32_of m (outs m) c (Pipeline.arrRef spec3 1) (by decide)).symm)
  | ⟨2, _⟩ => ((dat3 (fun c b => V31 m (outs m) c b) c).arrAt_in 2 rfl _).trans
      ((A_eq3 (fun c b => V31 m (outs m) c b) c 2).trans (V32_of m (outs m) c (Pipeline.arrRef spec3 2) (by decide)).symm)
  | ⟨3, _⟩ => (outs_32 m c).symm.trans (Function.update_self (β := fun b : DevRef τ sig => b.ty.Contents (Elt F)) main_v209 _ (V31 m (outs m) c)).symm

theorem hrest3 (c : Dev nD) : ∀ b : Ref sig .tc, b ∉ Finset.univ.image (Pipeline.arrRef spec3) → V32 m (outs m) c b = V31 m (outs m) c b :=
  fun b hb => V32_of m (outs m) c b fun hmem => hb (by
    rw [List.mem_singleton] at hmem; subst hmem
    exact Finset.mem_image.mpr ⟨3, Finset.mem_univ _, rfl⟩)

/-! ## The regions as segments -/

set_option backward.isDefEq.respectTransparency.types false in
/-- Region 0 over the thread state: entered from every unscoped buffer at `V13`, left at `V14`. Its arrays split out
    of the unscoped buffers and put back at the exit contents; the generator register into the invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V13 m c b) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V13 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V13 m c b) (fun b => V14 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V15`, left at `V16`. Its arrays split out
    of the unscoped buffers and put back at the exit contents; the generator register into the invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V15 m (outs m) c b) c).loose
  hwaits := Pipeline.hwaits_of_owed_zero _ _ _ _ L lv 1 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V15 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V15 m (outs m) c b) (fun b => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V29`, left at `V30`. Its arrays split out
    of the unscoped buffers and put back at the exit contents; the generator register into the invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V29 m (outs m) c b) c).loose
  hwaits := Pipeline.hwaits_of_owed_zero _ _ _ _ L lv 2 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V29 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V29 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V29 m (outs m) c b) (fun b => V30 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V31`, left at `V32`. Its arrays split out
    of the unscoped buffers and put back at the exit contents; the generator register into the invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V31 m (outs m) c b) c).loose
  hwaits := Pipeline.hwaits_of_owed_zero _ _ _ _ L lv 3 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V31 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V31 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V31 m (outs m) c b) (fun b => V32 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

set_option backward.isDefEq.respectTransparency.types false in
/-- THE RUN: from any memory `m` with zero counters every weakly fair execution of @main terminates, and every final
    memory holds in `main_v209` what region 3 leaves there and each argument as launched. The thread state between two
    segments is every unscoped buffer at that boundary's contents beside the generator register and nothing owed. -/
theorem run (ρ : Dev nD → PrngReg) : θ_run defs (onTc (τ := τ) (main (F := F))) ⟨m, fun _ => 0, ρ⟩ (fun r => ∀ c : Dev nD,
      r.2.mem ((c.tc : Thread nD τ).loc main_v209) = outs m 32 main_v209 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj)) ?hu (fun _ => R) ?hE0 ?hE4
    (reg0 m) (fun _ => .rfl) (fun _ => .rfl) (reg1 m) (fun _ => .rfl) (fun _ => .rfl)
    (reg2 m) (fun _ => .rfl) (fun _ => .rfl) (reg3 m) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE4 =>
    intro c
    iintro ⟨-, HO⟩
    iexact HO

end Cert.Kernel.Hand

end
-- ==== Proof.IdealRegionData.lean ====
/-
  The four pipelined regions of the two-layer relational graph convolution, as data: for each region the block of
  every window at a grid point, read off the arrays the region is entered with; what the body's single store leaves
  in the output window's buffer, as a function of the three input blocks; and the pipeline's proof data built from
  them. Regions 0 and 2 scale the rows of the features by the reciprocal root of the out-degree and multiply by one
  relation's weights (grid: row block × relation); regions 1 and 3 scale each relation's aggregate by the
  reciprocal root of the in-degree, add the relation's bias, sum over the three relations and clip at zero
  (grid: row block). Everything here is stated at any float instance.
-/
import proofs.«142468_j3186865733925_1_alg».proof.Proof.Gen.KernelIdeal.Launch
import proofs.«142468_j3186865733925_1_alg».proof.Proof.Gen.KernelIdeal.Skeleton
import proofs.«142468_j3186865733925_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window BodyObligation)

variable {F : FTy → Type} [FloatOps F]

-- the TensorCore's buffer contents when a region is entered
variable (V : (c : Dev nD) → (b : Ref sig .tc) → Buf (Elt F) ((c : Thread nD τ).loc b))

/-! ## Region 0: rows scaled by out-degree^(-1/2), times one relation's 128×128 weights -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x128 := Rect.unit (s := S2000x128) ![0, 0] S2000x128.size inb_S2000x128_S2000x128_0_0
abbrev r0_d : Rect S1x2000x1 := Rect.unit (s := S1x2000x1) ![0, 0, 0] S1x2000x1.size inb_S1x2000x1_S1x2000x1_0_0_0
abbrev r0_w : Rect S1x128x128 := Rect.unit (s := S1x128x128) ![0, 0, 0] S1x128x128.size inb_S1x128x128_S1x128x128_0_0_0
abbrev r0_o : Rect S1x2000x128 := Rect.unit (s := S1x2000x128) ![0, 0, 0] S1x2000x128.size inb_S1x2000x128_S1x2000x128_0_0_0

/-- The output window's buffer after the body of region 0: its one store, over the three input blocks. -/
def out0_3 (x0 : Vec F S2000x128 .f32) (x1 : Vec F S1x2000x1 .f32) (x2 : Vec F S1x128x128 .f32) : Vec F S1x2000x128 .f32 :=
  View.canon [⟨r0_o, k0_pay1 (View.ld x0 r0_x) (View.ld x1 r0_d) (View.ld x2 r0_w)⟩]

/-- Proof data of region 0 on core `c`: arrays as entered; inputs keep their blocks, the output takes the store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the three relations' aggregates combined into the first layer's output (128 features) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a0 : Rect S3x2000x128 := Rect.unit (s := S3x2000x128) ![0, 0, 0] S1x2000x128.size inb_S3x2000x128_S1x2000x128_0_0_0
abbrev r1_a1 : Rect S3x2000x128 := Rect.unit (s := S3x2000x128) ![1, 0, 0] S1x2000x128.size inb_S3x2000x128_S1x2000x128_1_0_0
abbrev r1_a2 : Rect S3x2000x128 := Rect.unit (s := S3x2000x128) ![2, 0, 0] S1x2000x128.size inb_S3x2000x128_S1x2000x128_2_0_0
abbrev r1_d0 : Rect S3x2000x1 := Rect.unit (s := S3x2000x1) ![0, 0, 0] S1x2000x1.size inb_S3x2000x1_S1x2000x1_0_0_0
abbrev r1_d1 : Rect S3x2000x1 := Rect.unit (s := S3x2000x1) ![1, 0, 0] S1x2000x1.size inb_S3x2000x1_S1x2000x1_1_0_0
abbrev r1_d2 : Rect S3x2000x1 := Rect.unit (s := S3x2000x1) ![2, 0, 0] S1x2000x1.size inb_S3x2000x1_S1x2000x1_2_0_0
abbrev r1_b0 : Rect S3x128 := Rect.unit (s := S3x128) ![0, 0] S1x128.size inb_S3x128_S1x128_0_0
abbrev r1_b1 : Rect S3x128 := Rect.unit (s := S3x128) ![1, 0] S1x128.size inb_S3x128_S1x128_1_0
abbrev r1_b2 : Rect S3x128 := Rect.unit (s := S3x128) ![2, 0] S1x128.size inb_S3x128_S1x128_2_0
abbrev r1_o : Rect S2000x128 := Rect.unit (s := S2000x128) ![0, 0] S2000x128.size inb_S2000x128_S2000x128_0_0

/-- The output window's buffer after the body of region 1, over the three input blocks (aggregates, in-degrees, biases). -/
def out1_3 (x0 : Vec F S3x2000x128 .f32) (x1 : Vec F S3x2000x1 .f32) (x2 : Vec F S3x128 .f32) : Vec F S2000x128 .f32 :=
  View.canon [⟨r1_o, k1_pay1 (k1_pay2 (View.ld x1 r1_d0) (View.ld x0 r1_a0) (View.ld x2 r1_b0) (View.ld x1 r1_d1) (View.ld x0 r1_a1)
    (View.ld x2 r1_b1) (View.ld x1 r1_d2) (View.ld x0 r1_a2)) (View.ld x2 r1_b2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: as region 0, on the first layer's output, with 128×64 weights -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S2000x128 := Rect.unit (s := S2000x128) ![0, 0] S2000x128.size inb_S2000x128_S2000x128_0_0
abbrev r2_d : Rect S1x2000x1 := Rect.unit (s := S1x2000x1) ![0, 0, 0] S1x2000x1.size inb_S1x2000x1_S1x2000x1_0_0_0
abbrev r2_w : Rect S1x128x64 := Rect.unit (s := S1x128x64) ![0, 0, 0] S1x128x64.size inb_S1x128x64_S1x128x64_0_0_0
abbrev r2_o : Rect S1x2000x64 := Rect.unit (s := S1x2000x64) ![0, 0, 0] S1x2000x64.size inb_S1x2000x64_S1x2000x64_0_0_0

def out2_3 (x0 : Vec F S2000x128 .f32) (x1 : Vec F S1x2000x1 .f32) (x2 : Vec F S1x128x64 .f32) : Vec F S1x2000x64 .f32 :=
  View.canon [⟨r2_o, k2_pay1 (View.ld x0 r2_x) (View.ld x1 r2_d) (View.ld x2 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-! ## Region 3: as region 1, for the second layer (64 features) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a0 : Rect S3x2000x64 := Rect.unit (s := S3x2000x64) ![0, 0, 0] S1x2000x64.size inb_S3x2000x64_S1x2000x64_0_0_0
abbrev r3_a1 : Rect S3x2000x64 := Rect.unit (s := S3x2000x64) ![1, 0, 0] S1x2000x64.size inb_S3x2000x64_S1x2000x64_1_0_0
abbrev r3_a2 : Rect S3x2000x64 := Rect.unit (s := S3x2000x64) ![2, 0, 0] S1x2000x64.size inb_S3x2000x64_S1x2000x64_2_0_0
abbrev r3_d0 : Rect S3x2000x1 := Rect.unit (s := S3x2000x1) ![0, 0, 0] S1x2000x1.size inb_S3x2000x1_S1x2000x1_0_0_0
abbrev r3_d1 : Rect S3x2000x1 := Rect.unit (s := S3x2000x1) ![1, 0, 0] S1x2000x1.size inb_S3x2000x1_S1x2000x1_1_0_0
abbrev r3_d2 : Rect S3x2000x1 := Rect.unit (s := S3x2000x1) ![2, 0, 0] S1x2000x1.size inb_S3x2000x1_S1x2000x1_2_0_0
abbrev r3_b0 : Rect S3x64 := Rect.unit (s := S3x64) ![0, 0] S1x64.size inb_S3x64_S1x64_0_0
abbrev r3_b1 : Rect S3x64 := Rect.unit (s := S3x64) ![1, 0] S1x64.size inb_S3x64_S1x64_1_0
abbrev r3_b2 : Rect S3x64 := Rect.unit (s := S3x64) ![2, 0] S1x64.size inb_S3x64_S1x64_2_0
abbrev r3_o : Rect S2000x64 := Rect.unit (s := S2000x64) ![0, 0] S2000x64.size inb_S2000x64_S2000x64_0_0

def out3_3 (x0 : Vec F S3x2000x64 .f32) (x1 : Vec F S3x2000x1 .f32) (x2 : Vec F S3x64 .f32) : Vec F S2000x64 .f32 :=
  View.canon [⟨r3_o, k3_pay1 (k3_pay2 (View.ld x1 r3_d0) (View.ld x0 r3_a0) (View.ld x2 r3_b0) (View.ld x1 r3_d1) (View.ld x0 r3_a1)
    (View.ld x2 r3_b1) (View.ld x1 r3_d2) (View.ld x0 r3_a2)) (View.ld x2 r3_b2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.KernelIdeal.Hand

end
-- ==== Proof.IdealBody0.lean ====
/-
  Region 0 of the two-layer relational graph convolution: the body obligation of its pipeline.
  At each point (row block, relation) the body reads a 2000×128 block of feature rows, the 2000 out-degrees of
  those rows for the relation, and the relation's 128×128 weights, and writes the 2000×128 product of the rows
  scaled by out-degree^(-1/2) with the weights. Shown here, at any float instance: the body's triple on whole
  buffers; that each input buffer holds its block at every point, whether or not it was brought in afresh there;
  and from the two the obligation the pipeline asks of the body at a generic point.
-/
import proofs.«142468_j3186865733925_1_alg».proof.Proof.IdealRegionData
import Idealize.ShloMosaic.Lib.Tactic

-- membership in a rectangle with a 2000-long axis: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The feature rows' buffer holds row block `t / 3` at every point `t`. The block is brought in only when the
    row block changes (at the points ≡ 0 mod 3); at the two points in between the block index has not moved and
    the body has left the buffer as it found it, so it still holds the same block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The out-degrees' buffer holds its block (one relation, one row block) at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The weights' buffer holds the relation's matrix at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's single store covers the output buffer -/

/-- The one store writes the whole 1×2000×128 rectangle, so every index of the output buffer lies in it. -/
theorem cover0_3 (p0 : Vec F S1x2000x128 .f32) (y : S1x2000x128.Idx) :
    ∃ pc ∈ ([⟨r0_o, p0⟩] : List (View.Piece (Elt F) S1x2000x128 .f32)), y ∈ pc.1.set :=
  View.cover_of_tiled [⟨r0_o, p0⟩] S1x2000x128.size (by rfl) y

/-! ## The body's triple -/

set_option maxHeartbeats 1000000 in
/-- The body on four whole buffers: with the inputs reading `x0`, `x1`, `x2` and the output holding anything, it
    runs to a state where the inputs read what they did and the output reads `out0_3 x0 x1 x2`. The body loads the
    three inputs whole (and the output, whose value it drops), and stores one value over the whole output; reading
    the buffer back after a store that covers it gives the stored value at every index. -/
theorem sound_kernel0 (c : Dev nD) (E : Set ℕ) (i : grid0.Coords)
    (arg0 : Memref sig .tc .vmem S2000x128 .f32) (harg0 : arg0.IsWhole)
    (arg1 : Memref sig .tc .vmem S1x2000x1 .f32) (harg1 : arg1.IsWhole)
    (arg2 : Memref sig .tc .vmem S1x128x128 .f32) (harg2 : arg2.IsWhole)
    (arg3 : Memref sig .tc .vmem S1x2000x128 .f32) (harg3 : arg3.IsWhole)
    (x0 : Vec F S2000x128 .f32) (x1 : Vec F S1x2000x1 .f32) (x2 : Vec F S1x128x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E
          (cc0__scale_matmul_kernel i arg0 harg0 arg1 harg1 arg2 harg2 arg3 harg3) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation at a generic point -/

/-- What the body is entered with at point `t`: the region's invariant, the core's debt (none), and the four
    current staging buffers, the inputs holding whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: each input buffer holds its block there, so the body's triple applies with the three
    blocks for `x0`, `x1`, `x2`; the invariant and the debt are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every point of its 50 × 3 grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealBody1.lean ====
/-
  Region 1 of the two-layer relational graph convolution: the body obligation of its pipeline.
  At each row block the body reads the three relations' aggregated rows (3×2000×128), the in-degrees of those
  rows per relation (3×2000×1) and the three biases (3×128); it scales each relation's aggregate by
  in-degree^(-1/2), adds the relation's bias, sums over the relations, clips at zero, and writes the 2000×128
  result. Shown here, at any float instance: the body's triple on whole buffers; that each input buffer holds its
  block at every point, whether or not it was brought in afresh there; and from the two the obligation the
  pipeline asks of the body at a generic point.
-/
import proofs.«142468_j3186865733925_1_alg».proof.Proof.IdealRegionData
import Idealize.ShloMosaic.Lib.Tactic

-- membership in a rectangle with a 2000-long axis: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The aggregates' buffer holds the three relations' rows of row block `t` at every point `t`. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The in-degrees' buffer holds the three relations' degrees of row block `t` at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The biases' buffer holds the whole 3×128 array at every point. Its block index is constant over the grid, so it
    is brought in at the first point only; at every later point the index has not moved and the body has left
    the buffer as it found it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's single store covers the output buffer -/

/-- The one store writes the whole 2000×128 rectangle, so every index of the output buffer lies in it. -/
theorem cover1_3 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

/-! ## The body's triple -/

set_option maxHeartbeats 1000000 in
/-- The body on four whole buffers: with the inputs reading `x0` (aggregates), `x1` (in-degrees), `x2` (biases) and
    the output holding anything, it runs to a state where the inputs read what they did and the output reads
    `out1_3 x0 x1 x2`. Its first part loads, relation by relation, the degrees, the aggregate and the bias (the
    third relation's bias is loaded after the part returns) and returns the running sum; the body then adds the
    last bias, clips at zero and stores the result over the whole output. -/
theorem sound_kernel1 (c : Dev nD) (E : Set ℕ) (i : grid1.Coords)
    (arg0 : Memref sig .tc .vmem S3x2000x128 .f32) (harg0 : arg0.IsWhole)
    (arg1 : Memref sig .tc .vmem S3x2000x1 .f32) (harg1 : arg1.IsWhole)
    (arg2 : Memref sig .tc .vmem S3x128 .f32) (harg2 : arg2.IsWhole)
    (arg3 : Memref sig .tc .vmem S2000x128 .f32) (harg3 : arg3.IsWhole)
    (x0 : Vec F S3x2000x128 .f32) (x1 : Vec F S3x2000x1 .f32) (x2 : Vec F S3x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E
          (cc1__combine_kernel i arg0 harg0 arg1 harg1 arg2 harg2 arg3 harg3) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The body obligation at a generic point -/

/-- What the body is entered with at point `t`: the region's invariant, the core's debt (none), and the four
    current staging buffers, the inputs holding whatever the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same invariant and debt, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: each input buffer holds its block there, so the body's triple applies with the three
    blocks for `x0`, `x1`, `x2`; the invariant and the debt are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point of its grid of 50 row blocks. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealBody2.lean ====
/-
  Region 2 of the two-layer relational graph convolution: the body obligation of its pipeline.
  At each point (row block, relation) the body reads a 2000×128 block of rows of the first layer's output, the 2000 out-degrees of
  those rows for the relation, and the relation's 128×64 weights, and writes the 2000×64 product of the rows
  scaled by out-degree^(-1/2) with the weights. Shown here, at any float instance: the body's triple on whole
  buffers; that each input buffer holds its block at every point, whether or not it was brought in afresh there;
  and from the two the obligation the pipeline asks of the body at a generic point.
-/
import proofs.«142468_j3186865733925_1_alg».proof.Proof.IdealRegionData
import Idealize.ShloMosaic.Lib.Tactic

-- membership in a rectangle with a 2000-long axis: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The first layer's rows' buffer holds row block `t / 3` at every point `t`. The block is brought in only when the
    row block changes (at the points ≡ 0 mod 3); at the two points in between the block index has not moved and
    the body has left the buffer as it found it, so it still holds the same block. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The out-degrees' buffer holds its block (one relation, one row block) at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The weights' buffer holds the relation's matrix at every point. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's single store covers the output buffer -/

/-- The one store writes the whole 1×2000×64 rectangle, so every index of the output buffer lies in it. -/
theorem cover2_3 (p0 : Vec F S1x2000x64 .f32) (y : S1x2000x64.Idx) :
    ∃ pc ∈ ([⟨r2_o, p0⟩] : List (View.Piece (Elt F) S1x2000x64 .f32)), y ∈ pc.1.set :=
  View.cover_of_tiled [⟨r2_o, p0⟩] S1x2000x64.size (by rfl) y

/-! ## The body's triple -/

set_option maxHeartbeats 1000000 in
/-- The body on four whole buffers: with the inputs reading `x0`, `x1`, `x2` and the output holding anything, it
    runs to a state where the inputs read what they did and the output reads `out2_3 x0 x1 x2`. The body loads the
    three inputs whole (and the output, whose value it drops), and stores one value over the whole output; reading
    the buffer back after a store that covers it gives the stored value at every index. -/
theorem sound_kernel2 (c : Dev nD) (E : Set ℕ) (i : grid2.Coords)
    (arg0 : Memref sig .tc .vmem S2000x128 .f32) (harg0 : arg0.IsWhole)
    (arg1 : Memref sig .tc .vmem S1x2000x1 .f32) (harg1 : arg1.IsWhole)
    (arg2 : Memref sig .tc .vmem S1x128x64 .f32) (harg2 : arg2.IsWhole)
    (arg3 : Memref sig .tc .vmem S1x2000x64 .f32) (harg3 : arg3.IsWhole)
    (x0 : Vec F S2000x128 .f32) (x1 : Vec F S1x2000x1 .f32) (x2 : Vec F S1x128x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E
          (cc2__scale_matmul_kernel i arg0 harg0 arg1 harg1 arg2 harg2 arg3 harg3) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation at a generic point -/

/-- What the body is entered with at point `t`: the region's invariant, the core's debt (none), and the four
    current staging buffers, the inputs holding whatever the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, and each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: each input buffer holds its block there, so the body's triple applies with the three
    blocks for `x0`, `x1`, `x2`; the invariant and the debt are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 2, at every point of its 50 × 3 grid. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealBody3.lean ====
/-
  Region 3 of the two-layer relational graph convolution: the body obligation of its pipeline.
  At each row block the body reads the three relations' aggregated rows of the second layer (3×2000×64), the in-degrees of those
  rows per relation (3×2000×1) and the three biases (3×64); it scales each relation's aggregate by
  in-degree^(-1/2), adds the relation's bias, sums over the relations, clips at zero, and writes the 2000×64
  result. Shown here, at any float instance: the body's triple on whole buffers; that each input buffer holds its
  block at every point, whether or not it was brought in afresh there; and from the two the obligation the
  pipeline asks of the body at a generic point.
-/
import proofs.«142468_j3186865733925_1_alg».proof.Proof.IdealRegionData
import Idealize.ShloMosaic.Lib.Tactic

-- membership in a rectangle with a 2000-long axis: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in its three input buffers -/

/-- The aggregates' buffer holds the three relations' rows of row block `t` at every point `t`. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- The in-degrees' buffer holds the three relations' degrees of row block `t` at every point. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The biases' buffer holds the whole 3×64 array at every point. Its block index is constant over the grid, so it
    is brought in at the first point only; at every later point the index has not moved and the body has left
    the buffer as it found it. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body's single store covers the output buffer -/

/-- The one store writes the whole 2000×64 rectangle, so every index of the output buffer lies in it. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 1000000 in
/-- The body on four whole buffers: with the inputs reading `x0` (aggregates), `x1` (in-degrees), `x2` (biases) and
    the output holding anything, it runs to a state where the inputs read what they did and the output reads
    `out3_3 x0 x1 x2`. Its first part loads, relation by relation, the degrees, the aggregate and the bias (the
    third relation's bias is loaded after the part returns) and returns the running sum; the body then adds the
    last bias, clips at zero and stores the result over the whole output. -/
theorem sound_kernel3 (c : Dev nD) (E : Set ℕ) (i : grid3.Coords)
    (arg0 : Memref sig .tc .vmem S3x2000x64 .f32) (harg0 : arg0.IsWhole)
    (arg1 : Memref sig .tc .vmem S3x2000x1 .f32) (harg1 : arg1.IsWhole)
    (arg2 : Memref sig .tc .vmem S3x64 .f32) (harg2 : arg2.IsWhole)
    (arg3 : Memref sig .tc .vmem S2000x64 .f32) (harg3 : arg3.IsWhole)
    (x0 : Vec F S3x2000x64 .f32) (x1 : Vec F S3x2000x1 .f32) (x2 : Vec F S3x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out3_3 x0 x1 x2)) -∗ K ⟨⟩))
      ⊢ wp frame (wpE (defs₀ (F := F)) Variants.none c none) E
          (cc3__combine_kernel i arg0 harg0 arg1 harg1 arg2 harg2 arg3 harg3) K := by
  simp only [cc3__combine_kernel_eq_skeleton]; unfold cc3__combine_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The body obligation at a generic point -/

/-- What the body is entered with at point `t`: the region's invariant, the core's debt (none), and the four
    current staging buffers, the inputs holding whatever the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns: the same invariant and debt, and each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: each input buffer holds its block there, so the body's triple applies with the three
    blocks for `x0`, `x1`, `x2`; the invariant and the debt are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 3, at every point of its grid of 50 row blocks. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRun.lean ====
/-
  The run of the two-layer relational graph convolution's @main over its segments. The four pipelined regions are entered
  one after another, host operations between them; what each leaves in its output buffer is defined region by region,
  each from the buffer contents the earlier regions determine (region 0's entry contents depend on no region, region 1's
  on region 0's output only, and so on), so the family of outputs is well founded. Each region is then a segment over the
  thread state "every unscoped buffer at the boundary's contents, the generator register at some state, nothing owed":
  its arrays are split out of the unscoped buffers at entry and put back at exit, where the input arrays are unchanged
  and the output array holds what the pipeline's write-backs leave. The run theorem reads the last region's output
  buffer, and each argument, off the final memory. Everything here is stated at any float instance.
-/
import proofs.«142468_j3186865733925_1_alg».proof.Proof.IdealRegionData
import proofs.«142468_j3186865733925_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import proofs.«142468_j3186865733925_1_alg».proof.Proof.IdealBody0
import proofs.«142468_j3186865733925_1_alg».proof.Proof.IdealBody1
import proofs.«142468_j3186865733925_1_alg».proof.Proof.IdealBody2
import proofs.«142468_j3186865733925_1_alg».proof.Proof.IdealBody3

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the four regions leave, stage by stage

Region 0 is entered at contents that do not depend on any region's output; region 1's entry contents depend only on
what region 0 left, region 2's on what regions 0 and 1 left, region 3's on all three. The outputs are therefore
defined one region at a time, each from the valuation the earlier ones determine. -/

/-- A TensorCore's buffer contents, one core at a time, read at its own references. -/
abbrev TcVal : Type := (c : Dev nD) → (b : Ref sig .tc) → Buf (Elt F) ((c : Thread nD τ).loc b)

/-- After region 0: its arrays at what the pipeline leaves, every other buffer as entered. -/
def X14 (c : Dev nD) : Valuation τ sig (Elt F) :=
  Pipeline.withArrays spec0 c (V13 m c) fun w => (dat0 (fun c b => V13 m c b) c).arrAt w cfg0.N
/-- The regions' outputs as known after region 0. -/
def oA : Outs (F := F) := fun _ r c => X14 m c r

/-- After region 1, entered at the contents region 0's output determines. -/
def X16 (c : Dev nD) : Valuation τ sig (Elt F) :=
  Pipeline.withArrays spec1 c (V15 m (oA m) c) fun w => (dat1 (fun c b => V15 m (oA m) c b) c).arrAt w cfg1.N
/-- The regions' outputs as known after region 1. -/
def oB : Outs (F := F) := fun J r c => if J ≤ 14 then X14 m c r else X16 m c r

/-- After region 2. -/
def X30 (c : Dev nD) : Valuation τ sig (Elt F) :=
  Pipeline.withArrays spec2 c (V29 m (oB m) c) fun w => (dat2 (fun c b => V29 m (oB m) c b) c).arrAt w cfg2.N
/-- The regions' outputs as known after region 2. -/
def oC : Outs (F := F) := fun J r c => if J ≤ 14 then X14 m c r else if J ≤ 16 then X16 m c r else X30 m c r

/-- After region 3. -/
def X32 (c : Dev nD) : Valuation τ sig (Elt F) :=
  Pipeline.withArrays spec3 c (V31 m (oC m) c) fun w => (dat3 (fun c b => V31 m (oC m) c b) c).arrAt w cfg3.N

/-- What the four regions leave in the buffers they write. -/
def outs : Outs (F := F) := fun J r c =>
  if J ≤ 14 then X14 m c r else if J ≤ 16 then X16 m c r else if J ≤ 30 then X30 m c r else X32 m c r

/-! ### The valuations depend on the outputs only at the points read before them -/

section Congr
variable (o o' : Outs (F := F)) (c : Dev nD)

theorem V14_congr (h14 : o 14 main_v51 c = o' 14 main_v51 c) : V14 m o c = V14 m o' c :=
  congrArg (Function.update (V13 m c) main_v51) h14

theorem V15_congr (h14 : o 14 main_v51 c = o' 14 main_v51 c) : V15 m o c = V15 m o' c :=
  congrArg (StableHlo.after hostOps1) (V14_congr m o o' c h14)

theorem V16_congr (h14 : o 14 main_v51 c = o' 14 main_v51 c) (h16 : o 16 main_v104 c = o' 16 main_v104 c) :
    V16 m o c = V16 m o' c := by
  show Function.update (V15 m o c) main_v104 (o 16 main_v104 c) = Function.update (V15 m o' c) main_v104 (o' 16 main_v104 c)
  rw [V15_congr m o o' c h14, h16]

theorem V29_congr (h14 : o 14 main_v51 c = o' 14 main_v51 c) (h16 : o 16 main_v104 c = o' 16 main_v104 c) :
    V29 m o c = V29 m o' c :=
  congrArg (StableHlo.after hostOps2_12) <| congrArg (StableHlo.after hostOps2_11) <|
  congrArg (StableHlo.after hostOps2_10) <| congrArg (StableHlo.after hostOps2_9) <|
  congrArg (StableHlo.after hostOps2_8) <| congrArg (StableHlo.after hostOps2_7) <|
  congrArg (StableHlo.after hostOps2_6) <| congrArg (StableHlo.after hostOps2_5) <|
  congrArg (StableHlo.after hostOps2_4) <| congrArg (StableHlo.after hostOps2_3) <|
  congrArg (StableHlo.after hostOps2_2) <| congrArg (StableHlo.after hostOps2_1) <|
  congrArg (StableHlo.after hostOps2) (V16_congr m o o' c h14 h16)

theorem V30_congr (h14 : o 14 main_v51 c = o' 14 main_v51 c) (h16 : o 16 main_v104 c = o' 16 main_v104 c)
    (h30 : o 30 main_v156 c = o' 30 main_v156 c) : V30 m o c = V30 m o' c := by
  show Function.update (V29 m o c) main_v156 (o 30 main_v156 c) = Function.update (V29 m o' c) main_v156 (o' 30 main_v156 c)
  rw [V29_congr m o o' c h14 h16, h30]

theorem V31_congr (h14 : o 14 main_v51 c = o' 14 main_v51 c) (h16 : o 16 main_v104 c = o' 16 main_v104 c)
    (h30 : o 30 main_v156 c = o' 30 main_v156 c) : V31 m o c = V31 m o' c :=
  congrArg (StableHlo.after hostOps3) (V30_congr m o o' c h14 h16 h30)

end Congr

/-! ### The outputs at the points read -/

theorem outs_at14 (r : Ref sig .tc) (c : Dev nD) : outs m 14 r c = X14 m c r := if_pos (by decide)
theorem outs_at16 (r : Ref sig .tc) (c : Dev nD) : outs m 16 r c = X16 m c r :=
  (if_neg (by decide)).trans (if_pos (by decide))
theorem outs_at30 (r : Ref sig .tc) (c : Dev nD) : outs m 30 r c = X30 m c r :=
  (if_neg (by decide)).trans ((if_neg (by decide)).trans (if_pos (by decide)))
theorem outs_at32 (r : Ref sig .tc) (c : Dev nD) : outs m 32 r c = X32 m c r :=
  (if_neg (by decide)).trans ((if_neg (by decide)).trans (if_neg (by decide)))
theorem oB_at14 (r : Ref sig .tc) (c : Dev nD) : oB m 14 r c = X14 m c r := if_pos (by decide)
theorem oB_at16 (r : Ref sig .tc) (c : Dev nD) : oB m 16 r c = X16 m c r := if_neg (by decide)
theorem oC_at14 (r : Ref sig .tc) (c : Dev nD) : oC m 14 r c = X14 m c r := if_pos (by decide)
theorem oC_at16 (r : Ref sig .tc) (c : Dev nD) : oC m 16 r c = X16 m c r :=
  (if_neg (by decide)).trans (if_pos (by decide))
theorem oC_at30 (r : Ref sig .tc) (c : Dev nD) : oC m 30 r c = X30 m c r :=
  (if_neg (by decide)).trans (if_neg (by decide))

/-- Region 1's entry contents under the final outputs are those under region 0's output alone. -/
theorem entry1_eq : ((fun c b => V15 m (outs m) c b : TcVal (F := F))) = ((fun c b => V15 m (oA m) c b : TcVal (F := F))) :=
  funext fun c => funext fun b => congrFun (V15_congr m (outs m) (oA m) c (outs_at14 m _ c)) _

/-- Region 2's entry contents under the final outputs are those under the first two outputs. -/
theorem entry2_eq : ((fun c b => V29 m (outs m) c b : TcVal (F := F))) = ((fun c b => V29 m (oB m) c b : TcVal (F := F))) :=
  funext fun c => funext fun b => congrFun (V29_congr m (outs m) (oB m) c
    ((outs_at14 m _ c).trans (oB_at14 m _ c).symm) ((outs_at16 m _ c).trans (oB_at16 m _ c).symm)) _

/-- Region 3's entry contents under the final outputs are those under the first three outputs. -/
theorem entry3_eq : ((fun c b => V31 m (outs m) c b : TcVal (F := F))) = ((fun c b => V31 m (oC m) c b : TcVal (F := F))) :=
  funext fun c => funext fun b => congrFun (V31_congr m (outs m) (oC m) c
    ((outs_at14 m _ c).trans (oC_at14 m _ c).symm) ((outs_at16 m _ c).trans (oC_at16 m _ c).symm)
    ((outs_at30 m _ c).trans (oC_at30 m _ c).symm)) _

/-- Region 0 leaves in its output array what its pipeline's write-backs make of the entry contents. -/
theorem outs_14 (c : Dev nD) : outs m 14 main_v51 c = (dat0 (fun c b => V13 m c b) c).arrAt 3 cfg0.N :=
  (outs_at14 m main_v51 c).trans (Pipeline.withArrays_arr spec0 launch0.win.arr_inj c _ _ 3)

theorem outs_16 (c : Dev nD) : outs m 16 main_v104 c = (dat1 (fun c b => V15 m (outs m) c b) c).arrAt 3 cfg1.N :=
  ((outs_at16 m main_v104 c).trans (Pipeline.withArrays_arr spec1 launch1.win.arr_inj c _ _ 3)).trans
    (congrArg (fun V => (dat1 V c).arrAt 3 cfg1.N) (entry1_eq m).symm)

theorem outs_30 (c : Dev nD) : outs m 30 main_v156 c = (dat2 (fun c b => V29 m (outs m) c b) c).arrAt 3 cfg2.N :=
  ((outs_at30 m main_v156 c).trans (Pipeline.withArrays_arr spec2 launch2.win.arr_inj c _ _ 3)).trans
    (congrArg (fun V => (dat2 V c).arrAt 3 cfg2.N) (entry2_eq m).symm)

theorem outs_32 (c : Dev nD) : outs m 32 main_v209 c = (dat3 (fun c b => V31 m (outs m) c b) c).arrAt 3 cfg3.N :=
  ((outs_at32 m main_v209 c).trans (Pipeline.withArrays_arr spec3 launch3.win.arr_inj c _ _ 3)).trans
    (congrArg (fun V => (dat3 V c).arrAt 3 cfg3.N) (entry3_eq m).symm)

/-! ## The run, given the regions' records -/

set_option backward.isDefEq.respectTransparency.types false in
/-- The run of @main from the regions' records, for any contents `o` the regions leave: every weakly fair execution from
    memory `m` with zero counters terminates, and every final memory holds in the last region's output buffer what the last
    valuation has there, and each argument as launched. The launch over @main's segments, the last thread state read against the
    final state. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (o : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m o c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m o c) ∗ E 1 c) ⊢ R1.pre c)
    (hpost1 : ∀ c : Dev nD, R1.post c ⊢ iprop(StableHlo.held (c : Thread nD τ) (Pipeline.ucRefs τ sig) (V16 m o c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V29 m o c) ∗ E 2 c) ⊢ R2.pre c)
    (hpost2 : ∀ c : Dev nD, R2.post c ⊢ iprop(StableHlo.held (c : Thread nD τ) (Pipeline.ucRefs τ sig) (V30 m o c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V31 m o c) ∗ E 3 c) ⊢ R3.pre c)
    (hpost3 : ∀ c : Dev nD, R3.post c ⊢ iprop(StableHlo.held (c : Thread nD τ) (Pipeline.ucRefs τ sig) (V32 m o c) ∗ E 4 c)) :
    θ_run defs (onTc (τ := τ) (main (F := F))) ⟨m, fun _ => 0, ρ⟩ (fun r => ∀ c : Dev nD,
      r.2.mem ((c.tc : Thread nD τ).loc main_v209) = o 32 main_v209 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m o 𝒱₀ L lv E ι pdats R0 R1 R2 R3)
    (fun c Q => by
      rewrite [main_chain c, Seg.run_eq_chain,
        show (segs m o 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V32 m o c))
    (hch := fun c => ⟨.rfl, .rfl, .rfl, .rfl, .rfl, .rfl, .rfl, .rfl, .rfl, .rfl, .rfl, .rfl, .rfl, hpre0 c, hpost0 c, hpre1 c, hpost1 c, .rfl, .rfl, .rfl, .rfl, .rfl, .rfl, .rfl, .rfl, .rfl, .rfl, .rfl, .rfl, hpre2 c, hpost2 c, hpre3 c, (hpost3 c).trans (sep_mono .rfl (hE4 c))⟩)
    (hinit := ?_) (QY := fun c s => s.mem ((c.tc : Thread nD τ).loc main_v209) = o 32 main_v209 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V32 m o c) s') $$ [Hh HSI]
    · isplitl [Hh] <;> iassumption
    icases Hr with ⟨%h, HSI⟩
    imodintro
    isplitr
    · ipureintro
      exact ⟨(h (Proc.devRef .tc main_v209) (Finset.mem_filter.mpr ⟨StableHlo.devRef_mem_tcRefs main_v209, by decide⟩)).trans
          (Function.update_self (β := fun b : DevRef τ sig => b.ty.Contents (Elt F)) main_v209 _ (V31 m o c)),
        (h (Proc.devRef .tc main_arg0) (Finset.mem_filter.mpr ⟨StableHlo.devRef_mem_tcRefs main_arg0, by decide⟩)).trans (V32_main_arg0 m o c),
        (h (Proc.devRef .tc main_arg1) (Finset.mem_filter.mpr ⟨StableHlo.devRef_mem_tcRefs main_arg1, by decide⟩)).trans (V32_main_arg1 m o c),
        (h (Proc.devRef .tc main_arg2) (Finset.mem_filter.mpr ⟨StableHlo.devRef_mem_tcRefs main_arg2, by decide⟩)).trans (V32_main_arg2 m o c),
        (h (Proc.devRef .tc main_arg3) (Finset.mem_filter.mpr ⟨StableHlo.devRef_mem_tcRefs main_arg3, by decide⟩)).trans (V32_main_arg3 m o c),
        (h (Proc.devRef .tc main_arg4) (Finset.mem_filter.mpr ⟨StableHlo.devRef_mem_tcRefs main_arg4, by decide⟩)).trans (V32_main_arg4 m o c),
        (h (Proc.devRef .tc main_arg5) (Finset.mem_filter.mpr ⟨StableHlo.devRef_mem_tcRefs main_arg5, by decide⟩)).trans (V32_main_arg5 m o c)⟩
    · iexact HSI

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (fun c b => V13 m c b) c
  | ⟨1, _⟩ => fun c => dat1 (fun c b => V15 m (outs m) c b) c
  | ⟨2, _⟩ => fun c => dat2 (fun c b => V29 m (outs m) c b) c
  | ⟨3, _⟩ => fun c => dat3 (fun c b => V31 m (outs m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-! ## At a region's exit: its arrays hold what the pipeline leaves, every other buffer what it held at entry -/

/-- An input array is never written and is not the buffer the region changes; the output array holds the region's result. -/
theorem hF0 (c : Dev nD) (w : Fin cfg0.W) :
    (dat0 (fun c b => V13 m c b) c).arrAt w cfg0.N = V14 m (outs m) c (Pipeline.arrRef spec0 w) :=
  match w with
  | ⟨0, _⟩ => ((dat0 (fun c b => V13 m c b) c).arrAt_in 0 rfl _).trans
      ((A_eq0 (fun c b => V13 m c b) c 0).trans (V14_of m (outs m) c (Pipeline.arrRef spec0 0) (by decide)).symm)
  | ⟨1, _⟩ => ((dat0 (fun c b => V13 m c b) c).arrAt_in 1 rfl _).trans
      ((A_eq0 (fun c b => V13 m c b) c 1).trans (V14_of m (outs m) c (Pipeline.arrRef spec0 1) (by decide)).symm)
  | ⟨2, _⟩ => ((dat0 (fun c b => V13 m c b) c).arrAt_in 2 rfl _).trans
      ((A_eq0 (fun c b => V13 m c b) c 2).trans (V14_of m (outs m) c (Pipeline.arrRef spec0 2) (by decide)).symm)
  | ⟨3, _⟩ => (outs_14 m c).symm.trans (Function.update_self (β := fun b : DevRef τ sig => b.ty.Contents (Elt F)) main_v51 _ (V13 m c)).symm

theorem hrest0 (c : Dev nD) : ∀ b : Ref sig .tc, b ∉ Finset.univ.image (Pipeline.arrRef spec0) → V14 m (outs m) c b = V13 m c b :=
  fun b hb => V14_of m (outs m) c b fun hmem => hb (by
    rw [List.mem_singleton] at hmem; subst hmem
    exact Finset.mem_image.mpr ⟨3, Finset.mem_univ _, rfl⟩)

/-- An input array is never written and is not the buffer the region changes; the output array holds the region's result. -/
theorem hF1 (c : Dev nD) (w : Fin cfg1.W) :
    (dat1 (fun c b => V15 m (outs m) c b) c).arrAt w cfg1.N = V16 m (outs m) c (Pipeline.arrRef spec1 w) :=
  match w with
  | ⟨0, _⟩ => ((dat1 (fun c b => V15 m (outs m) c b) c).arrAt_in 0 rfl _).trans
      ((A_eq1 (fun c b => V15 m (outs m) c b) c 0).trans (V16_of m (outs m) c (Pipeline.arrRef spec1 0) (by decide)).symm)
  | ⟨1, _⟩ => ((dat1 (fun c b => V15 m (outs m) c b) c).arrAt_in 1 rfl _).trans
      ((A_eq1 (fun c b => V15 m (outs m) c b) c 1).trans (V16_of m (outs m) c (Pipeline.arrRef spec1 1) (by decide)).symm)
  | ⟨2, _⟩ => ((dat1 (fun c b => V15 m (outs m) c b) c).arrAt_in 2 rfl _).trans
      ((A_eq1 (fun c b => V15 m (outs m) c b) c 2).trans (V16_of m (outs m) c (Pipeline.arrRef spec1 2) (by decide)).symm)
  | ⟨3, _⟩ => (outs_16 m c).symm.trans (Function.update_self (β := fun b : DevRef τ sig => b.ty.Contents (Elt F)) main_v104 _ (V15 m (outs m) c)).symm

theorem hrest1 (c : Dev nD) : ∀ b : Ref sig .tc, b ∉ Finset.univ.image (Pipeline.arrRef spec1) → V16 m (outs m) c b = V15 m (outs m) c b :=
  fun b hb => V16_of m (outs m) c b fun hmem => hb (by
    rw [List.mem_singleton] at hmem; subst hmem
    exact Finset.mem_image.mpr ⟨3, Finset.mem_univ _, rfl⟩)

/-- An input array is never written and is not the buffer the region changes; the output array holds the region's result. -/
theorem hF2 (c : Dev nD) (w : Fin cfg2.W) :
    (dat2 (fun c b => V29 m (outs m) c b) c).arrAt w cfg2.N = V30 m (outs m) c (Pipeline.arrRef spec2 w) :=
  match w with
  | ⟨0, _⟩ => ((dat2 (fun c b => V29 m (outs m) c b) c).arrAt_in 0 rfl _).trans
      ((A_eq2 (fun c b => V29 m (outs m) c b) c 0).trans (V30_of m (outs m) c (Pipeline.arrRef spec2 0) (by decide)).symm)
  | ⟨1, _⟩ => ((dat2 (fun c b => V29 m (outs m) c b) c).arrAt_in 1 rfl _).trans
      ((A_eq2 (fun c b => V29 m (outs m) c b) c 1).trans (V30_of m (outs m) c (Pipeline.arrRef spec2 1) (by decide)).symm)
  | ⟨2, _⟩ => ((dat2 (fun c b => V29 m (outs m) c b) c).arrAt_in 2 rfl _).trans
      ((A_eq2 (fun c b => V29 m (outs m) c b) c 2).trans (V30_of m (outs m) c (Pipeline.arrRef spec2 2) (by decide)).symm)
  | ⟨3, _⟩ => (outs_30 m c).symm.trans (Function.update_self (β := fun b : DevRef τ sig => b.ty.Contents (Elt F)) main_v156 _ (V29 m (outs m) c)).symm

theorem hrest2 (c : Dev nD) : ∀ b : Ref sig .tc, b ∉ Finset.univ.image (Pipeline.arrRef spec2) → V30 m (outs m) c b = V29 m (outs m) c b :=
  fun b hb => V30_of m (outs m) c b fun hmem => hb (by
    rw [List.mem_singleton] at hmem; subst hmem
    exact Finset.mem_image.mpr ⟨3, Finset.mem_univ _, rfl⟩)

/-- An input array is never written and is not the buffer the region changes; the output array holds the region's result. -/
theorem hF3 (c : Dev nD) (w : Fin cfg3.W) :
    (dat3 (fun c b => V31 m (outs m) c b) c).arrAt w cfg3.N = V32 m (outs m) c (Pipeline.arrRef spec3 w) :=
  match w with
  | ⟨0, _⟩ => ((dat3 (fun c b => V31 m (outs m) c b) c).arrAt_in 0 rfl _).trans
      ((A_eq3 (fun c b => V31 m (outs m) c b) c 0).trans (V32_of m (outs m) c (Pipeline.arrRef spec3 0) (by decide)).symm)
  | ⟨1, _⟩ => ((dat3 (fun c b => V31 m (outs m) c b) c).arrAt_in 1 rfl _).trans
      ((A_eq3 (fun c b => V31 m (outs m) c b) c 1).trans (V32_of m (outs m) c (Pipeline.arrRef spec3 1) (by decide)).symm)
  | ⟨2, _⟩ => ((dat3 (fun c b => V31 m (outs m) c b) c).arrAt_in 2 rfl _).trans
      ((A_eq3 (fun c b => V31 m (outs m) c b) c 2).trans (V32_of m (outs m) c (Pipeline.arrRef spec3 2) (by decide)).symm)
  | ⟨3, _⟩ => (outs_32 m c).symm.trans (Function.update_self (β := fun b : DevRef τ sig => b.ty.Contents (Elt F)) main_v209 _ (V31 m (outs m) c)).symm

theorem hrest3 (c : Dev nD) : ∀ b : Ref sig .tc, b ∉ Finset.univ.image (Pipeline.arrRef spec3) → V32 m (outs m) c b = V31 m (outs m) c b :=
  fun b hb => V32_of m (outs m) c b fun hmem => hb (by
    rw [List.mem_singleton] at hmem; subst hmem
    exact Finset.mem_image.mpr ⟨3, Finset.mem_univ _, rfl⟩)

/-! ## The regions as segments -/

set_option backward.isDefEq.respectTransparency.types false in
/-- Region 0 over the thread state: entered from every unscoped buffer at `V13`, left at `V14`. Its arrays split out
    of the unscoped buffers and put back at the exit contents; the generator register into the invariant and out;
    nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V13 m c b) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V13 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V13 m c b) (fun b => V14 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V15`, left at `V16`. Its arrays split out
    of the unscoped buffers and put back at the exit contents; the generator register into the invariant and out;
    nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V15 m (outs m) c b) c).loose
  hwaits := Pipeline.hwaits_of_owed_zero _ _ _ _ L lv 1 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V15 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V15 m (outs m) c b) (fun b => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V29`, left at `V30`. Its arrays split out
    of the unscoped buffers and put back at the exit contents; the generator register into the invariant and out;
    nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V29 m (outs m) c b) c).loose
  hwaits := Pipeline.hwaits_of_owed_zero _ _ _ _ L lv 2 fun _ _ => rfl
  pre c := iprop(StableHlo.held (c : Thread nD τ) (Pipeline.ucRefs τ sig) (V29 m (outs m) c) ∗ R c)
  post c := iprop(StableHlo.held (c : Thread nD τ) (Pipeline.ucRefs τ sig) (V30 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V29 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V29 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V29 m (outs m) c b) (fun b => V30 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V31`, left at `V32`. Its arrays split out
    of the unscoped buffers and put back at the exit contents; the generator register into the invariant and out;
    nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V31 m (outs m) c b) c).loose
  hwaits := Pipeline.hwaits_of_owed_zero _ _ _ _ L lv 3 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V31 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V31 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V31 m (outs m) c b) (fun b => V32 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

set_option backward.isDefEq.respectTransparency.types false in
/-- THE RUN: from any memory `m` with zero counters every weakly fair execution of @main terminates, and every final
    memory holds in `main_v209` what region 3 leaves there and each argument as launched. The thread state between two
    segments is every unscoped buffer at that boundary's contents beside the generator register and nothing owed. -/
theorem run (ρ : Dev nD → PrngReg) : θ_run defs (onTc (τ := τ) (main (F := F))) ⟨m, fun _ => 0, ρ⟩ (fun r => ∀ c : Dev nD,
      r.2.mem ((c.tc : Thread nD τ).loc main_v209) = outs m 32 main_v209 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj)) ?hu (fun _ => R) ?hE0 ?hE4
    (reg0 m) (fun _ => .rfl) (fun _ => .rfl) (reg1 m) (fun _ => .rfl) (fun _ => .rfl)
    (reg2 m) (fun _ => .rfl) (fun _ => .rfl) (reg3 m) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE4 =>
    intro c
    iintro ⟨-, HO⟩
    iexact HO

end Cert.KernelIdeal.Hand

end
-- ==== Proof.Spec.lean ====
/-
  The mathematics both programs compute, over the extended reals.

  A relational graph convolution with symmetric degree normalisation. For each of three relations `r`, with source
  and destination lists read off the edge array, every node's feature row is scaled by `dout r`^(-1/2) and multiplied
  by the relation's weight matrix (the MESSAGE); the messages are gathered along the sources and summed into the
  destinations (`agg r`, kept abstract here: both programs apply the very same host gather and scatter-add to equal
  arguments); the aggregate is scaled by `din r`^(-1/2) and the relation's bias row is added; the three relations are
  accumulated from zero in order, and the sum is clipped below at zero. Two such layers are composed.

  The one law that joins the two programs' spellings is `pow_neg_half_eq_rsqrt`: the host raises a degree to the
  power -1/2, the kernel takes its reciprocal square root, and for an extended real `d ≥ 1` (every degree is a maximum
  with 1) the two agree — both are `(√d)⁻¹` on a real and `0` at `+∞`.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- The zero word of the 32-bit format, as both programs spell it. -/
abbrev z : EReal := Ideal.ofBits .f32 0x00000000#32

/-- The exponent -1/2 as the reference spells it. -/
abbrev negHalf : EReal := Ideal.ofBits .f32 0xBF000000#32

/-- The degrees' lower clip, 1, as both programs spell it. -/
abbrev one : EReal := Ideal.ofBits .f32 0x3F800000#32

/-- Relation `r`'s message at node `n`, feature `j`: the node's row scaled by its out-degree's reciprocal root, times
    column `j` of the relation's weights. -/
def msgAt {O : Nat} (h : (⟨2, ![100000, 128]⟩ : Shape).Idx → EReal) (W : (⟨3, ![3, 128, O]⟩ : Shape).Idx → EReal)
    (dout : Fin 3 → (⟨1, ![100000]⟩ : Shape).Idx → EReal) (r : Fin 3) (n : Fin 100000) (j : Fin O) : EReal :=
  ∑ k : Fin 128, (h (ix2 n k) * Ideal.rsqrt (dout r (ix1 n))) * W (ix3 r k j)

/-- Relation `r`'s messages as an array. -/
def msg {O : Nat} (h : (⟨2, ![100000, 128]⟩ : Shape).Idx → EReal) (W : (⟨3, ![3, 128, O]⟩ : Shape).Idx → EReal)
    (dout : Fin 3 → (⟨1, ![100000]⟩ : Shape).Idx → EReal) (r : Fin 3) : (⟨2, ![100000, O]⟩ : Shape).Idx → EReal :=
  fun i => msgAt h W dout r (i 0) (i 1)

/-- One layer at node `n`, feature `j`. -/
def layerAt {O : Nat} (h : (⟨2, ![100000, 128]⟩ : Shape).Idx → EReal) (W : (⟨3, ![3, 128, O]⟩ : Shape).Idx → EReal)
    (b : (⟨2, ![3, O]⟩ : Shape).Idx → EReal) (dout din : Fin 3 → (⟨1, ![100000]⟩ : Shape).Idx → EReal)
    (agg : Fin 3 → ((⟨2, ![100000, O]⟩ : Shape).Idx → EReal) → ((⟨2, ![100000, O]⟩ : Shape).Idx → EReal))
    (n : Fin 100000) (j : Fin O) : EReal :=
  max ((((((z + agg 0 (msg h W dout 0) (ix2 n j) * Ideal.rsqrt (din 0 (ix1 n))) + b (ix2 0 j))
        + agg 1 (msg h W dout 1) (ix2 n j) * Ideal.rsqrt (din 1 (ix1 n))) + b (ix2 1 j))
        + agg 2 (msg h W dout 2) (ix2 n j) * Ideal.rsqrt (din 2 (ix1 n))) + b (ix2 2 j)) z

/-- One layer as an array. -/
def layer {O : Nat} (h : (⟨2, ![100000, 128]⟩ : Shape).Idx → EReal) (W : (⟨3, ![3, 128, O]⟩ : Shape).Idx → EReal)
    (b : (⟨2, ![3, O]⟩ : Shape).Idx → EReal) (dout din : Fin 3 → (⟨1, ![100000]⟩ : Shape).Idx → EReal)
    (agg : Fin 3 → ((⟨2, ![100000, O]⟩ : Shape).Idx → EReal) → ((⟨2, ![100000, O]⟩ : Shape).Idx → EReal)) :
    (⟨2, ![100000, O]⟩ : Shape).Idx → EReal :=
  fun i => layerAt h W b dout din agg (i 0) (i 1)

/-- The two layers composed: 128 → 128 features, then 128 → 64. -/
def net (x : (⟨2, ![100000, 128]⟩ : Shape).Idx → EReal)
    (W1 : (⟨3, ![3, 128, 128]⟩ : Shape).Idx → EReal) (b1 : (⟨2, ![3, 128]⟩ : Shape).Idx → EReal)
    (W2 : (⟨3, ![3, 128, 64]⟩ : Shape).Idx → EReal) (b2 : (⟨2, ![3, 64]⟩ : Shape).Idx → EReal)
    (dout din : Fin 3 → (⟨1, ![100000]⟩ : Shape).Idx → EReal)
    (agg1 : Fin 3 → ((⟨2, ![100000, 128]⟩ : Shape).Idx → EReal) → ((⟨2, ![100000, 128]⟩ : Shape).Idx → EReal))
    (agg2 : Fin 3 → ((⟨2, ![100000, 64]⟩ : Shape).Idx → EReal) → ((⟨2, ![100000, 64]⟩ : Shape).Idx → EReal)) :
    (⟨2, ![100000, 64]⟩ : Shape).Idx → EReal :=
  layer (layer x W1 b1 dout din agg1) W2 b2 dout din agg2

/-- The source (`s = 0`) or destination (`s = 1`) list of relation `r`, read off the edge array. -/
def endpoints {α : Type} (e : (⟨3, ![3, 2, 300000]⟩ : Shape).Idx → α) (r : Fin 3) (s : Fin 2) :
    (⟨1, ![300000]⟩ : Shape).Idx → α :=
  fun i => e (ix3 r s (i 0))

/-- The exponent word is -1/2. -/
theorem negHalf_eq : negHalf = ((-(1 / 2) : ℝ) : EReal) := by
  simp [Ideal.ofBits, Ideal.ieee, -EReal.coe_mul]; norm_num

/-- The clip word is 1. -/
theorem one_eq : one = ((1 : ℝ) : EReal) := by
  show Ideal.ofBits .f32 0x3F800000#32 = _
  rw [Ideal.ofBits_one_f32, EReal.coe_one]

/-- For `d ≥ 1`, raising to the power -1/2 is taking the reciprocal square root, infinities included. -/
theorem pow_neg_half_eq_rsqrt (d : EReal) (hd : one ≤ d) : Ideal.pow d negHalf = Ideal.rsqrt d := by
  rw [negHalf_eq]
  rw [one_eq] at hd
  induction d using EReal.rec with
  | bot => exact absurd (le_bot_iff.mp hd) (EReal.coe_ne_bot 1)
  | top =>
    have h1 : ¬ (0 : EReal) < ((-(1 / 2) : ℝ) : EReal) := by
      rw [← EReal.coe_zero, EReal.coe_lt_coe_iff]; norm_num
    have h2 : ((-(1 / 2) : ℝ) : EReal) ≠ 0 := by
      rw [← EReal.coe_zero, Ne, EReal.coe_eq_coe_iff]; norm_num
    rw [Ideal.pow_top, if_neg h1, if_neg h2, Ideal.rsqrt_top]
  | coe r =>
    have hr : (1 : ℝ) ≤ r := EReal.coe_le_coe_iff.mp hd
    have h0 : ¬ r < 0 := by linarith
    have h1 : r ≠ 0 := by linarith
    rw [Ideal.pow_coe_coe, Ideal.rsqrt_coe, if_neg h0, if_neg h1]
    congr 1
    show r ^ (-(1 / 2) : ℝ) = (Real.sqrt r)⁻¹
    rw [Real.rpow_neg (by linarith), Real.sqrt_eq_rpow]

end Cert.Spec

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«142468_j3186865733925_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibScaledLayers.lean ====
/-
  A degree-normalised graph layer and its linear read-out, read at one index on the extended reals.

  Three maps on arrays of rows.  The SCALED PRODUCT takes an [M, K] array x, an [M, 1] column s and a [K, N]
  weight w to the [M, N] array whose entry (r, c) is the sum over k of (x(r, k) · s(r, 0)) · w(k, c): every row
  is multiplied by its own factor and then by the weight.  The SCALE-AND-SHIFT takes an [M, N] array a, an
  [M, 1] column s and a [1, N] row b to a(r, c) · s(r, 0) + b(0, c).  The AFFINE map takes an [M, K] array f, a
  [K, N] weight w and a [1, N] row b to (sum over k of f(r, k) · w(k, c)) + b(0, c).  Each is written two ways
  over whole vectors — as a block of rows computes it (a matrix product into a zero accumulator after a change of
  float format, the column and the row repeated by vector broadcasts) and as a whole-array program computes it (a
  general dot product, dimension-indexed broadcasts) — and both spellings are the same function.  Entry (r, c) of
  each map reads only row r of the row-indexed operands, so a block of consecutive rows of the result is the same
  map of the matching blocks of rows.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«142468_j3186865733925_1_alg».proof.Proof.LibRowOps
import proofs.«142468_j3186865733925_1_alg».proof.Proof.LibDense

noncomputable section

namespace Cert.ScaledLayers

open Idealize.ShloMosaic Idealize.ShloMosaic.ValueIdx Cert.RowOps Cert.Dense

/-! ## Columns and rows, the whole-array spellings -/

section Layout

variable {α : Type} {a b : Nat}

/-- A length-a vector broadcast along axis 0 to an [a, 1] column reads, at (i, u), the vector at i. -/
theorem hostColumn_apply (v : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h v (ix2 i u) = v (ix1 i) :=
  broadcastInDim_apply ![0] h v (ix2 i u) (ix1 i) (fun ax => by
    match ax with
    | ⟨0, _⟩ =>
      show i.val = if a = 1 then 0 else i.val
      split
      · have := i.isLt; omega
      · rfl)

/-- The broadcast column is the vector viewed as a column. -/
theorem hostColumn_eq (v : (⟨1, ![a]⟩ : Shape).Idx → α) (h : (⟨1, ![a]⟩ : Shape).BroadcastsInDim ⟨2, ![a, 1]⟩ ![0])
    (hs : (⟨1, ![a]⟩ : Shape).ShapeCasts ⟨2, ![a, 1]⟩) :
    broadcastInDim ⟨2, ![a, 1]⟩ ![0] h v = shapeCast ⟨2, ![a, 1]⟩ v hs := by
  funext j
  obtain ⟨i, u, rfl⟩ : ∃ (i : Fin a) (u : Fin 1), j = ix2 i u := ⟨j 0, j 1, eq_ix2 j⟩
  rw [hostColumn_apply, column_apply]

/-- A length-b vector broadcast along axis 1 to a [1, b] row reads, at (u, c), the vector at c. -/
theorem hostRow_apply (v : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h v (ix2 u c) = v (ix1 c) :=
  broadcastInDim_apply ![1] h v (ix2 u c) (ix1 c) (fun ax => by
    match ax with
    | ⟨0, _⟩ =>
      show c.val = if b = 1 then 0 else c.val
      split
      · have := c.isLt; omega
      · rfl)

/-- The broadcast row is the vector viewed as a row. -/
theorem hostRow_eq (v : (⟨1, ![b]⟩ : Shape).Idx → α) (h : (⟨1, ![b]⟩ : Shape).BroadcastsInDim ⟨2, ![1, b]⟩ ![1])
    (hs : (⟨1, ![b]⟩ : Shape).ShapeCasts ⟨2, ![1, b]⟩) :
    broadcastInDim ⟨2, ![1, b]⟩ ![1] h v = shapeCast ⟨2, ![1, b]⟩ v hs := by
  funext j
  obtain ⟨u, c, rfl⟩ : ∃ (u : Fin 1) (c : Fin b), j = ix2 u c := ⟨j 0, j 1, eq_ix2 j⟩
  rw [hostRow_apply, shapeCast_a_1a_apply]

/-- An [a, 1] column broadcast over both axes to [a, b] reads, at (i, j), the column at (i, 0). -/
theorem hostSpread_apply (x : (⟨2, ![a, 1]⟩ : Shape).Idx → α) (h : (⟨2, ![a, 1]⟩ : Shape).BroadcastsInDim ⟨2, ![a, b]⟩ ![0, 1])
    (i : Fin a) (j : Fin b) : broadcastInDim ⟨2, ![a, b]⟩ ![0, 1] h x (ix2 i j) = x (ix2 i (0 : Fin 1)) :=
  broadcastInDim_apply ![0, 1] h x (ix2 i j) (ix2 i (0 : Fin 1)) (fun ax => by
    match ax with
    | ⟨0, _⟩ =>
      show i.val = if a = 1 then 0 else i.val
      split
      · have := i.isLt; omega
      · rfl
    | ⟨1, _⟩ => show (0 : Nat) = if (1 : Nat) = 1 then 0 else j.val; rw [if_pos rfl])

/-- A [1, b] row broadcast over both axes to [a, b] reads, at (p, c), the row at (0, c). -/
theorem hostRepeat_apply (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) :=
  broadcastInDim_apply ![0, 1] h x (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)

end Layout

/-! ## The three maps -/

section Maps

variable {M M' K N : Nat}

/-- Rows scaled by their own factor, then multiplied by a weight. -/
def scaledProduct (x : (⟨2, ![M, K]⟩ : Shape).Idx → EReal) (s : (⟨2, ![M, 1]⟩ : Shape).Idx → EReal)
    (w : (⟨2, ![K, N]⟩ : Shape).Idx → EReal) : (⟨2, ![M, N]⟩ : Shape).Idx → EReal :=
  fun i => ∑ k : Fin K, (x (ix2 (n0 := M) (i 0) k) * s (ix2 (n0 := M) (i 0) (0 : Fin 1))) * w (ix2 (n1 := N) k (i 1))

theorem scaledProduct_apply (x : (⟨2, ![M, K]⟩ : Shape).Idx → EReal) (s : (⟨2, ![M, 1]⟩ : Shape).Idx → EReal)
    (w : (⟨2, ![K, N]⟩ : Shape).Idx → EReal) (r : Fin M) (c : Fin N) :
    scaledProduct x s w (ix2 r c) = ∑ k : Fin K, (x (ix2 r k) * s (ix2 r (0 : Fin 1))) * w (ix2 k c) := rfl

/-- Entries scaled by their row's factor, a row added. -/
def scaleShift (a : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => a (ix2 (n0 := M) (n1 := N) (i 0) (i 1)) * s (ix2 (n0 := M) (i 0) (0 : Fin 1)) + b (ix2 (n1 := N) (0 : Fin 1) (i 1))

theorem scaleShift_apply (a : (⟨2, ![M, N]⟩ : Shape).Idx → EReal) (s : (⟨2, ![M, 1]⟩ : Shape).Idx → EReal)
    (b : (⟨2, ![1, N]⟩ : Shape).Idx → EReal) (r : Fin M) (c : Fin N) :
    scaleShift a s b (ix2 r c) = a (ix2 r c) * s (ix2 r (0 : Fin 1)) + b (ix2 (0 : Fin 1) c) := rfl

/-- Rows multiplied by a weight, a row added. -/
def affine (f : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, f (ix2 (n0 := M) (i 0) k) * w (ix2 (n1 := N) k (i 1))) + b (ix2 (n1 := N) (0 : Fin 1) (i 1))

theorem affine_apply (f : (⟨2, ![M, K]⟩ : Shape).Idx → EReal) (w : (⟨2, ![K, N]⟩ : Shape).Idx → EReal)
    (b : (⟨2, ![1, N]⟩ : Shape).Idx → EReal) (r : Fin M) (c : Fin N) :
    affine f w b (ix2 r c) = (∑ k : Fin K, f (ix2 r k) * w (ix2 k c)) + b (ix2 (0 : Fin 1) c) := rfl

/-! ### Each entry reads one row -/

/-- Entry (r, c) of the scaled product depends on row r of the rows, on factor r and on column c of the weight only. -/
theorem scaledProduct_row (x : (⟨2, ![M, K]⟩ : Shape).Idx → EReal) (s : (⟨2, ![M, 1]⟩ : Shape).Idx → EReal)
    (w : (⟨2, ![K, N]⟩ : Shape).Idx → EReal)
    (x' : (⟨2, ![M', K]⟩ : Shape).Idx → EReal) (s' : (⟨2, ![M', 1]⟩ : Shape).Idx → EReal)
    (w' : (⟨2, ![K, N]⟩ : Shape).Idx → EReal) (r : Fin M) (r' : Fin M') (c : Fin N)
    (hx : ∀ k : Fin K, x (ix2 r k) = x' (ix2 r' k)) (hs : s (ix2 r (0 : Fin 1)) = s' (ix2 r' (0 : Fin 1)))
    (hw : ∀ k : Fin K, w (ix2 k c) = w' (ix2 k c)) :
    scaledProduct x s w (ix2 r c) = scaledProduct x' s' w' (ix2 r' c) := by
  rw [scaledProduct_apply, scaledProduct_apply]
  exact Finset.sum_congr rfl fun k _ => by rw [hx k, hs, hw k]

/-- Entry (r, c) of the scale-and-shift depends on entry (r, c), on factor r and on entry c of the row only. -/
theorem scaleShift_row (a : (⟨2, ![M, N]⟩ : Shape).Idx → EReal) (s : (⟨2, ![M, 1]⟩ : Shape).Idx → EReal)
    (b : (⟨2, ![1, N]⟩ : Shape).Idx → EReal)
    (a' : (⟨2, ![M', N]⟩ : Shape).Idx → EReal) (s' : (⟨2, ![M', 1]⟩ : Shape).Idx → EReal)
    (b' : (⟨2, ![1, N]⟩ : Shape).Idx → EReal) (r : Fin M) (r' : Fin M') (c : Fin N)
    (ha : a (ix2 r c) = a' (ix2 r' c)) (hs : s (ix2 r (0 : Fin 1)) = s' (ix2 r' (0 : Fin 1)))
    (hb : b (ix2 (0 : Fin 1) c) = b' (ix2 (0 : Fin 1) c)) :
    scaleShift a s b (ix2 r c) = scaleShift a' s' b' (ix2 r' c) := by
  rw [scaleShift_apply, scaleShift_apply, ha, hs, hb]

/-- Entry (r, c) of the affine map depends on row r, on column c of the weight and on entry c of the row only. -/
theorem affine_row (f : (⟨2, ![M, K]⟩ : Shape).Idx → EReal) (w : (⟨2, ![K, N]⟩ : Shape).Idx → EReal)
    (b : (⟨2, ![1, N]⟩ : Shape).Idx → EReal)
    (f' : (⟨2, ![M', K]⟩ : Shape).Idx → EReal) (w' : (⟨2, ![K, N]⟩ : Shape).Idx → EReal)
    (b' : (⟨2, ![1, N]⟩ : Shape).Idx → EReal) (r : Fin M) (r' : Fin M') (c : Fin N)
    (hf : ∀ k : Fin K, f (ix2 r k) = f' (ix2 r' k)) (hw : ∀ k : Fin K, w (ix2 k c) = w' (ix2 k c))
    (hb : b (ix2 (0 : Fin 1) c) = b' (ix2 (0 : Fin 1) c)) :
    affine f w b (ix2 r c) = affine f' w' b' (ix2 r' c) := by
  rw [affine_apply, affine_apply, hb]
  exact congrArg (· + b' (ix2 (0 : Fin 1) c)) (Finset.sum_congr rfl fun k _ => by rw [hf k, hw k])

end Maps

/-! ## The spellings over one block of rows -/

section Block

variable {M K N : Nat}

/-- Rows times their factors, both operands changed to a narrower float format, multiplied into a zero
    accumulator: the scaled product. -/
theorem blockScaledProduct {d : DotDims ⟨2, ![M, K]⟩ ⟨2, ![K, N]⟩ ⟨2, ![M, N]⟩} (hd : IsPlain d)
    (x : FVec Ideal ⟨2, ![M, K]⟩ .f32) (s : FVec Ideal ⟨2, ![M, 1]⟩ .f32) (w : FVec Ideal ⟨2, ![K, N]⟩ .f32)
    (hx : (⟨2, ![M, K]⟩ : Shape).ShapeCasts ⟨2, ![M, K]⟩) (hs : (⟨2, ![M, 1]⟩ : Shape).ShapeCasts ⟨2, ![M, 1]⟩)
    (hb : (⟨2, ![M, 1]⟩ : Shape).Broadcasts ⟨2, ![M, K]⟩) (hlt : FTy.bits .bf16 < FTy.bits .f32) :
    matmul d none (truncf .bf16 (mulf (shapeCast ⟨2, ![M, K]⟩ x hx) (broadcastTo ⟨2, ![M, K]⟩ (shapeCast ⟨2, ![M, 1]⟩ s hs) hb)) hlt)
        (truncf .bf16 w hlt) (constant ⟨2, ![M, N]⟩ .f32 0x00000000#32)
      = scaledProduct x s w := by
  funext j
  obtain ⟨r, c, rfl⟩ : ∃ (r : Fin M) (c : Fin N), j = ix2 r c := ⟨j 0, j 1, eq_ix2 j⟩
  rw [scaledProduct_apply]
  refine (matmul_zero_apply hd none _ _ r c).trans (Finset.sum_congr rfl fun k _ => ?_)
  rw [truncf_apply, truncf_apply, mulf_apply, shapeCast_self, shapeCast_self, spread_apply]

/-- Entries times their row's factor plus a repeated row: the scale-and-shift. -/
theorem blockScaleShift (a : FVec Ideal ⟨2, ![M, N]⟩ .f32) (s : FVec Ideal ⟨2, ![M, 1]⟩ .f32) (b : FVec Ideal ⟨2, ![1, N]⟩ .f32)
    (ha : (⟨2, ![M, N]⟩ : Shape).ShapeCasts ⟨2, ![M, N]⟩) (hs : (⟨2, ![M, 1]⟩ : Shape).ShapeCasts ⟨2, ![M, 1]⟩)
    (hr : (⟨2, ![1, N]⟩ : Shape).ShapeCasts ⟨2, ![1, N]⟩)
    (hb : (⟨2, ![M, 1]⟩ : Shape).Broadcasts ⟨2, ![M, N]⟩) (hb' : (⟨2, ![1, N]⟩ : Shape).Broadcasts ⟨2, ![M, N]⟩) :
    addf (mulf (shapeCast ⟨2, ![M, N]⟩ a ha) (broadcastTo ⟨2, ![M, N]⟩ (shapeCast ⟨2, ![M, 1]⟩ s hs) hb))
        (broadcastTo ⟨2, ![M, N]⟩ (shapeCast ⟨2, ![1, N]⟩ b hr) hb')
      = scaleShift a s b := by
  funext j
  obtain ⟨r, c, rfl⟩ : ∃ (r : Fin M) (c : Fin N), j = ix2 r c := ⟨j 0, j 1, eq_ix2 j⟩
  rw [scaleShift_apply, addf_apply, mulf_apply, shapeCast_self, shapeCast_self, shapeCast_self, spread_apply,
    broadcastTo_1b_ab_apply]

/-- Rows changed to a narrower float format and multiplied into a zero accumulator, a repeated row added: the
    affine map. -/
theorem blockAffine {d : DotDims ⟨2, ![M, K]⟩ ⟨2, ![K, N]⟩ ⟨2, ![M, N]⟩} (hd : IsPlain d)
    (f : FVec Ideal ⟨2, ![M, K]⟩ .f32) (w : FVec Ideal ⟨2, ![K, N]⟩ .f32) (b : FVec Ideal ⟨2, ![1, N]⟩ .f32)
    (hr : (⟨2, ![1, N]⟩ : Shape).ShapeCasts ⟨2, ![1, N]⟩) (hb' : (⟨2, ![1, N]⟩ : Shape).Broadcasts ⟨2, ![M, N]⟩)
    (hlt : FTy.bits .bf16 < FTy.bits .f32) :
    addf (matmul d none (truncf .bf16 f hlt) (truncf .bf16 w hlt) (constant ⟨2, ![M, N]⟩ .f32 0x00000000#32))
        (broadcastTo ⟨2, ![M, N]⟩ (shapeCast ⟨2, ![1, N]⟩ b hr) hb')
      = affine f w b := by
  funext j
  obtain ⟨r, c, rfl⟩ : ∃ (r : Fin M) (c : Fin N), j = ix2 r c := ⟨j 0, j 1, eq_ix2 j⟩
  rw [affine_apply, addf_apply, shapeCast_self, broadcastTo_1b_ab_apply]
  refine congrArg (· + b (ix2 (0 : Fin 1) c)) ((matmul_zero_apply hd none _ _ r c).trans (Finset.sum_congr rfl fun k _ => ?_))
  rw [truncf_apply, truncf_apply]

end Block

/-! ## The spellings over whole arrays -/

section Whole

variable {M K N : Nat}

/-- Rows times their broadcast factors, then the general dot product with the weight: the scaled product. -/
theorem hostScaledProduct {d : DotDims ⟨2, ![M, K]⟩ ⟨2, ![K, N]⟩ ⟨2, ![M, N]⟩} (hd : IsPlain d)
    (x : FVec Ideal ⟨2, ![M, K]⟩ .f32) (s : FVec Ideal ⟨2, ![M, 1]⟩ .f32) (w : FVec Ideal ⟨2, ![K, N]⟩ .f32)
    (h : (⟨2, ![M, 1]⟩ : Shape).BroadcastsInDim ⟨2, ![M, K]⟩ ![0, 1]) :
    Host.dotGeneral d none (mulf x (broadcastInDim ⟨2, ![M, K]⟩ ![0, 1] h s)) w = scaledProduct x s w := by
  funext j
  obtain ⟨r, c, rfl⟩ : ∃ (r : Fin M) (c : Fin N), j = ix2 r c := ⟨j 0, j 1, eq_ix2 j⟩
  rw [scaledProduct_apply]
  refine (hostDot_apply hd none .single _ w r c).trans (Finset.sum_congr rfl fun k _ => ?_)
  rw [mulf_apply, hostSpread_apply]

/-- Entries times their row's broadcast factor plus a broadcast row: the scale-and-shift. -/
theorem hostScaleShift (a : FVec Ideal ⟨2, ![M, N]⟩ .f32) (s : FVec Ideal ⟨2, ![M, 1]⟩ .f32) (b : FVec Ideal ⟨2, ![1, N]⟩ .f32)
    (h : (⟨2, ![M, 1]⟩ : Shape).BroadcastsInDim ⟨2, ![M, N]⟩ ![0, 1])
    (h' : (⟨2, ![1, N]⟩ : Shape).BroadcastsInDim ⟨2, ![M, N]⟩ ![0, 1]) :
    addf (mulf a (broadcastInDim ⟨2, ![M, N]⟩ ![0, 1] h s)) (broadcastInDim ⟨2, ![M, N]⟩ ![0, 1] h' b) = scaleShift a s b := by
  funext j
  obtain ⟨r, c, rfl⟩ : ∃ (r : Fin M) (c : Fin N), j = ix2 r c := ⟨j 0, j 1, eq_ix2 j⟩
  rw [scaleShift_apply, addf_apply, mulf_apply, hostSpread_apply, hostRepeat_apply]

/-- The general dot product with the weight plus a broadcast row: the affine map. -/
theorem hostAffine {d : DotDims ⟨2, ![M, K]⟩ ⟨2, ![K, N]⟩ ⟨2, ![M, N]⟩} (hd : IsPlain d)
    (f : FVec Ideal ⟨2, ![M, K]⟩ .f32) (w : FVec Ideal ⟨2, ![K, N]⟩ .f32) (b : FVec Ideal ⟨2, ![1, N]⟩ .f32)
    (h' : (⟨2, ![1, N]⟩ : Shape).BroadcastsInDim ⟨2, ![M, N]⟩ ![0, 1]) :
    addf (Host.dotGeneral d none f w) (broadcastInDim ⟨2, ![M, N]⟩ ![0, 1] h' b) = affine f w b := by
  funext j
  obtain ⟨r, c, rfl⟩ : ∃ (r : Fin M) (c : Fin N), j = ix2 r c := ⟨j 0, j 1, eq_ix2 j⟩
  rw [affine_apply, addf_apply, hostRepeat_apply]
  exact congrArg (· + b (ix2 (0 : Fin 1) c)) (hostDot_apply hd none .single f w r c)

end Whole

end Cert.ScaledLayers

end
-- ==== Proof.RefIsSpec.lean ====
/-
  The reference program computes the two-layer relational graph convolution of the specification.

  The reference's result is one long composed term of its six arguments. It is folded here into the pieces the
  mathematics names: the endpoint lists of a relation (a slice of the edge array, reshaped), a degree (a scatter-add of
  ones clipped below at 1), the wrapped source list (a negative index counted from the end), the aggregate (a gather
  along the sources scatter-added into the destinations), a relation's message (rows scaled by the out-degree's power
  -1/2, times the relation's weight plane), one accumulation step (the aggregate scaled by the in-degree's power -1/2,
  plus the relation's bias row) and a layer (three steps from zero, clipped below at zero). Each piece is read at an
  index; a degree is at least 1, so its power -1/2 is its reciprocal square root; and the two layers composed are
  `Cert.Spec.net` with the reference's own degrees and aggregates.
-/
import proofs.«142468_j3186865733925_1_alg».proof.Proof.RefRun
import proofs.«142468_j3186865733925_1_alg».proof.Proof.Spec
import proofs.«142468_j3186865733925_1_alg».proof.Proof.LibScaledLayers
import Idealize.ShloMosaic.Lib.Pipeline.Value
import Idealize.ShloMosaic.Lib.ValueIdx
import Idealize.ShloMosaic.Lib.IdealHost

noncomputable section

namespace Cert.ReferenceIdeal.HandValue

open Cert.ReferenceIdeal Cert.ReferenceIdeal.Gen Idealize.ShloMosaic Idealize.ShloMosaic.TcCoe Idealize.SL.Sem
  Idealize.ShloMosaic.StableHlo Idealize.ShloMosaic.ValueIdx Cert.RowOps Cert.Dense Cert.ScaledLayers

/-! ## Layout and arithmetic read at an index, at any sizes -/

section Generic

variable {α : Type}

/-- Plane `r` of a stack of matrices, reshaped to a matrix, reads the stack at `(r, k, j)`. -/
theorem plane_apply {R K N : Nat} (r : Nat) (hr : r < R) (W : (⟨3, ![R, K, N]⟩ : Shape).Idx → α)
    (hs : (⟨3, ![R, K, N]⟩ : Shape).Slices ![r, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![r, 0, 0] W hs) hc (ix2 k j) = W (ix3 ⟨r, hr⟩ k j) := by
  refine (shapeCast_apply _ hc (ix2 k j) (ix3 (0 : Fin 1) k j) ?_).trans ?_
  · rw [Shape.rowMajor_val_three, Shape.rowMajor_val_two]
    show ((0 : Nat) * K + k.val) * N + j.val = k.val * N + j.val
    rw [Nat.zero_mul, Nat.zero_add]
  · exact extractStridedSlice_apply ![r, 0, 0] W hs (ix3 (0 : Fin 1) k j) (ix3 ⟨r, hr⟩ k j) (fun a => by
      match a with
      | ⟨0, _⟩ => show r = r + 0; rfl
      | ⟨1, _⟩ => show k.val = 0 + k.val; omega
      | ⟨2, _⟩ => show j.val = 0 + j.val; omega)

/-- Row `r` of a matrix, reshaped to a vector, reads the matrix at `(r, j)`. -/
theorem rowOf_apply {R N : Nat} (r : Nat) (hr : r < R) (b : (⟨2, ![R, N]⟩ : Shape).Idx → α)
    (hs : (⟨2, ![R, N]⟩ : Shape).Slices ![r, 0] ⟨2, ![1, N]⟩)
    (hc : (⟨2, ![1, N]⟩ : Shape).ShapeCasts ⟨1, ![N]⟩) (j : Fin N) :
    shapeCast ⟨1, ![N]⟩ (extractStridedSlice ⟨2, ![1, N]⟩ ![r, 0] b hs) hc (ix1 j) = b (ix2 ⟨r, hr⟩ j) := by
  refine (shapeCast_apply _ hc (ix1 j) (ix2 (0 : Fin 1) j) ?_).trans ?_
  · rw [Shape.rowMajor_val_two, Shape.rowMajor_val_one]
    show (0 : Nat) * N + j.val = j.val
    rw [Nat.zero_mul, Nat.zero_add]
  · exact extractStridedSlice_apply ![r, 0] b hs (ix2 (0 : Fin 1) j) (ix2 ⟨r, hr⟩ j) (fun a => by
      match a with
      | ⟨0, _⟩ => show r = r + 0; rfl
      | ⟨1, _⟩ => show j.val = 0 + j.val; omega)

/-- Line `(r, s)` of a three-axis array, reshaped to a vector, reads the array at `(r, s, i)`. -/
theorem line_apply {R S E : Nat} (r s : Nat) (hr : r < R) (hs' : s < S) (e : (⟨3, ![R, S, E]⟩ : Shape).Idx → α)
    (hs : (⟨3, ![R, S, E]⟩ : Shape).Slices ![r, s, 0] ⟨3, ![1, 1, E]⟩)
    (hc : (⟨3, ![1, 1, E]⟩ : Shape).ShapeCasts ⟨1, ![E]⟩) (i : Fin E) :
    shapeCast ⟨1, ![E]⟩ (extractStridedSlice ⟨3, ![1, 1, E]⟩ ![r, s, 0] e hs) hc (ix1 i) = e (ix3 ⟨r, hr⟩ ⟨s, hs'⟩ i) := by
  refine (shapeCast_apply _ hc (ix1 i) (ix3 (0 : Fin 1) (0 : Fin 1) i) ?_).trans ?_
  · rw [Shape.rowMajor_val_three, Shape.rowMajor_val_one]
    show ((0 : Nat) * 1 + 0) * E + i.val = i.val
    rw [Nat.zero_mul, Nat.zero_add]
  · exact extractStridedSlice_apply ![r, s, 0] e hs (ix3 (0 : Fin 1) (0 : Fin 1) i) (ix3 ⟨r, hr⟩ ⟨s, hs'⟩ i) (fun a => by
      match a with
      | ⟨0, _⟩ => show r = r + 0; rfl
      | ⟨1, _⟩ => show s = s + 0; rfl
      | ⟨2, _⟩ => show i.val = 0 + i.val; omega)

end Generic

section Arithmetic

variable {M K N : Nat}

/-- A vector of numbers at least 1 raised to the power -1/2, set as a column and spread over the rows' entries, reads
    at `(n, j)` the reciprocal square root of entry `n`. -/
theorem rsqrtSpread_apply (d : FVec Ideal ⟨1, ![M]⟩ .f32)
    (hb : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, N]⟩ ![0, 1]) (n : Fin M) (j : Fin N)
    (hd : Spec.one ≤ d (ix1 n)) :
    broadcastInDim ⟨2, ![M, N]⟩ ![0, 1] hsp (broadcastInDim ⟨2, ![M, 1]⟩ ![0] hcol
        (Host.powf d (broadcastInDim ⟨1, ![M]⟩ ![] hb (constant (F := Ideal) ⟨0, ![]⟩ .f32 0xBF000000#32)))) (ix2 n j)
      = Ideal.rsqrt (d (ix1 n)) := by
  rw [hostSpread_apply, hostColumn_apply]
  show Ideal.pow (d (ix1 n)) (broadcastInDim ⟨1, ![M]⟩ ![] hb (constant (F := Ideal) ⟨0, ![]⟩ .f32 0xBF000000#32) (ix1 n)) = _
  rw [broadcastInDim_scalar_apply]
  exact Spec.pow_neg_half_eq_rsqrt _ hd

/-- One accumulation step at `(n, j)`: the running sum, plus the aggregate times the reciprocal square root of the
    node's degree, plus the bias row's entry. -/
theorem step_apply (out agg : FVec Ideal ⟨2, ![M, N]⟩ .f32) (d : FVec Ideal ⟨1, ![M]⟩ .f32) (br : FVec Ideal ⟨1, ![N]⟩ .f32)
    (hb : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, N]⟩ ![0, 1])
    (hrow : (⟨1, ![N]⟩ : Shape).BroadcastsInDim ⟨2, ![1, N]⟩ ![1])
    (hrep : (⟨2, ![1, N]⟩ : Shape).BroadcastsInDim ⟨2, ![M, N]⟩ ![0, 1]) (n : Fin M) (j : Fin N)
    (hd : Spec.one ≤ d (ix1 n)) :
    addf (addf out (mulf agg (broadcastInDim ⟨2, ![M, N]⟩ ![0, 1] hsp (broadcastInDim ⟨2, ![M, 1]⟩ ![0] hcol
        (Host.powf d (broadcastInDim ⟨1, ![M]⟩ ![] hb (constant (F := Ideal) ⟨0, ![]⟩ .f32 0xBF000000#32)))))))
        (broadcastInDim ⟨2, ![M, N]⟩ ![0, 1] hrep (broadcastInDim ⟨2, ![1, N]⟩ ![1] hrow br)) (ix2 n j)
      = (out (ix2 n j) + agg (ix2 n j) * Ideal.rsqrt (d (ix1 n))) + br (ix1 j) := by
  rw [addf_apply, addf_apply, mulf_apply, rsqrtSpread_apply d hb hcol hsp n j hd, hostRepeat_apply, hostRow_apply]

/-- A relation's message at `(n, j)`: the node's row scaled by the reciprocal square root of its degree, times
    column `j` of the weight. -/
theorem msg_apply {dD : DotDims ⟨2, ![M, K]⟩ ⟨2, ![K, N]⟩ ⟨2, ![M, N]⟩} (hdD : IsPlain dD)
    (h : FVec Ideal ⟨2, ![M, K]⟩ .f32) (d : FVec Ideal ⟨1, ![M]⟩ .f32) (Wp : FVec Ideal ⟨2, ![K, N]⟩ .f32)
    (hb : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, K]⟩ ![0, 1]) (n : Fin M) (j : Fin N)
    (hd : Spec.one ≤ d (ix1 n)) :
    Host.dotGeneral dD none (mulf h (broadcastInDim ⟨2, ![M, K]⟩ ![0, 1] hsp (broadcastInDim ⟨2, ![M, 1]⟩ ![0] hcol
        (Host.powf d (broadcastInDim ⟨1, ![M]⟩ ![] hb (constant (F := Ideal) ⟨0, ![]⟩ .f32 0xBF000000#32)))))) Wp (ix2 n j)
      = ∑ k : Fin K, (h (ix2 n k) * Ideal.rsqrt (d (ix1 n))) * Wp (ix2 k j) := by
  refine (hostDot_apply hdD none .single _ Wp n j).trans (Finset.sum_congr rfl fun k _ => ?_)
  rw [mulf_apply, rsqrtSpread_apply d hb hcol hsp n k hd]

end Arithmetic

/-! ## The reference's term, folded

Everything below is at the ideal float instance, in the reference's own spelling. -/

/-- The all-zero 100000 × 128 array. -/
def zeros128 : FVec Ideal S100000x128 .f32 :=
  broadcastInDim S100000x128 ![] bcast_S_S100000x128 (constant S_ .f32 0x00000000#32)

/-- The all-zero 100000 × 64 array. -/
def zeros64 : FVec Ideal S100000x64 .f32 :=
  broadcastInDim S100000x64 ![] bcast_S_S100000x64 (constant S_ .f32 0x00000000#32)

/-- Relation 0's source list: line (0, 0) of the edge array. -/
def src0 (e : IVec S3x2x300000 32) : IVec S300000 32 :=
  shapeCast _ (extractStridedSlice S1x1x300000 ![0, 0, 0] e slices_S3x2x300000_S1x1x300000_0_0_0) shapeCasts_S1x1x300000_S300000

/-- Relation 0's destination list: line (0, 1) of the edge array. -/
def dst0 (e : IVec S3x2x300000 32) : IVec S300000 32 :=
  shapeCast _ (extractStridedSlice S1x1x300000 ![0, 1, 0] e slices_S3x2x300000_S1x1x300000_0_1_0) shapeCasts_S1x1x300000_S300000

/-- Relation 1's source list: line (1, 0) of the edge array. -/
def src1 (e : IVec S3x2x300000 32) : IVec S300000 32 :=
  shapeCast _ (extractStridedSlice S1x1x300000 ![1, 0, 0] e slices_S3x2x300000_S1x1x300000_1_0_0) shapeCasts_S1x1x300000_S300000

/-- Relation 1's destination list: line (1, 1) of the edge array. -/
def dst1 (e : IVec S3x2x300000 32) : IVec S300000 32 :=
  shapeCast _ (extractStridedSlice S1x1x300000 ![1, 1, 0] e slices_S3x2x300000_S1x1x300000_1_1_0) shapeCasts_S1x1x300000_S300000

/-- Relation 2's source list: line (2, 0) of the edge array. -/
def src2 (e : IVec S3x2x300000 32) : IVec S300000 32 :=
  shapeCast _ (extractStridedSlice S1x1x300000 ![2, 0, 0] e slices_S3x2x300000_S1x1x300000_2_0_0) shapeCasts_S1x1x300000_S300000

/-- Relation 2's destination list: line (2, 1) of the edge array. -/
def dst2 (e : IVec S3x2x300000 32) : IVec S300000 32 :=
  shapeCast _ (extractStridedSlice S1x1x300000 ![2, 1, 0] e slices_S3x2x300000_S1x1x300000_2_1_0) shapeCasts_S1x1x300000_S300000

/-- A degree: how many times each node occurs in an endpoint list (ones scatter-added into zeros), clipped below at 1. -/
def deg (idx : IVec S300000 32) : FVec Ideal S100000 .f32 :=
  maximumf (broadcastInDim S100000 ![] bcast_S_S100000 (id (constant S_ .f32 0x3F800000#32))) (Host.scatterAdd scatter_S100000_S300000x1_S300000_n_0_0_1 (broadcastInDim S100000 ![] bcast_S_S100000 (constant S_ .f32 0x00000000#32)) (broadcastInDim S300000x1 ![0] bcast_S300000_S300000x1_0 idx) (broadcastInDim S300000 ![] bcast_S_S300000 (constant S_ .f32 0x3F800000#32)))

/-- A degree vector raised to the power -1/2, as a column. -/
def scale (d : FVec Ideal S100000 .f32) : FVec Ideal S100000x1 .f32 :=
  broadcastInDim S100000x1 ![0] bcast_S100000_S100000x1_0 (Host.powf d (broadcastInDim S100000 ![] bcast_S_S100000 (constant S_ .f32 0xBF000000#32)))

/-- A source list with every negative index counted from the end. -/
def wrap (s : IVec S300000 32) : IVec S300000 32 :=
  select (cmpi .slt s (broadcastInDim S300000 ![] bcast_S_S300000 (constantI S_ 32 0#32))) (addi s (broadcastInDim S300000 ![] bcast_S_S300000 (constantI S_ 32 100000#32))) s

/-- The aggregate at width 128: the messages' rows gathered along the sources, scatter-added into the destinations' rows from zero. -/
def agg128 (src dst : IVec S300000 32) (mr : FVec Ideal S100000x128 .f32) : FVec Ideal S100000x128 .f32 :=
  Host.scatterAdd scatter_S100000x128_S300000x1_S300000x128_1_0_0_1 (broadcastInDim S100000x128 ![] bcast_S_S100000x128 (constant S_ .f32 0x00000000#32)) (broadcastInDim S300000x1 ![0] bcast_S300000_S300000x1_0 dst) (Host.gather gather_S100000x128_S300000x1_S300000x128_1_0_n_n_0_1_1128 mr (broadcastInDim S300000x1 ![0] bcast_S300000_S300000x1_0 (wrap src)))

/-- The aggregate at width 64. -/
def agg64 (src dst : IVec S300000 32) (mr : FVec Ideal S100000x64 .f32) : FVec Ideal S100000x64 .f32 :=
  Host.scatterAdd scatter_S100000x64_S300000x1_S300000x64_1_0_0_1 (broadcastInDim S100000x64 ![] bcast_S_S100000x64 (constant S_ .f32 0x00000000#32)) (broadcastInDim S300000x1 ![0] bcast_S300000_S300000x1_0 dst) (Host.gather gather_S100000x64_S300000x1_S300000x64_1_0_n_n_0_1_164 mr (broadcastInDim S300000x1 ![0] bcast_S300000_S300000x1_0 (wrap src)))

/-- Plane 0 of the first layer's weights. -/
def W1p0 (W : FVec Ideal S3x128x128 .f32) : FVec Ideal S128x128 .f32 :=
  shapeCast _ (extractStridedSlice S1x128x128 ![0, 0, 0] W slices_S3x128x128_S1x128x128_0_0_0) shapeCasts_S1x128x128_S128x128

/-- Plane 0 of the second layer's weights. -/
def W2p0 (W : FVec Ideal S3x128x64 .f32) : FVec Ideal S128x64 .f32 :=
  shapeCast _ (extractStridedSlice S1x128x64 ![0, 0, 0] W slices_S3x128x64_S1x128x64_0_0_0) shapeCasts_S1x128x64_S128x64

/-- Row 0 of the first layer's biases. -/
def b1r0 (b : FVec Ideal S3x128 .f32) : FVec Ideal S128 .f32 :=
  shapeCast _ (extractStridedSlice S1x128 ![0, 0] b slices_S3x128_S1x128_0_0) shapeCasts_S1x128_S128

/-- Row 0 of the second layer's biases. -/
def b2r0 (b : FVec Ideal S3x64 .f32) : FVec Ideal S64 .f32 :=
  shapeCast _ (extractStridedSlice S1x64 ![0, 0] b slices_S3x64_S1x64_0_0) shapeCasts_S1x64_S64

/-- Plane 1 of the first layer's weights. -/
def W1p1 (W : FVec Ideal S3x128x128 .f32) : FVec Ideal S128x128 .f32 :=
  shapeCast _ (extractStridedSlice S1x128x128 ![1, 0, 0] W slices_S3x128x128_S1x128x128_1_0_0) shapeCasts_S1x128x128_S128x128

/-- Plane 1 of the second layer's weights. -/
def W2p1 (W : FVec Ideal S3x128x64 .f32) : FVec Ideal S128x64 .f32 :=
  shapeCast _ (extractStridedSlice S1x128x64 ![1, 0, 0] W slices_S3x128x64_S1x128x64_1_0_0) shapeCasts_S1x128x64_S128x64

/-- Row 1 of the first layer's biases. -/
def b1r1 (b : FVec Ideal S3x128 .f32) : FVec Ideal S128 .f32 :=
  shapeCast _ (extractStridedSlice S1x128 ![1, 0] b slices_S3x128_S1x128_1_0) shapeCasts_S1x128_S128

/-- Row 1 of the second layer's biases. -/
def b2r1 (b : FVec Ideal S3x64 .f32) : FVec Ideal S64 .f32 :=
  shapeCast _ (extractStridedSlice S1x64 ![1, 0] b slices_S3x64_S1x64_1_0) shapeCasts_S1x64_S64

/-- Plane 2 of the first layer's weights. -/
def W1p2 (W : FVec Ideal S3x128x128 .f32) : FVec Ideal S128x128 .f32 :=
  shapeCast _ (extractStridedSlice S1x128x128 ![2, 0, 0] W slices_S3x128x128_S1x128x128_2_0_0) shapeCasts_S1x128x128_S128x128

/-- Plane 2 of the second layer's weights. -/
def W2p2 (W : FVec Ideal S3x128x64 .f32) : FVec Ideal S128x64 .f32 :=
  shapeCast _ (extractStridedSlice S1x128x64 ![2, 0, 0] W slices_S3x128x64_S1x128x64_2_0_0) shapeCasts_S1x128x64_S128x64

/-- Row 2 of the first layer's biases. -/
def b1r2 (b : FVec Ideal S3x128 .f32) : FVec Ideal S128 .f32 :=
  shapeCast _ (extractStridedSlice S1x128 ![2, 0] b slices_S3x128_S1x128_2_0) shapeCasts_S1x128_S128

/-- Row 2 of the second layer's biases. -/
def b2r2 (b : FVec Ideal S3x64 .f32) : FVec Ideal S64 .f32 :=
  shapeCast _ (extractStridedSlice S1x64 ![2, 0] b slices_S3x64_S1x64_2_0) shapeCasts_S1x64_S64

/-- A bias row repeated over the 100000 nodes, width 128. -/
def bias128 (br : FVec Ideal S128 .f32) : FVec Ideal S100000x128 .f32 :=
  broadcastInDim S100000x128 ![0, 1] bcast_S1x128_S100000x128_0_1 (broadcastInDim S1x128 ![1] bcast_S128_S1x128_1 br)

/-- A bias row repeated over the 100000 nodes, width 64. -/
def bias64 (br : FVec Ideal S64 .f32) : FVec Ideal S100000x64 .f32 :=
  broadcastInDim S100000x64 ![0, 1] bcast_S1x64_S100000x64_0_1 (broadcastInDim S1x64 ![1] bcast_S64_S1x64_1 br)

/-- A relation's messages into width 128: the rows scaled by the degrees' power -1/2, times a weight plane. -/
def msg128 (h : FVec Ideal S100000x128 .f32) (d : FVec Ideal S100000 .f32) (Wp : FVec Ideal S128x128 .f32) : FVec Ideal S100000x128 .f32 :=
  Host.dotGeneral dot_S100000x128_S128x128_S100000x128_1_0_0_1_n_n none (mulf h (broadcastInDim S100000x128 ![0, 1] bcast_S100000x1_S100000x128_0_1 (scale d))) Wp

/-- A relation's messages into width 64. -/
def msg64 (h : FVec Ideal S100000x128 .f32) (d : FVec Ideal S100000 .f32) (Wp : FVec Ideal S128x64 .f32) : FVec Ideal S100000x64 .f32 :=
  Host.dotGeneral dot_S100000x128_S128x64_S100000x64_1_0_0_1_n_n none (mulf h (broadcastInDim S100000x128 ![0, 1] bcast_S100000x1_S100000x128_0_1 (scale d))) Wp

/-- One relation accumulated, width 128: the running sum plus the aggregate scaled by the degrees' power -1/2, plus the bias row. -/
def step128 (out agg : FVec Ideal S100000x128 .f32) (d : FVec Ideal S100000 .f32) (br : FVec Ideal S128 .f32) : FVec Ideal S100000x128 .f32 :=
  addf (addf out (mulf agg (broadcastInDim S100000x128 ![0, 1] bcast_S100000x1_S100000x128_0_1 (scale d)))) (bias128 br)

/-- One relation accumulated, width 64. -/
def step64 (out agg : FVec Ideal S100000x64 .f32) (d : FVec Ideal S100000 .f32) (br : FVec Ideal S64 .f32) : FVec Ideal S100000x64 .f32 :=
  addf (addf out (mulf agg (broadcastInDim S100000x64 ![0, 1] bcast_S100000x1_S100000x64_0_1 (scale d)))) (bias64 br)

/-- The first layer: the three relations accumulated from zero, clipped below at zero. -/
def layer128 (h : FVec Ideal S100000x128 .f32) (W : FVec Ideal S3x128x128 .f32) (b : FVec Ideal S3x128 .f32) (e : IVec S3x2x300000 32) :
    FVec Ideal S100000x128 .f32 :=
  maximumf (step128 (step128 (step128 zeros128 (agg128 (src0 e) (dst0 e) (msg128 h (deg (src0 e)) (W1p0 W))) (deg (dst0 e)) (b1r0 b)) (agg128 (src1 e) (dst1 e) (msg128 h (deg (src1 e)) (W1p1 W))) (deg (dst1 e)) (b1r1 b)) (agg128 (src2 e) (dst2 e) (msg128 h (deg (src2 e)) (W1p2 W))) (deg (dst2 e)) (b1r2 b)) zeros128

/-- The second layer. -/
def layer64 (h : FVec Ideal S100000x128 .f32) (W : FVec Ideal S3x128x64 .f32) (b : FVec Ideal S3x64 .f32) (e : IVec S3x2x300000 32) :
    FVec Ideal S100000x64 .f32 :=
  maximumf (step64 (step64 (step64 zeros64 (agg64 (src0 e) (dst0 e) (msg64 h (deg (src0 e)) (W2p0 W))) (deg (dst0 e)) (b2r0 b)) (agg64 (src1 e) (dst1 e) (msg64 h (deg (src1 e)) (W2p1 W))) (deg (dst1 e)) (b2r1 b)) (agg64 (src2 e) (dst2 e) (msg64 h (deg (src2 e)) (W2p2 W))) (deg (dst2 e)) (b2r2 b)) zeros64

/-! ## The pieces read at an index -/

theorem plain128 : IsPlain dot_S100000x128_S128x128_S100000x128_1_0_0_1_n_n := ⟨rfl, rfl, rfl, rfl, rfl, rfl⟩

theorem plain64 : IsPlain dot_S100000x128_S128x64_S100000x64_1_0_0_1_n_n := ⟨rfl, rfl, rfl, rfl, rfl, rfl⟩

theorem zeros128_apply (i : S100000x128.Idx) : zeros128 i = Spec.z := by
  unfold zeros128; rw [broadcastInDim_scalar_apply]; rfl

theorem zeros64_apply (i : S100000x64.Idx) : zeros64 i = Spec.z := by
  unfold zeros64; rw [broadcastInDim_scalar_apply]; rfl

/-- Relation 0's source list is the specification's. -/
theorem src0_eq (e : IVec S3x2x300000 32) : src0 e = Spec.endpoints e 0 0 := by
  funext i
  obtain ⟨a, rfl⟩ : ∃ a : Fin 300000, i = ix1 a := ⟨i 0, eq_ix1 i⟩
  unfold src0
  exact line_apply 0 0 (by decide) (by decide) e _ _ a

/-- Relation 0's destination list is the specification's. -/
theorem dst0_eq (e : IVec S3x2x300000 32) : dst0 e = Spec.endpoints e 0 1 := by
  funext i
  obtain ⟨a, rfl⟩ : ∃ a : Fin 300000, i = ix1 a := ⟨i 0, eq_ix1 i⟩
  unfold dst0
  exact line_apply 0 1 (by decide) (by decide) e _ _ a

theorem W1p0_apply (W : FVec Ideal S3x128x128 .f32) (k : Fin 128) (j : Fin 128) : W1p0 W (ix2 k j) = W (ix3 0 k j) := by
  unfold W1p0
  exact plane_apply 0 (by decide) W _ _ k j

theorem W2p0_apply (W : FVec Ideal S3x128x64 .f32) (k : Fin 128) (j : Fin 64) : W2p0 W (ix2 k j) = W (ix3 0 k j) := by
  unfold W2p0
  exact plane_apply 0 (by decide) W _ _ k j

theorem b1r0_apply (b : FVec Ideal S3x128 .f32) (j : Fin 128) : b1r0 b (ix1 j) = b (ix2 0 j) := by
  unfold b1r0
  exact rowOf_apply 0 (by decide) b _ _ j

theorem b2r0_apply (b : FVec Ideal S3x64 .f32) (j : Fin 64) : b2r0 b (ix1 j) = b (ix2 0 j) := by
  unfold b2r0
  exact rowOf_apply 0 (by decide) b _ _ j

/-- Relation 1's source list is the specification's. -/
theorem src1_eq (e : IVec S3x2x300000 32) : src1 e = Spec.endpoints e 1 0 := by
  funext i
  obtain ⟨a, rfl⟩ : ∃ a : Fin 300000, i = ix1 a := ⟨i 0, eq_ix1 i⟩
  unfold src1
  exact line_apply 1 0 (by decide) (by decide) e _ _ a

/-- Relation 1's destination list is the specification's. -/
theorem dst1_eq (e : IVec S3x2x300000 32) : dst1 e = Spec.endpoints e 1 1 := by
  funext i
  obtain ⟨a, rfl⟩ : ∃ a : Fin 300000, i = ix1 a := ⟨i 0, eq_ix1 i⟩
  unfold dst1
  exact line_apply 1 1 (by decide) (by decide) e _ _ a

theorem W1p1_apply (W : FVec Ideal S3x128x128 .f32) (k : Fin 128) (j : Fin 128) : W1p1 W (ix2 k j) = W (ix3 1 k j) := by
  unfold W1p1
  exact plane_apply 1 (by decide) W _ _ k j

theorem W2p1_apply (W : FVec Ideal S3x128x64 .f32) (k : Fin 128) (j : Fin 64) : W2p1 W (ix2 k j) = W (ix3 1 k j) := by
  unfold W2p1
  exact plane_apply 1 (by decide) W _ _ k j

theorem b1r1_apply (b : FVec Ideal S3x128 .f32) (j : Fin 128) : b1r1 b (ix1 j) = b (ix2 1 j) := by
  unfold b1r1
  exact rowOf_apply 1 (by decide) b _ _ j

theorem b2r1_apply (b : FVec Ideal S3x64 .f32) (j : Fin 64) : b2r1 b (ix1 j) = b (ix2 1 j) := by
  unfold b2r1
  exact rowOf_apply 1 (by decide) b _ _ j

/-- Relation 2's source list is the specification's. -/
theorem src2_eq (e : IVec S3x2x300000 32) : src2 e = Spec.endpoints e 2 0 := by
  funext i
  obtain ⟨a, rfl⟩ : ∃ a : Fin 300000, i = ix1 a := ⟨i 0, eq_ix1 i⟩
  unfold src2
  exact line_apply 2 0 (by decide) (by decide) e _ _ a

/-- Relation 2's destination list is the specification's. -/
theorem dst2_eq (e : IVec S3x2x300000 32) : dst2 e = Spec.endpoints e 2 1 := by
  funext i
  obtain ⟨a, rfl⟩ : ∃ a : Fin 300000, i = ix1 a := ⟨i 0, eq_ix1 i⟩
  unfold dst2
  exact line_apply 2 1 (by decide) (by decide) e _ _ a

theorem W1p2_apply (W : FVec Ideal S3x128x128 .f32) (k : Fin 128) (j : Fin 128) : W1p2 W (ix2 k j) = W (ix3 2 k j) := by
  unfold W1p2
  exact plane_apply 2 (by decide) W _ _ k j

theorem W2p2_apply (W : FVec Ideal S3x128x64 .f32) (k : Fin 128) (j : Fin 64) : W2p2 W (ix2 k j) = W (ix3 2 k j) := by
  unfold W2p2
  exact plane_apply 2 (by decide) W _ _ k j

theorem b1r2_apply (b : FVec Ideal S3x128 .f32) (j : Fin 128) : b1r2 b (ix1 j) = b (ix2 2 j) := by
  unfold b1r2
  exact rowOf_apply 2 (by decide) b _ _ j

theorem b2r2_apply (b : FVec Ideal S3x64 .f32) (j : Fin 64) : b2r2 b (ix1 j) = b (ix2 2 j) := by
  unfold b2r2
  exact rowOf_apply 2 (by decide) b _ _ j

/-- A degree is at least 1: it is a maximum with the word 1. -/
theorem deg_ge_one (idx : IVec S300000 32) (i : S100000.Idx) : Spec.one ≤ deg idx i := by
  unfold deg
  rw [maximumf_apply, broadcastInDim_scalar_apply]
  exact le_max_left _ _

/-- One accumulation step of width 128 at `(n, j)`. -/
theorem step128_apply (out agg : FVec Ideal S100000x128 .f32) (d : FVec Ideal S100000 .f32) (br : FVec Ideal S128 .f32)
    (n : Fin 100000) (j : Fin 128) (hd : Spec.one ≤ d (ix1 n)) :
    step128 out agg d br (ix2 n j) = (out (ix2 n j) + agg (ix2 n j) * Ideal.rsqrt (d (ix1 n))) + br (ix1 j) := by
  unfold step128 bias128 scale
  exact step_apply out agg d br _ _ _ _ _ n j hd

/-- A relation's messages of width 128 are the specification's, once the weight plane is the relation's and the degrees are at least 1. -/
theorem msg128_eq (h : FVec Ideal S100000x128 .f32) (W : FVec Ideal S3x128x128 .f32) (dout : Fin 3 → FVec Ideal S100000 .f32) (r : Fin 3)
    (Wp : FVec Ideal S128x128 .f32) (hWp : ∀ (k : Fin 128) (j : Fin 128), Wp (ix2 k j) = W (ix3 r k j))
    (hd : ∀ n : Fin 100000, Spec.one ≤ dout r (ix1 n)) :
    msg128 h (dout r) Wp = Spec.msg h W dout r := by
  funext i
  obtain ⟨n, j, rfl⟩ : ∃ (n : Fin 100000) (j : Fin 128), i = ix2 n j := ⟨i 0, i 1, eq_ix2 i⟩
  unfold msg128 scale
  refine (msg_apply plain128 h (dout r) Wp _ _ _ n j (hd n)).trans ?_
  show _ = ∑ k : Fin 128, (h (ix2 n k) * Ideal.rsqrt (dout r (ix1 n))) * W (ix3 r k j)
  exact Finset.sum_congr rfl fun k _ => by rw [hWp]

/-- One accumulation step of width 64 at `(n, j)`. -/
theorem step64_apply (out agg : FVec Ideal S100000x64 .f32) (d : FVec Ideal S100000 .f32) (br : FVec Ideal S64 .f32)
    (n : Fin 100000) (j : Fin 64) (hd : Spec.one ≤ d (ix1 n)) :
    step64 out agg d br (ix2 n j) = (out (ix2 n j) + agg (ix2 n j) * Ideal.rsqrt (d (ix1 n))) + br (ix1 j) := by
  unfold step64 bias64 scale
  exact step_apply out agg d br _ _ _ _ _ n j hd

/-- A relation's messages of width 64 are the specification's, once the weight plane is the relation's and the degrees are at least 1. -/
theorem msg64_eq (h : FVec Ideal S100000x128 .f32) (W : FVec Ideal S3x128x64 .f32) (dout : Fin 3 → FVec Ideal S100000 .f32) (r : Fin 3)
    (Wp : FVec Ideal S128x64 .f32) (hWp : ∀ (k : Fin 128) (j : Fin 64), Wp (ix2 k j) = W (ix3 r k j))
    (hd : ∀ n : Fin 100000, Spec.one ≤ dout r (ix1 n)) :
    msg64 h (dout r) Wp = Spec.msg h W dout r := by
  funext i
  obtain ⟨n, j, rfl⟩ : ∃ (n : Fin 100000) (j : Fin 64), i = ix2 n j := ⟨i 0, i 1, eq_ix2 i⟩
  unfold msg64 scale
  refine (msg_apply plain64 h (dout r) Wp _ _ _ n j (hd n)).trans ?_
  show _ = ∑ k : Fin 128, (h (ix2 n k) * Ideal.rsqrt (dout r (ix1 n))) * W (ix3 r k j)
  exact Finset.sum_congr rfl fun k _ => by rw [hWp]

/-- The first layer is the specification's layer with the reference's own degrees and aggregates. -/
theorem layer128_eq (h : FVec Ideal S100000x128 .f32) (W : FVec Ideal S3x128x128 .f32) (b : FVec Ideal S3x128 .f32) (e : IVec S3x2x300000 32) :
    layer128 h W b e = Spec.layer h W b (fun r => deg (Spec.endpoints e r 0)) (fun r => deg (Spec.endpoints e r 1))
      (fun r => agg128 (Spec.endpoints e r 0) (Spec.endpoints e r 1)) := by
  funext i
  obtain ⟨n, j, rfl⟩ : ∃ (n : Fin 100000) (j : Fin 128), i = ix2 n j := ⟨i 0, i 1, eq_ix2 i⟩
  have hm0 : msg128 h (deg (Spec.endpoints e 0 0)) (W1p0 W) = Spec.msg h W (fun r => deg (Spec.endpoints e r 0)) 0 :=
    msg128_eq h W (fun r => deg (Spec.endpoints e r 0)) 0 (W1p0 W) (W1p0_apply W) (fun n => deg_ge_one _ _)
  have hm1 : msg128 h (deg (Spec.endpoints e 1 0)) (W1p1 W) = Spec.msg h W (fun r => deg (Spec.endpoints e r 0)) 1 :=
    msg128_eq h W (fun r => deg (Spec.endpoints e r 0)) 1 (W1p1 W) (W1p1_apply W) (fun n => deg_ge_one _ _)
  have hm2 : msg128 h (deg (Spec.endpoints e 2 0)) (W1p2 W) = Spec.msg h W (fun r => deg (Spec.endpoints e r 0)) 2 :=
    msg128_eq h W (fun r => deg (Spec.endpoints e r 0)) 2 (W1p2 W) (W1p2_apply W) (fun n => deg_ge_one _ _)
  unfold layer128
  rw [maximumf_apply, step128_apply _ _ _ _ n j (deg_ge_one _ _), step128_apply _ _ _ _ n j (deg_ge_one _ _),
    step128_apply _ _ _ _ n j (deg_ge_one _ _), zeros128_apply, b1r0_apply, b1r1_apply, b1r2_apply,
    src0_eq, src1_eq, src2_eq, dst0_eq, dst1_eq, dst2_eq, hm0, hm1, hm2]
  rfl

/-- The second layer is the specification's layer with the reference's own degrees and aggregates. -/
theorem layer64_eq (h : FVec Ideal S100000x128 .f32) (W : FVec Ideal S3x128x64 .f32) (b : FVec Ideal S3x64 .f32) (e : IVec S3x2x300000 32) :
    layer64 h W b e = Spec.layer h W b (fun r => deg (Spec.endpoints e r 0)) (fun r => deg (Spec.endpoints e r 1))
      (fun r => agg64 (Spec.endpoints e r 0) (Spec.endpoints e r 1)) := by
  funext i
  obtain ⟨n, j, rfl⟩ : ∃ (n : Fin 100000) (j : Fin 64), i = ix2 n j := ⟨i 0, i 1, eq_ix2 i⟩
  have hm0 : msg64 h (deg (Spec.endpoints e 0 0)) (W2p0 W) = Spec.msg h W (fun r => deg (Spec.endpoints e r 0)) 0 :=
    msg64_eq h W (fun r => deg (Spec.endpoints e r 0)) 0 (W2p0 W) (W2p0_apply W) (fun n => deg_ge_one _ _)
  have hm1 : msg64 h (deg (Spec.endpoints e 1 0)) (W2p1 W) = Spec.msg h W (fun r => deg (Spec.endpoints e r 0)) 1 :=
    msg64_eq h W (fun r => deg (Spec.endpoints e r 0)) 1 (W2p1 W) (W2p1_apply W) (fun n => deg_ge_one _ _)
  have hm2 : msg64 h (deg (Spec.endpoints e 2 0)) (W2p2 W) = Spec.msg h W (fun r => deg (Spec.endpoints e r 0)) 2 :=
    msg64_eq h W (fun r => deg (Spec.endpoints e r 0)) 2 (W2p2 W) (W2p2_apply W) (fun n => deg_ge_one _ _)
  unfold layer64
  rw [maximumf_apply, step64_apply _ _ _ _ n j (deg_ge_one _ _), step64_apply _ _ _ _ n j (deg_ge_one _ _),
    step64_apply _ _ _ _ n j (deg_ge_one _ _), zeros64_apply, b2r0_apply, b2r1_apply, b2r2_apply,
    src0_eq, src1_eq, src2_eq, dst0_eq, dst1_eq, dst2_eq, hm0, hm1, hm2]
  rfl

/-- The two layers composed are the specification's network. -/
theorem net_eq (x : FVec Ideal S100000x128 .f32) (W1 : FVec Ideal S3x128x128 .f32) (b1 : FVec Ideal S3x128 .f32)
    (W2 : FVec Ideal S3x128x64 .f32) (b2 : FVec Ideal S3x64 .f32) (e : IVec S3x2x300000 32) :
    layer64 (layer128 x W1 b1 e) W2 b2 e
      = Spec.net x W1 b1 W2 b2 (fun r => deg (Spec.endpoints e r 0)) (fun r => deg (Spec.endpoints e r 1))
          (fun r => agg128 (Spec.endpoints e r 0) (Spec.endpoints e r 1)) (fun r => agg64 (Spec.endpoints e r 0) (Spec.endpoints e r 1)) := by
  rw [layer64_eq, layer128_eq]
  rfl

/-! ## The reference's result -/

/-- The reference's result term is the two folded layers of its arguments. -/
theorem res_eq_layers (m : (ℓ : Loc nD τ sig) → Buf (Elt Ideal) ℓ) (c : Dev nD) :
    Cert.ReferenceIdeal.ValueP.res_main_v251 (F := Ideal) m c
      = layer64 (layer128 (m ((c.tc : Thread nD τ).loc main_arg0)) (m ((c.tc : Thread nD τ).loc main_arg1)) (m ((c.tc : Thread nD τ).loc main_arg2)) (m ((c.tc : Thread nD τ).loc main_arg5)))
          (m ((c.tc : Thread nD τ).loc main_arg3)) (m ((c.tc : Thread nD τ).loc main_arg4)) (m ((c.tc : Thread nD τ).loc main_arg5)) := by
  unfold Cert.ReferenceIdeal.ValueP.res_main_v251; rfl

/-- The reference's result is the specification's network of its five float arguments, with the degrees and the
    aggregates the reference itself computes from its edge array. -/
theorem result_eq (m : (ℓ : Loc nD τ sig) → Buf (Elt Ideal) ℓ) (c : Dev nD) :
    Cert.ReferenceIdeal.ValueP.res_main_v251 (F := Ideal) m c
      = Spec.net ((m ((c.tc : Thread nD τ).loc main_arg0)) : FVec Ideal S100000x128 .f32) ((m ((c.tc : Thread nD τ).loc main_arg1)) : FVec Ideal S3x128x128 .f32)
          ((m ((c.tc : Thread nD τ).loc main_arg2)) : FVec Ideal S3x128 .f32) ((m ((c.tc : Thread nD τ).loc main_arg3)) : FVec Ideal S3x128x64 .f32)
          ((m ((c.tc : Thread nD τ).loc main_arg4)) : FVec Ideal S3x64 .f32)
          (fun r => deg (Spec.endpoints ((m ((c.tc : Thread nD τ).loc main_arg5)) : IVec S3x2x300000 32) r 0))
          (fun r => deg (Spec.endpoints ((m ((c.tc : Thread nD τ).loc main_arg5)) : IVec S3x2x300000 32) r 1))
          (fun r => agg128 (Spec.endpoints ((m ((c.tc : Thread nD τ).loc main_arg5)) : IVec S3x2x300000 32) r 0)
            (Spec.endpoints ((m ((c.tc : Thread nD τ).loc main_arg5)) : IVec S3x2x300000 32) r 1))
          (fun r => agg64 (Spec.endpoints ((m ((c.tc : Thread nD τ).loc main_arg5)) : IVec S3x2x300000 32) r 0)
            (Spec.endpoints ((m ((c.tc : Thread nD τ).loc main_arg5)) : IVec S3x2x300000 32) r 1)) :=
  (res_eq_layers m c).trans (net_eq _ _ _ _ _ _)

end Cert.ReferenceIdeal.HandValue

end
-- ==== Proof.IdealEntry.lean ====
/-
  What the four regions of the two-layer relational graph convolution are entered with, as whole-array terms of the
  launch memory.

  Between its regions the program runs stretches of host operations. From the 3×2×300000 edge list (relation ×
  {source, destination} × edge) they compute, for each relation, the out-degree and the in-degree of each of the
  100000 nodes (a sum of ones over the edges, taken to at least one), stacked per kind into a 3×100000×1 array; and,
  after regions 0 and 2, for each relation the aggregation of that relation's slab of the region's output along the
  relation's edges (row `src j` added into row `dst j`), stacked into a 3×100000×width array. The second layer
  computes the degrees afresh from the same edge list by the same operations, so the same terms come out.

  Stated here at the extended reals: the terms (`edgeRowK`, `degK`, `degStackK`, `aggK128` / `aggK64`,
  `aggStackK128` / `aggStackK64`), spelt exactly as the program's operations compose; one lemma per buffer and stretch,
  over any valuation the stretch starts from; the buffers' contents between the items, each carried from the stretch
  that wrote it to the point where it is read; and `entry0` … `entry3`: the three input arrays of each region at the
  point where the region is entered, for arbitrary contents `o` left by the regions before it.
-/
import proofs.«142468_j3186865733925_1_alg».proof.Proof.Gen.KernelIdeal.Regions
import Idealize.ShloMosaic.Lib.StableHlo.Run
import Idealize.ShloMosaic.PureOps.Ideal

set_option maxRecDepth 4096
noncomputable section
namespace Cert.KernelIdeal.HandValue
open Cert.KernelIdeal Cert.KernelIdeal.Gen
open Idealize.ShloMosaic Idealize.ShloMosaic.TcCoe Idealize.ShloMosaic.StableHlo

section General
variable {τ : Topo} {sig : RefSig} {Val : EltTy → Type}
variable {x a b y : Ref sig .tc}

/-- A three-operand operation's result buffer holds its function of the three operands' contents, each read at its
    own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end General

/-- Reads a buffer after a literal list of operations: the list is applied one operation at a time; at its own result
    buffer an operation gives its function of the operands' contents, and at any other buffer what was there. -/
macro "host_results" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

section General2
variable {τ : Topo} {sig : RefSig} {Val : EltTy → Type}
variable {x a b y : Ref sig .tc}
/-- The same, in the form a single simplification pass can use. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end General2

/-- The same reading as one simplification pass, for the long stretches (shared operands are visited once). -/
macro "host_results_simp" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## The whole-array terms, in the program's own spelling -/

/-- Column `s` of the edge list (0: sources, 1: destinations) for all three relations: the slice `[0:3, s:s+1, :]`
    of the 3×2×300000 array, reshaped to 3×300000. -/
def edgeColK (e : S3x2x300000.Idx → Elt Ideal .i32) : Fin 2 → (S3x300000.Idx → Elt Ideal .i32)
  | ⟨0, _⟩ => shapeCast S3x300000 (extractStridedSlice S3x1x300000 ![0, 0, 0] e slices_S3x2x300000_S3x1x300000_0_0_0) shapeCasts_S3x1x300000_S3x300000
  | ⟨1, _⟩ => shapeCast S3x300000 (extractStridedSlice S3x1x300000 ![0, 1, 0] e slices_S3x2x300000_S3x1x300000_0_1_0) shapeCasts_S3x1x300000_S3x300000

/-- Row `r` of a 3×300000 array of indices: the slice `[r:r+1, :]`, reshaped to 300000. -/
def rowOfK (col : S3x300000.Idx → Elt Ideal .i32) : Fin 3 → (S300000.Idx → Elt Ideal .i32)
  | ⟨0, _⟩ => shapeCast S300000 (extractStridedSlice S1x300000 ![0, 0] col slices_S3x300000_S1x300000_0_0) shapeCasts_S1x300000_S300000
  | ⟨1, _⟩ => shapeCast S300000 (extractStridedSlice S1x300000 ![1, 0] col slices_S3x300000_S1x300000_1_0) shapeCasts_S1x300000_S300000
  | ⟨2, _⟩ => shapeCast S300000 (extractStridedSlice S1x300000 ![2, 0] col slices_S3x300000_S1x300000_2_0) shapeCasts_S1x300000_S300000

/-- The 300000 endpoints (sources for `s = 0`, destinations for `s = 1`) of relation `r`'s edges: the two cuts above,
    one after the other, spelt out for each of the six pairs. -/
def edgeRowK (e : S3x2x300000.Idx → Elt Ideal .i32) : Fin 2 → Fin 3 → (S300000.Idx → Elt Ideal .i32)
  | ⟨0, _⟩, ⟨0, _⟩ => shapeCast S300000 (extractStridedSlice S1x300000 ![0, 0] (shapeCast S3x300000 (extractStridedSlice S3x1x300000 ![0, 0, 0] e slices_S3x2x300000_S3x1x300000_0_0_0) shapeCasts_S3x1x300000_S3x300000) slices_S3x300000_S1x300000_0_0) shapeCasts_S1x300000_S300000
  | ⟨0, _⟩, ⟨1, _⟩ => shapeCast S300000 (extractStridedSlice S1x300000 ![1, 0] (shapeCast S3x300000 (extractStridedSlice S3x1x300000 ![0, 0, 0] e slices_S3x2x300000_S3x1x300000_0_0_0) shapeCasts_S3x1x300000_S3x300000) slices_S3x300000_S1x300000_1_0) shapeCasts_S1x300000_S300000
  | ⟨0, _⟩, ⟨2, _⟩ => shapeCast S300000 (extractStridedSlice S1x300000 ![2, 0] (shapeCast S3x300000 (extractStridedSlice S3x1x300000 ![0, 0, 0] e slices_S3x2x300000_S3x1x300000_0_0_0) shapeCasts_S3x1x300000_S3x300000) slices_S3x300000_S1x300000_2_0) shapeCasts_S1x300000_S300000
  | ⟨1, _⟩, ⟨0, _⟩ => shapeCast S300000 (extractStridedSlice S1x300000 ![0, 0] (shapeCast S3x300000 (extractStridedSlice S3x1x300000 ![0, 1, 0] e slices_S3x2x300000_S3x1x300000_0_1_0) shapeCasts_S3x1x300000_S3x300000) slices_S3x300000_S1x300000_0_0) shapeCasts_S1x300000_S300000
  | ⟨1, _⟩, ⟨1, _⟩ => shapeCast S300000 (extractStridedSlice S1x300000 ![1, 0] (shapeCast S3x300000 (extractStridedSlice S3x1x300000 ![0, 1, 0] e slices_S3x2x300000_S3x1x300000_0_1_0) shapeCasts_S3x1x300000_S3x300000) slices_S3x300000_S1x300000_1_0) shapeCasts_S1x300000_S300000
  | ⟨1, _⟩, ⟨2, _⟩ => shapeCast S300000 (extractStridedSlice S1x300000 ![2, 0] (shapeCast S3x300000 (extractStridedSlice S3x1x300000 ![0, 1, 0] e slices_S3x2x300000_S3x1x300000_0_1_0) shapeCasts_S3x1x300000_S3x300000) slices_S3x300000_S1x300000_2_0) shapeCasts_S1x300000_S300000

/-- The six spellings are the two cuts composed. -/
theorem edgeRowK_eq (e : S3x2x300000.Idx → Elt Ideal .i32) (s : Fin 2) (r : Fin 3) :
    edgeRowK e s r = rowOfK (edgeColK e s) r := by
  fin_cases s <;> fin_cases r <;> rfl

/-- The degree of each of the 100000 nodes with respect to an index list, never below one: ones are added into an
    array of zeros at the listed positions, and the result is taken to at least 1 elementwise. -/
def degK (idx : S300000.Idx → Elt Ideal .i32) : S100000.Idx → EReal :=
  maximumf (F := Ideal) (broadcastInDim S100000 ![] bcast_S_S100000 (id (constant (F := Ideal) S_ .f32 0x3F800000#32)))
    (Host.scatterAdd (F := Ideal) scatter_S100000_S300000x1_S300000_n_0_0_1
      (broadcastInDim S100000 ![] bcast_S_S100000 (constant (F := Ideal) S_ .f32 0x00000000#32))
      (broadcastInDim S300000x1 ![0] bcast_S300000_S300000x1_0 idx)
      (broadcastInDim S300000 ![] bcast_S_S300000 (constant (F := Ideal) S_ .f32 0x3F800000#32)))

/-- Three degree vectors stacked along a new leading axis, with a trailing unit axis: 3×100000×1. -/
def degStackOfK (d0 d1 d2 : S100000.Idx → EReal) : S3x100000x1.Idx → EReal :=
  broadcastInDim S3x100000x1 ![0, 1] bcast_S3x100000_S3x100000x1_0_1
    (concatenate S3x100000 0 [⟨S1x100000, broadcastInDim S1x100000 ![1] bcast_S100000_S1x100000_1 d0⟩,
      ⟨S1x100000, broadcastInDim S1x100000 ![1] bcast_S100000_S1x100000_1 d1⟩,
      ⟨S1x100000, broadcastInDim S1x100000 ![1] bcast_S100000_S1x100000_1 d2⟩] concatenates_S1x100000_S1x100000_S1x100000_S3x100000_d0)

/-- The three relations' degrees (out-degrees for `s = 0`, in-degrees for `s = 1`), stacked: 3×100000×1. -/
def degStackK (e : S3x2x300000.Idx → Elt Ideal .i32) (s : Fin 2) : S3x100000x1.Idx → EReal :=
  broadcastInDim S3x100000x1 ![0, 1] bcast_S3x100000_S3x100000x1_0_1
    (concatenate S3x100000 0 [⟨S1x100000, broadcastInDim S1x100000 ![1] bcast_S100000_S1x100000_1 (degK (edgeRowK e s 0))⟩,
      ⟨S1x100000, broadcastInDim S1x100000 ![1] bcast_S100000_S1x100000_1 (degK (edgeRowK e s 1))⟩,
      ⟨S1x100000, broadcastInDim S1x100000 ![1] bcast_S100000_S1x100000_1 (degK (edgeRowK e s 2))⟩] concatenates_S1x100000_S1x100000_S1x100000_S3x100000_d0)

/-- One relation's aggregation at width 128: row `src j` of `mr` (a negative index counted from the end) is added into
    row `dst j` of an array of zeros, for each of the 300000 edges `j`. -/
def aggK128 (src dst : S300000.Idx → Elt Ideal .i32) (mr : S100000x128.Idx → EReal) : S100000x128.Idx → EReal :=
  Host.scatterAdd (F := Ideal) scatter_S100000x128_S300000x1_S300000x128_1_0_0_1
    (broadcastInDim S100000x128 ![] bcast_S_S100000x128 (constant (F := Ideal) S_ .f32 0x00000000#32))
    (broadcastInDim S300000x1 ![0] bcast_S300000_S300000x1_0 dst)
    (Host.gather gather_S100000x128_S300000x1_S300000x128_1_0_n_n_0_1_1128 mr
      (broadcastInDim S300000x1 ![0] bcast_S300000_S300000x1_0
        (select (cmpi .slt src (broadcastInDim S300000 ![] bcast_S_S300000 (constantI S_ 32 0#32)))
          (addi src (broadcastInDim S300000 ![] bcast_S_S300000 (constantI S_ 32 100000#32))) src)))

/-- Relation `r`'s 100000×128 slab of a 3×100000×128 array. -/
def slabK128 (M : S3x100000x128.Idx → EReal) : Fin 3 → (S100000x128.Idx → EReal)
  | ⟨0, _⟩ => shapeCast S100000x128 (extractStridedSlice S1x100000x128 ![0, 0, 0] M slices_S3x100000x128_S1x100000x128_0_0_0) shapeCasts_S1x100000x128_S100000x128
  | ⟨1, _⟩ => shapeCast S100000x128 (extractStridedSlice S1x100000x128 ![1, 0, 0] M slices_S3x100000x128_S1x100000x128_1_0_0) shapeCasts_S1x100000x128_S100000x128
  | ⟨2, _⟩ => shapeCast S100000x128 (extractStridedSlice S1x100000x128 ![2, 0, 0] M slices_S3x100000x128_S1x100000x128_2_0_0) shapeCasts_S1x100000x128_S100000x128

/-- The three relations' aggregations of the slabs of `M` along the edge list `e`, stacked: 3×100000×128. -/
def aggStackK128 (e : S3x2x300000.Idx → Elt Ideal .i32) (M : S3x100000x128.Idx → EReal) : S3x100000x128.Idx → EReal :=
  concatenate S3x100000x128 0 [⟨S1x100000x128, broadcastInDim S1x100000x128 ![1, 2] bcast_S100000x128_S1x100000x128_1_2
      (aggK128 (edgeRowK e 0 0) (edgeRowK e 1 0) (shapeCast S100000x128 (extractStridedSlice S1x100000x128 ![0, 0, 0] M slices_S3x100000x128_S1x100000x128_0_0_0) shapeCasts_S1x100000x128_S100000x128))⟩,
    ⟨S1x100000x128, broadcastInDim S1x100000x128 ![1, 2] bcast_S100000x128_S1x100000x128_1_2
      (aggK128 (edgeRowK e 0 1) (edgeRowK e 1 1) (shapeCast S100000x128 (extractStridedSlice S1x100000x128 ![1, 0, 0] M slices_S3x100000x128_S1x100000x128_1_0_0) shapeCasts_S1x100000x128_S100000x128))⟩,
    ⟨S1x100000x128, broadcastInDim S1x100000x128 ![1, 2] bcast_S100000x128_S1x100000x128_1_2
      (aggK128 (edgeRowK e 0 2) (edgeRowK e 1 2) (shapeCast S100000x128 (extractStridedSlice S1x100000x128 ![2, 0, 0] M slices_S3x100000x128_S1x100000x128_2_0_0) shapeCasts_S1x100000x128_S100000x128))⟩]
    concatenates_S1x100000x128_S1x100000x128_S1x100000x128_S3x100000x128_d0

/-- One relation's aggregation at width 64: row `src j` of `mr` (a negative index counted from the end) is added into
    row `dst j` of an array of zeros, for each of the 300000 edges `j`. -/
def aggK64 (src dst : S300000.Idx → Elt Ideal .i32) (mr : S100000x64.Idx → EReal) : S100000x64.Idx → EReal :=
  Host.scatterAdd (F := Ideal) scatter_S100000x64_S300000x1_S300000x64_1_0_0_1
    (broadcastInDim S100000x64 ![] bcast_S_S100000x64 (constant (F := Ideal) S_ .f32 0x00000000#32))
    (broadcastInDim S300000x1 ![0] bcast_S300000_S300000x1_0 dst)
    (Host.gather gather_S100000x64_S300000x1_S300000x64_1_0_n_n_0_1_164 mr
      (broadcastInDim S300000x1 ![0] bcast_S300000_S300000x1_0
        (select (cmpi .slt src (broadcastInDim S300000 ![] bcast_S_S300000 (constantI S_ 32 0#32)))
          (addi src (broadcastInDim S300000 ![] bcast_S_S300000 (constantI S_ 32 100000#32))) src)))

/-- Relation `r`'s 100000×64 slab of a 3×100000×64 array. -/
def slabK64 (M : S3x100000x64.Idx → EReal) : Fin 3 → (S100000x64.Idx → EReal)
  | ⟨0, _⟩ => shapeCast S100000x64 (extractStridedSlice S1x100000x64 ![0, 0, 0] M slices_S3x100000x64_S1x100000x64_0_0_0) shapeCasts_S1x100000x64_S100000x64
  | ⟨1, _⟩ => shapeCast S100000x64 (extractStridedSlice S1x100000x64 ![1, 0, 0] M slices_S3x100000x64_S1x100000x64_1_0_0) shapeCasts_S1x100000x64_S100000x64
  | ⟨2, _⟩ => shapeCast S100000x64 (extractStridedSlice S1x100000x64 ![2, 0, 0] M slices_S3x100000x64_S1x100000x64_2_0_0) shapeCasts_S1x100000x64_S100000x64

/-- The three relations' aggregations of the slabs of `M` along the edge list `e`, stacked: 3×100000×64. -/
def aggStackK64 (e : S3x2x300000.Idx → Elt Ideal .i32) (M : S3x100000x64.Idx → EReal) : S3x100000x64.Idx → EReal :=
  concatenate S3x100000x64 0 [⟨S1x100000x64, broadcastInDim S1x100000x64 ![1, 2] bcast_S100000x64_S1x100000x64_1_2
      (aggK64 (edgeRowK e 0 0) (edgeRowK e 1 0) (shapeCast S100000x64 (extractStridedSlice S1x100000x64 ![0, 0, 0] M slices_S3x100000x64_S1x100000x64_0_0_0) shapeCasts_S1x100000x64_S100000x64))⟩,
    ⟨S1x100000x64, broadcastInDim S1x100000x64 ![1, 2] bcast_S100000x64_S1x100000x64_1_2
      (aggK64 (edgeRowK e 0 1) (edgeRowK e 1 1) (shapeCast S100000x64 (extractStridedSlice S1x100000x64 ![1, 0, 0] M slices_S3x100000x64_S1x100000x64_1_0_0) shapeCasts_S1x100000x64_S100000x64))⟩,
    ⟨S1x100000x64, broadcastInDim S1x100000x64 ![1, 2] bcast_S100000x64_S1x100000x64_1_2
      (aggK64 (edgeRowK e 0 2) (edgeRowK e 1 2) (shapeCast S100000x64 (extractStridedSlice S1x100000x64 ![2, 0, 0] M slices_S3x100000x64_S1x100000x64_2_0_0) shapeCasts_S1x100000x64_S100000x64))⟩]
    concatenates_S1x100000x64_S1x100000x64_S1x100000x64_S3x100000x64_d0

/-! ## Pieces the stretches are stated over -/

/-- The scalar one, and the vector of 300000 ones that every degree count adds up. -/
abbrev oneK : S_.Idx → EReal := constant (F := Ideal) S_ .f32 0x3F800000#32
abbrev onesK : S300000.Idx → EReal := broadcastInDim S300000 ![] bcast_S_S300000 oneK

/-- How many times each of the 100000 nodes occurs in `idx`, as a sum of the entries of `ones` into zeros. -/
abbrev countK (idx : S300000.Idx → Elt Ideal .i32) (ones : S300000.Idx → EReal) : S100000.Idx → EReal :=
  Host.scatterAdd (F := Ideal) scatter_S100000_S300000x1_S300000_n_0_0_1
    (broadcastInDim S100000 ![] bcast_S_S100000 (constant (F := Ideal) S_ .f32 0x00000000#32))
    (broadcastInDim S300000x1 ![0] bcast_S300000_S300000x1_0 idx) ones

/-- A vector taken to at least the scalar `k`, elementwise. -/
abbrev clipK (k : S_.Idx → EReal) (x : S100000.Idx → EReal) : S100000.Idx → EReal :=
  maximumf (F := Ideal) (φ := .f32) (broadcastInDim S100000 ![] bcast_S_S100000 (id k)) x

/-- The stacked aggregations, over the two index columns and the array of slabs. -/
abbrev aggStackOfK128 (c0 c1 : S3x300000.Idx → Elt Ideal .i32) (M : S3x100000x128.Idx → EReal) : S3x100000x128.Idx → EReal :=
  concatenate S3x100000x128 0 [⟨S1x100000x128, broadcastInDim S1x100000x128 ![1, 2] bcast_S100000x128_S1x100000x128_1_2
      (aggK128 (rowOfK c0 0) (rowOfK c1 0) (slabK128 M 0))⟩,
    ⟨S1x100000x128, broadcastInDim S1x100000x128 ![1, 2] bcast_S100000x128_S1x100000x128_1_2
      (aggK128 (rowOfK c0 1) (rowOfK c1 1) (slabK128 M 1))⟩,
    ⟨S1x100000x128, broadcastInDim S1x100000x128 ![1, 2] bcast_S100000x128_S1x100000x128_1_2
      (aggK128 (rowOfK c0 2) (rowOfK c1 2) (slabK128 M 2))⟩]
    concatenates_S1x100000x128_S1x100000x128_S1x100000x128_S3x100000x128_d0

/-- The stacked aggregations, over the two index columns and the array of slabs. -/
abbrev aggStackOfK64 (c0 c1 : S3x300000.Idx → Elt Ideal .i32) (M : S3x100000x64.Idx → EReal) : S3x100000x64.Idx → EReal :=
  concatenate S3x100000x64 0 [⟨S1x100000x64, broadcastInDim S1x100000x64 ![1, 2] bcast_S100000x64_S1x100000x64_1_2
      (aggK64 (rowOfK c0 0) (rowOfK c1 0) (slabK64 M 0))⟩,
    ⟨S1x100000x64, broadcastInDim S1x100000x64 ![1, 2] bcast_S100000x64_S1x100000x64_1_2
      (aggK64 (rowOfK c0 1) (rowOfK c1 1) (slabK64 M 1))⟩,
    ⟨S1x100000x64, broadcastInDim S1x100000x64 ![1, 2] bcast_S100000x64_S1x100000x64_1_2
      (aggK64 (rowOfK c0 2) (rowOfK c1 2) (slabK64 M 2))⟩]
    concatenates_S1x100000x64_S1x100000x64_S1x100000x64_S3x100000x64_d0

/-! ## Each stretch of host operations, over any valuation it starts from

Every lemma here reads one buffer after one stretch: the stretch's operations are applied one by one, each result
buffer holding its operation's function of the operand buffers, until only buffers the stretch does not write are
left; those are the hypotheses. -/
section Stretches
variable (W : Valuation τ sig (Elt Ideal))

/-! ### Item 0: the two index columns, the ones, relation 0's source count, relation 0's destinations -/

theorem s0_col0 (e : S3x2x300000.Idx → Elt Ideal .i32) (he : (W (Proc.devRef .tc main_arg5) : S3x2x300000.Idx → Elt Ideal .i32) = e) : (StableHlo.after hostOps0 W (Proc.devRef .tc main_v2) : S3x300000.Idx → Elt Ideal .i32) = edgeColK e 0 := by
  subst he; host_results <;> rfl

theorem s0_col1 (e : S3x2x300000.Idx → Elt Ideal .i32) (he : (W (Proc.devRef .tc main_arg5) : S3x2x300000.Idx → Elt Ideal .i32) = e) : (StableHlo.after hostOps0 W (Proc.devRef .tc main_v4) : S3x300000.Idx → Elt Ideal .i32) = edgeColK e 1 := by
  subst he; host_results <;> rfl

theorem s0_ones : (StableHlo.after hostOps0 W (Proc.devRef .tc main_v0) : S300000.Idx → EReal) = onesK := by
  host_results <;> rfl

theorem s0_one : (StableHlo.after hostOps0 W (Proc.devRef .tc main_cst_1) : S_.Idx → EReal) = oneK := by
  host_results <;> rfl

theorem s0_cnt (e : S3x2x300000.Idx → Elt Ideal .i32) (he : (W (Proc.devRef .tc main_arg5) : S3x2x300000.Idx → Elt Ideal .i32) = e) : (StableHlo.after hostOps0 W (Proc.devRef .tc main_v11) : S100000.Idx → EReal) = countK (edgeRowK e 0 0) onesK := by
  subst he; host_results <;> rfl

theorem s0_dst0 (e : S3x2x300000.Idx → Elt Ideal .i32) (he : (W (Proc.devRef .tc main_arg5) : S3x2x300000.Idx → Elt Ideal .i32) = e) : (StableHlo.after hostOps0 W (Proc.devRef .tc main_v8) : S300000.Idx → Elt Ideal .i32) = edgeRowK e 1 0 := by
  subst he; host_results <;> rfl

/-! ### Item 1: the count taken to at least one -/

theorem s1_deg (one : S_.Idx → EReal) (x : S100000.Idx → EReal) (h1 : (W (Proc.devRef .tc main_cst_1) : S_.Idx → EReal) = one) (hx : (W (Proc.devRef .tc main_v11) : S100000.Idx → EReal) = x) :
    (StableHlo.after hostOps0_1 W (Proc.devRef .tc main_v12) : S100000.Idx → EReal) = clipK one x := by
  subst h1 hx; host_results <;> rfl

/-! ### Item 2: a destination count -/

theorem s2_cnt (idx : S300000.Idx → Elt Ideal .i32) (ones : S300000.Idx → EReal) (hi : (W (Proc.devRef .tc main_v8) : S300000.Idx → Elt Ideal .i32) = idx) (ho : (W (Proc.devRef .tc main_v0) : S300000.Idx → EReal) = ones) :
    (StableHlo.after hostOps0_2 W (Proc.devRef .tc main_v15) : S100000.Idx → EReal) = countK idx ones := by
  subst hi ho; host_results <;> rfl

theorem s2_one : (StableHlo.after hostOps0_2 W (Proc.devRef .tc main_cst_3) : S_.Idx → EReal) = oneK := by
  host_results <;> rfl

/-! ### Item 3: the count taken to at least one -/

theorem s3_deg (one : S_.Idx → EReal) (x : S100000.Idx → EReal) (h1 : (W (Proc.devRef .tc main_cst_3) : S_.Idx → EReal) = one) (hx : (W (Proc.devRef .tc main_v15) : S100000.Idx → EReal) = x) :
    (StableHlo.after hostOps0_3 W (Proc.devRef .tc main_v16) : S100000.Idx → EReal) = clipK one x := by
  subst h1 hx; host_results <;> rfl

/-! ### Item 4: relation 1's destinations and its source count -/

theorem s4_dst (c1 : S3x300000.Idx → Elt Ideal .i32) (h1 : (W (Proc.devRef .tc main_v4) : S3x300000.Idx → Elt Ideal .i32) = c1) :
    (StableHlo.after hostOps0_4 W (Proc.devRef .tc main_v20) : S300000.Idx → Elt Ideal .i32) = rowOfK c1 1 := by
  subst h1; host_results <;> rfl

theorem s4_cnt (c0 : S3x300000.Idx → Elt Ideal .i32) (ones : S300000.Idx → EReal) (h0 : (W (Proc.devRef .tc main_v2) : S3x300000.Idx → Elt Ideal .i32) = c0) (ho : (W (Proc.devRef .tc main_v0) : S300000.Idx → EReal) = ones) :
    (StableHlo.after hostOps0_4 W (Proc.devRef .tc main_v23) : S100000.Idx → EReal) = countK (rowOfK c0 1) ones := by
  subst h0 ho; host_results <;> rfl

theorem s4_one : (StableHlo.after hostOps0_4 W (Proc.devRef .tc main_cst_5) : S_.Idx → EReal) = oneK := by
  host_results <;> rfl

/-! ### Item 5: the count taken to at least one -/

theorem s5_deg (one : S_.Idx → EReal) (x : S100000.Idx → EReal) (h1 : (W (Proc.devRef .tc main_cst_5) : S_.Idx → EReal) = one) (hx : (W (Proc.devRef .tc main_v23) : S100000.Idx → EReal) = x) :
    (StableHlo.after hostOps0_5 W (Proc.devRef .tc main_v24) : S100000.Idx → EReal) = clipK one x := by
  subst h1 hx; host_results <;> rfl

/-! ### Item 6: a destination count -/

theorem s6_cnt (idx : S300000.Idx → Elt Ideal .i32) (ones : S300000.Idx → EReal) (hi : (W (Proc.devRef .tc main_v20) : S300000.Idx → Elt Ideal .i32) = idx) (ho : (W (Proc.devRef .tc main_v0) : S300000.Idx → EReal) = ones) :
    (StableHlo.after hostOps0_6 W (Proc.devRef .tc main_v27) : S100000.Idx → EReal) = countK idx ones := by
  subst hi ho; host_results <;> rfl

theorem s6_one : (StableHlo.after hostOps0_6 W (Proc.devRef .tc main_cst_7) : S_.Idx → EReal) = oneK := by
  host_results <;> rfl

/-! ### Item 7: the count taken to at least one -/

theorem s7_deg (one : S_.Idx → EReal) (x : S100000.Idx → EReal) (h1 : (W (Proc.devRef .tc main_cst_7) : S_.Idx → EReal) = one) (hx : (W (Proc.devRef .tc main_v27) : S100000.Idx → EReal) = x) :
    (StableHlo.after hostOps0_7 W (Proc.devRef .tc main_v28) : S100000.Idx → EReal) = clipK one x := by
  subst h1 hx; host_results <;> rfl

/-! ### Item 8: relation 2's destinations and its source count -/

theorem s8_dst (c1 : S3x300000.Idx → Elt Ideal .i32) (h1 : (W (Proc.devRef .tc main_v4) : S3x300000.Idx → Elt Ideal .i32) = c1) :
    (StableHlo.after hostOps0_8 W (Proc.devRef .tc main_v32) : S300000.Idx → Elt Ideal .i32) = rowOfK c1 2 := by
  subst h1; host_results <;> rfl

theorem s8_cnt (c0 : S3x300000.Idx → Elt Ideal .i32) (ones : S300000.Idx → EReal) (h0 : (W (Proc.devRef .tc main_v2) : S3x300000.Idx → Elt Ideal .i32) = c0) (ho : (W (Proc.devRef .tc main_v0) : S300000.Idx → EReal) = ones) :
    (StableHlo.after hostOps0_8 W (Proc.devRef .tc main_v35) : S100000.Idx → EReal) = countK (rowOfK c0 2) ones := by
  subst h0 ho; host_results <;> rfl

theorem s8_one : (StableHlo.after hostOps0_8 W (Proc.devRef .tc main_cst_9) : S_.Idx → EReal) = oneK := by
  host_results <;> rfl

/-! ### Item 9: the count taken to at least one -/

theorem s9_deg (one : S_.Idx → EReal) (x : S100000.Idx → EReal) (h1 : (W (Proc.devRef .tc main_cst_9) : S_.Idx → EReal) = one) (hx : (W (Proc.devRef .tc main_v35) : S100000.Idx → EReal) = x) :
    (StableHlo.after hostOps0_9 W (Proc.devRef .tc main_v36) : S100000.Idx → EReal) = clipK one x := by
  subst h1 hx; host_results <;> rfl

/-! ### Item 10: a destination count -/

theorem s10_cnt (idx : S300000.Idx → Elt Ideal .i32) (ones : S300000.Idx → EReal) (hi : (W (Proc.devRef .tc main_v32) : S300000.Idx → Elt Ideal .i32) = idx) (ho : (W (Proc.devRef .tc main_v0) : S300000.Idx → EReal) = ones) :
    (StableHlo.after hostOps0_10 W (Proc.devRef .tc main_v39) : S100000.Idx → EReal) = countK idx ones := by
  subst hi ho; host_results <;> rfl

theorem s10_one : (StableHlo.after hostOps0_10 W (Proc.devRef .tc main_cst_11) : S_.Idx → EReal) = oneK := by
  host_results <;> rfl

/-! ### Item 11: the count taken to at least one -/

theorem s11_deg (one : S_.Idx → EReal) (x : S100000.Idx → EReal) (h1 : (W (Proc.devRef .tc main_cst_11) : S_.Idx → EReal) = one) (hx : (W (Proc.devRef .tc main_v39) : S100000.Idx → EReal) = x) :
    (StableHlo.after hostOps0_11 W (Proc.devRef .tc main_v40) : S100000.Idx → EReal) = clipK one x := by
  subst h1 hx; host_results <;> rfl

/-! ### Item 12: the two stacks of degrees -/

theorem s12_out (d0 d1 d2 : S100000.Idx → EReal) (h0 : (W (Proc.devRef .tc main_v12) : S100000.Idx → EReal) = d0) (h1 : (W (Proc.devRef .tc main_v24) : S100000.Idx → EReal) = d1) (h2 : (W (Proc.devRef .tc main_v36) : S100000.Idx → EReal) = d2) :
    (StableHlo.after hostOps0_12 W (Proc.devRef .tc main_v45) : S3x100000x1.Idx → EReal) = degStackOfK d0 d1 d2 := by
  subst h0 h1 h2; host_results <;> rfl

theorem s12_in (d0 d1 d2 : S100000.Idx → EReal) (h0 : (W (Proc.devRef .tc main_v16) : S100000.Idx → EReal) = d0) (h1 : (W (Proc.devRef .tc main_v28) : S100000.Idx → EReal) = d1) (h2 : (W (Proc.devRef .tc main_v40) : S100000.Idx → EReal) = d2) :
    (StableHlo.after hostOps0_12 W (Proc.devRef .tc main_v50) : S3x100000x1.Idx → EReal) = degStackOfK d0 d1 d2 := by
  subst h0 h1 h2; host_results <;> rfl

/-! ### Item 14: the three relations' aggregations at width 128, stacked -/

set_option maxHeartbeats 2000000 in
theorem s14_agg (c0 c1 : S3x300000.Idx → Elt Ideal .i32) (M : S3x100000x128.Idx → EReal) (h0 : (W (Proc.devRef .tc main_v2) : S3x300000.Idx → Elt Ideal .i32) = c0) (h1 : (W (Proc.devRef .tc main_v4) : S3x300000.Idx → Elt Ideal .i32) = c1) (hM : (W (Proc.devRef .tc main_v51) : S3x100000x128.Idx → EReal) = M) :
    (StableHlo.after hostOps1 W (Proc.devRef .tc main_v103) : S3x100000x128.Idx → EReal) = aggStackOfK128 c0 c1 M := by
  subst h0 h1 hM; host_results_simp
  rfl

/-! ### Item 16: the two index columns, the ones, relation 0's source count, relation 0's destinations -/

theorem s16_col0 (e : S3x2x300000.Idx → Elt Ideal .i32) (he : (W (Proc.devRef .tc main_arg5) : S3x2x300000.Idx → Elt Ideal .i32) = e) : (StableHlo.after hostOps2 W (Proc.devRef .tc main_v107) : S3x300000.Idx → Elt Ideal .i32) = edgeColK e 0 := by
  subst he; host_results <;> rfl

theorem s16_col1 (e : S3x2x300000.Idx → Elt Ideal .i32) (he : (W (Proc.devRef .tc main_arg5) : S3x2x300000.Idx → Elt Ideal .i32) = e) : (StableHlo.after hostOps2 W (Proc.devRef .tc main_v109) : S3x300000.Idx → Elt Ideal .i32) = edgeColK e 1 := by
  subst he; host_results <;> rfl

theorem s16_ones : (StableHlo.after hostOps2 W (Proc.devRef .tc main_v105) : S300000.Idx → EReal) = onesK := by
  host_results <;> rfl

theorem s16_one : (StableHlo.after hostOps2 W (Proc.devRef .tc main_cst_22) : S_.Idx → EReal) = oneK := by
  host_results <;> rfl

theorem s16_cnt (e : S3x2x300000.Idx → Elt Ideal .i32) (he : (W (Proc.devRef .tc main_arg5) : S3x2x300000.Idx → Elt Ideal .i32) = e) : (StableHlo.after hostOps2 W (Proc.devRef .tc main_v116) : S100000.Idx → EReal) = countK (edgeRowK e 0 0) onesK := by
  subst he; host_results <;> rfl

theorem s16_dst0 (e : S3x2x300000.Idx → Elt Ideal .i32) (he : (W (Proc.devRef .tc main_arg5) : S3x2x300000.Idx → Elt Ideal .i32) = e) : (StableHlo.after hostOps2 W (Proc.devRef .tc main_v113) : S300000.Idx → Elt Ideal .i32) = edgeRowK e 1 0 := by
  subst he; host_results <;> rfl

/-! ### Item 17: the count taken to at least one -/

theorem s17_deg (one : S_.Idx → EReal) (x : S100000.Idx → EReal) (h1 : (W (Proc.devRef .tc main_cst_22) : S_.Idx → EReal) = one) (hx : (W (Proc.devRef .tc main_v116) : S100000.Idx → EReal) = x) :
    (StableHlo.after hostOps2_1 W (Proc.devRef .tc main_v117) : S100000.Idx → EReal) = clipK one x := by
  subst h1 hx; host_results <;> rfl

/-! ### Item 18: a destination count -/

theorem s18_cnt (idx : S300000.Idx → Elt Ideal .i32) (ones : S300000.Idx → EReal) (hi : (W (Proc.devRef .tc main_v113) : S300000.Idx → Elt Ideal .i32) = idx) (ho : (W (Proc.devRef .tc main_v105) : S300000.Idx → EReal) = ones) :
    (StableHlo.after hostOps2_2 W (Proc.devRef .tc main_v120) : S100000.Idx → EReal) = countK idx ones := by
  subst hi ho; host_results <;> rfl

theorem s18_one : (StableHlo.after hostOps2_2 W (Proc.devRef .tc main_cst_24) : S_.Idx → EReal) = oneK := by
  host_results <;> rfl

/-! ### Item 19: the count taken to at least one -/

theorem s19_deg (one : S_.Idx → EReal) (x : S100000.Idx → EReal) (h1 : (W (Proc.devRef .tc main_cst_24) : S_.Idx → EReal) = one) (hx : (W (Proc.devRef .tc main_v120) : S100000.Idx → EReal) = x) :
    (StableHlo.after hostOps2_3 W (Proc.devRef .tc main_v121) : S100000.Idx → EReal) = clipK one x := by
  subst h1 hx; host_results <;> rfl

/-! ### Item 20: relation 1's destinations and its source count -/

theorem s20_dst (c1 : S3x300000.Idx → Elt Ideal .i32) (h1 : (W (Proc.devRef .tc main_v109) : S3x300000.Idx → Elt Ideal .i32) = c1) :
    (StableHlo.after hostOps2_4 W (Proc.devRef .tc main_v125) : S300000.Idx → Elt Ideal .i32) = rowOfK c1 1 := by
  subst h1; host_results <;> rfl

theorem s20_cnt (c0 : S3x300000.Idx → Elt Ideal .i32) (ones : S300000.Idx → EReal) (h0 : (W (Proc.devRef .tc main_v107) : S3x300000.Idx → Elt Ideal .i32) = c0) (ho : (W (Proc.devRef .tc main_v105) : S300000.Idx → EReal) = ones) :
    (StableHlo.after hostOps2_4 W (Proc.devRef .tc main_v128) : S100000.Idx → EReal) = countK (rowOfK c0 1) ones := by
  subst h0 ho; host_results <;> rfl

theorem s20_one : (StableHlo.after hostOps2_4 W (Proc.devRef .tc main_cst_26) : S_.Idx → EReal) = oneK := by
  host_results <;> rfl

/-! ### Item 21: the count taken to at least one -/

theorem s21_deg (one : S_.Idx → EReal) (x : S100000.Idx → EReal) (h1 : (W (Proc.devRef .tc main_cst_26) : S_.Idx → EReal) = one) (hx : (W (Proc.devRef .tc main_v128) : S100000.Idx → EReal) = x) :
    (StableHlo.after hostOps2_5 W (Proc.devRef .tc main_v129) : S100000.Idx → EReal) = clipK one x := by
  subst h1 hx; host_results <;> rfl

/-! ### Item 22: a destination count -/

theorem s22_cnt (idx : S300000.Idx → Elt Ideal .i32) (ones : S300000.Idx → EReal) (hi : (W (Proc.devRef .tc main_v125) : S300000.Idx → Elt Ideal .i32) = idx) (ho : (W (Proc.devRef .tc main_v105) : S300000.Idx → EReal) = ones) :
    (StableHlo.after hostOps2_6 W (Proc.devRef .tc main_v132) : S100000.Idx → EReal) = countK idx ones := by
  subst hi ho; host_results <;> rfl

theorem s22_one : (StableHlo.after hostOps2_6 W (Proc.devRef .tc main_cst_28) : S_.Idx → EReal) = oneK := by
  host_results <;> rfl

/-! ### Item 23: the count taken to at least one -/

theorem s23_deg (one : S_.Idx → EReal) (x : S100000.Idx → EReal) (h1 : (W (Proc.devRef .tc main_cst_28) : S_.Idx → EReal) = one) (hx : (W (Proc.devRef .tc main_v132) : S100000.Idx → EReal) = x) :
    (StableHlo.after hostOps2_7 W (Proc.devRef .tc main_v133) : S100000.Idx → EReal) = clipK one x := by
  subst h1 hx; host_results <;> rfl

/-! ### Item 24: relation 2's destinations and its source count -/

theorem s24_dst (c1 : S3x300000.Idx → Elt Ideal .i32) (h1 : (W (Proc.devRef .tc main_v109) : S3x300000.Idx → Elt Ideal .i32) = c1) :
    (StableHlo.after hostOps2_8 W (Proc.devRef .tc main_v137) : S300000.Idx → Elt Ideal .i32) = rowOfK c1 2 := by
  subst h1; host_results <;> rfl

theorem s24_cnt (c0 : S3x300000.Idx → Elt Ideal .i32) (ones : S300000.Idx → EReal) (h0 : (W (Proc.devRef .tc main_v107) : S3x300000.Idx → Elt Ideal .i32) = c0) (ho : (W (Proc.devRef .tc main_v105) : S300000.Idx → EReal) = ones) :
    (StableHlo.after hostOps2_8 W (Proc.devRef .tc main_v140) : S100000.Idx → EReal) = countK (rowOfK c0 2) ones := by
  subst h0 ho; host_results <;> rfl

theorem s24_one : (StableHlo.after hostOps2_8 W (Proc.devRef .tc main_cst_30) : S_.Idx → EReal) = oneK := by
  host_results <;> rfl

/-! ### Item 25: the count taken to at least one -/

theorem s25_deg (one : S_.Idx → EReal) (x : S100000.Idx → EReal) (h1 : (W (Proc.devRef .tc main_cst_30) : S_.Idx → EReal) = one) (hx : (W (Proc.devRef .tc main_v140) : S100000.Idx → EReal) = x) :
    (StableHlo.after hostOps2_9 W (Proc.devRef .tc main_v141) : S100000.Idx → EReal) = clipK one x := by
  subst h1 hx; host_results <;> rfl

/-! ### Item 26: a destination count -/

theorem s26_cnt (idx : S300000.Idx → Elt Ideal .i32) (ones : S300000.Idx → EReal) (hi : (W (Proc.devRef .tc main_v137) : S300000.Idx → Elt Ideal .i32) = idx) (ho : (W (Proc.devRef .tc main_v105) : S300000.Idx → EReal) = ones) :
    (StableHlo.after hostOps2_10 W (Proc.devRef .tc main_v144) : S100000.Idx → EReal) = countK idx ones := by
  subst hi ho; host_results <;> rfl

theorem s26_one : (StableHlo.after hostOps2_10 W (Proc.devRef .tc main_cst_32) : S_.Idx → EReal) = oneK := by
  host_results <;> rfl

/-! ### Item 27: the count taken to at least one -/

theorem s27_deg (one : S_.Idx → EReal) (x : S100000.Idx → EReal) (h1 : (W (Proc.devRef .tc main_cst_32) : S_.Idx → EReal) = one) (hx : (W (Proc.devRef .tc main_v144) : S100000.Idx → EReal) = x) :
    (StableHlo.after hostOps2_11 W (Proc.devRef .tc main_v145) : S100000.Idx → EReal) = clipK one x := by
  subst h1 hx; host_results <;> rfl

/-! ### Item 28: the two stacks of degrees -/

theorem s28_out (d0 d1 d2 : S100000.Idx → EReal) (h0 : (W (Proc.devRef .tc main_v117) : S100000.Idx → EReal) = d0) (h1 : (W (Proc.devRef .tc main_v129) : S100000.Idx → EReal) = d1) (h2 : (W (Proc.devRef .tc main_v141) : S100000.Idx → EReal) = d2) :
    (StableHlo.after hostOps2_12 W (Proc.devRef .tc main_v150) : S3x100000x1.Idx → EReal) = degStackOfK d0 d1 d2 := by
  subst h0 h1 h2; host_results <;> rfl

theorem s28_in (d0 d1 d2 : S100000.Idx → EReal) (h0 : (W (Proc.devRef .tc main_v121) : S100000.Idx → EReal) = d0) (h1 : (W (Proc.devRef .tc main_v133) : S100000.Idx → EReal) = d1) (h2 : (W (Proc.devRef .tc main_v145) : S100000.Idx → EReal) = d2) :
    (StableHlo.after hostOps2_12 W (Proc.devRef .tc main_v155) : S3x100000x1.Idx → EReal) = degStackOfK d0 d1 d2 := by
  subst h0 h1 h2; host_results <;> rfl

/-! ### Item 30: the three relations' aggregations at width 64, stacked -/

set_option maxHeartbeats 2000000 in
theorem s30_agg (c0 c1 : S3x300000.Idx → Elt Ideal .i32) (M : S3x100000x64.Idx → EReal) (h0 : (W (Proc.devRef .tc main_v107) : S3x300000.Idx → Elt Ideal .i32) = c0) (h1 : (W (Proc.devRef .tc main_v109) : S3x300000.Idx → Elt Ideal .i32) = c1) (hM : (W (Proc.devRef .tc main_v156) : S3x100000x64.Idx → EReal) = M) :
    (StableHlo.after hostOps3 W (Proc.devRef .tc main_v208) : S3x100000x64.Idx → EReal) = aggStackOfK64 c0 c1 M := by
  subst h0 h1 hM; host_results_simp
  rfl

end Stretches

variable (m : (ℓ : Loc nD τ sig) → Buf (Elt Ideal) ℓ) (o : Outs (F := Ideal))

/-- The edge list as launched: the contents of the sixth argument on core `c`. -/
abbrev eK (c : Dev nD) : S3x2x300000.Idx → Elt Ideal .i32 := m ((c : Thread nD τ).loc main_arg5)

/-- A buffer no item in between writes holds the same contents at the later point as at the earlier one: step back
    one item at a time, each step justified by the buffer not being among the item's outputs. -/
macro "unchanged" : tactic =>
  `(tactic| repeat (first
      | (rw [V32_of]; rotate_left; decide)
      | (rw [V31_of]; rotate_left; decide)
      | (rw [V30_of]; rotate_left; decide)
      | (rw [V29_of]; rotate_left; decide)
      | (rw [V28_of]; rotate_left; decide)
      | (rw [V27_of]; rotate_left; decide)
      | (rw [V26_of]; rotate_left; decide)
      | (rw [V25_of]; rotate_left; decide)
      | (rw [V24_of]; rotate_left; decide)
      | (rw [V23_of]; rotate_left; decide)
      | (rw [V22_of]; rotate_left; decide)
      | (rw [V21_of]; rotate_left; decide)
      | (rw [V20_of]; rotate_left; decide)
      | (rw [V19_of]; rotate_left; decide)
      | (rw [V18_of]; rotate_left; decide)
      | (rw [V17_of]; rotate_left; decide)
      | (rw [V16_of]; rotate_left; decide)
      | (rw [V15_of]; rotate_left; decide)
      | (rw [V14_of]; rotate_left; decide)
      | (rw [V13_of]; rotate_left; decide)
      | (rw [V12_of]; rotate_left; decide)
      | (rw [V11_of]; rotate_left; decide)
      | (rw [V10_of]; rotate_left; decide)
      | (rw [V9_of]; rotate_left; decide)
      | (rw [V8_of]; rotate_left; decide)
      | (rw [V7_of]; rotate_left; decide)
      | (rw [V6_of]; rotate_left; decide)
      | (rw [V5_of]; rotate_left; decide)
      | (rw [V4_of]; rotate_left; decide)
      | (rw [V3_of]; rotate_left; decide)
      | (rw [V2_of]; rotate_left; decide)
      | (rw [V1_of]; rotate_left; decide)))

/-! ## Buffers carried unchanged across items -/

theorem keep2_1_v8 (c : Dev nD) : V2 m c main_v8 = V1 m c main_v8 := by unchanged
theorem keep2_1_v0 (c : Dev nD) : V2 m c main_v0 = V1 m c main_v0 := by unchanged
theorem keep4_1_v4 (c : Dev nD) : V4 m c main_v4 = V1 m c main_v4 := by unchanged
theorem keep4_1_v2 (c : Dev nD) : V4 m c main_v2 = V1 m c main_v2 := by unchanged
theorem keep4_1_v0 (c : Dev nD) : V4 m c main_v0 = V1 m c main_v0 := by unchanged
theorem keep6_5_v20 (c : Dev nD) : V6 m c main_v20 = V5 m c main_v20 := by unchanged
theorem keep6_1_v0 (c : Dev nD) : V6 m c main_v0 = V1 m c main_v0 := by unchanged
theorem keep8_1_v4 (c : Dev nD) : V8 m c main_v4 = V1 m c main_v4 := by unchanged
theorem keep8_1_v2 (c : Dev nD) : V8 m c main_v2 = V1 m c main_v2 := by unchanged
theorem keep8_1_v0 (c : Dev nD) : V8 m c main_v0 = V1 m c main_v0 := by unchanged
theorem keep10_9_v32 (c : Dev nD) : V10 m c main_v32 = V9 m c main_v32 := by unchanged
theorem keep10_1_v0 (c : Dev nD) : V10 m c main_v0 = V1 m c main_v0 := by unchanged
theorem keep12_2_v12 (c : Dev nD) : V12 m c main_v12 = V2 m c main_v12 := by unchanged
theorem keep12_6_v24 (c : Dev nD) : V12 m c main_v24 = V6 m c main_v24 := by unchanged
theorem keep12_10_v36 (c : Dev nD) : V12 m c main_v36 = V10 m c main_v36 := by unchanged
theorem keep12_4_v16 (c : Dev nD) : V12 m c main_v16 = V4 m c main_v16 := by unchanged
theorem keep12_8_v28 (c : Dev nD) : V12 m c main_v28 = V8 m c main_v28 := by unchanged
theorem keep14_1_v2 (c : Dev nD) : V14 m o c main_v2 = V1 m c main_v2 := by unchanged
theorem keep14_1_v4 (c : Dev nD) : V14 m o c main_v4 = V1 m c main_v4 := by unchanged
theorem keep16_0_arg5 (c : Dev nD) : V16 m o c main_arg5 = V0 m c main_arg5 := by unchanged
theorem keep18_17_v113 (c : Dev nD) : V18 m o c main_v113 = V17 m o c main_v113 := by unchanged
theorem keep18_17_v105 (c : Dev nD) : V18 m o c main_v105 = V17 m o c main_v105 := by unchanged
theorem keep20_17_v109 (c : Dev nD) : V20 m o c main_v109 = V17 m o c main_v109 := by unchanged
theorem keep20_17_v107 (c : Dev nD) : V20 m o c main_v107 = V17 m o c main_v107 := by unchanged
theorem keep20_17_v105 (c : Dev nD) : V20 m o c main_v105 = V17 m o c main_v105 := by unchanged
theorem keep22_21_v125 (c : Dev nD) : V22 m o c main_v125 = V21 m o c main_v125 := by unchanged
theorem keep22_17_v105 (c : Dev nD) : V22 m o c main_v105 = V17 m o c main_v105 := by unchanged
theorem keep24_17_v109 (c : Dev nD) : V24 m o c main_v109 = V17 m o c main_v109 := by unchanged
theorem keep24_17_v107 (c : Dev nD) : V24 m o c main_v107 = V17 m o c main_v107 := by unchanged
theorem keep24_17_v105 (c : Dev nD) : V24 m o c main_v105 = V17 m o c main_v105 := by unchanged
theorem keep26_25_v137 (c : Dev nD) : V26 m o c main_v137 = V25 m o c main_v137 := by unchanged
theorem keep26_17_v105 (c : Dev nD) : V26 m o c main_v105 = V17 m o c main_v105 := by unchanged
theorem keep28_18_v117 (c : Dev nD) : V28 m o c main_v117 = V18 m o c main_v117 := by unchanged
theorem keep28_22_v129 (c : Dev nD) : V28 m o c main_v129 = V22 m o c main_v129 := by unchanged
theorem keep28_26_v141 (c : Dev nD) : V28 m o c main_v141 = V26 m o c main_v141 := by unchanged
theorem keep28_20_v121 (c : Dev nD) : V28 m o c main_v121 = V20 m o c main_v121 := by unchanged
theorem keep28_24_v133 (c : Dev nD) : V28 m o c main_v133 = V24 m o c main_v133 := by unchanged
theorem keep30_17_v107 (c : Dev nD) : V30 m o c main_v107 = V17 m o c main_v107 := by unchanged
theorem keep30_17_v109 (c : Dev nD) : V30 m o c main_v109 = V17 m o c main_v109 := by unchanged
theorem keep13_0_arg0 (c : Dev nD) : V13 m c main_arg0 = V0 m c main_arg0 := by unchanged
theorem keep13_0_arg1 (c : Dev nD) : V13 m c main_arg1 = V0 m c main_arg1 := by unchanged
theorem keep15_13_v50 (c : Dev nD) : V15 m o c main_v50 = V13 m c main_v50 := by unchanged
theorem keep15_0_arg2 (c : Dev nD) : V15 m o c main_arg2 = V0 m c main_arg2 := by unchanged
theorem keep29_16_v104 (c : Dev nD) : V29 m o c main_v104 = V16 m o c main_v104 := by unchanged
theorem keep29_0_arg3 (c : Dev nD) : V29 m o c main_arg3 = V0 m c main_arg3 := by unchanged
theorem keep31_29_v155 (c : Dev nD) : V31 m o c main_v155 = V29 m o c main_v155 := by unchanged
theorem keep31_0_arg4 (c : Dev nD) : V31 m o c main_arg4 = V0 m c main_arg4 := by unchanged

/-! ## The buffers between the items -/

theorem h0_arg5 (c : Dev nD) : (V0 m c main_arg5 : S3x2x300000.Idx → Elt Ideal .i32) = eK m c := rfl
theorem h1_col0 (c : Dev nD) : (V1 m c main_v2 : S3x300000.Idx → Elt Ideal .i32) = edgeColK (eK m c) 0 :=
  s0_col0 (V0 m c) _ (h0_arg5 m c)
theorem h1_col1 (c : Dev nD) : (V1 m c main_v4 : S3x300000.Idx → Elt Ideal .i32) = edgeColK (eK m c) 1 :=
  s0_col1 (V0 m c) _ (h0_arg5 m c)
theorem h1_ones (c : Dev nD) : (V1 m c main_v0 : S300000.Idx → EReal) = onesK :=
  s0_ones (V0 m c)
theorem h1_one (c : Dev nD) : (V1 m c main_cst_1 : S_.Idx → EReal) = oneK :=
  s0_one (V0 m c)
theorem h1_cnt (c : Dev nD) : (V1 m c main_v11 : S100000.Idx → EReal) = countK (edgeRowK (eK m c) 0 0) onesK :=
  s0_cnt (V0 m c) _ (h0_arg5 m c)
theorem h1_dst0 (c : Dev nD) : (V1 m c main_v8 : S300000.Idx → Elt Ideal .i32) = edgeRowK (eK m c) 1 0 :=
  s0_dst0 (V0 m c) _ (h0_arg5 m c)
theorem h2_deg (c : Dev nD) : (V2 m c main_v12 : S100000.Idx → EReal) = clipK oneK (countK (edgeRowK (eK m c) 0 0) onesK) :=
  s1_deg (V1 m c) _ _ (h1_one m c) (h1_cnt m c)
theorem h3_cnt (c : Dev nD) : (V3 m c main_v15 : S100000.Idx → EReal) = countK (edgeRowK (eK m c) 1 0) onesK :=
  s2_cnt (V2 m c) _ _ ((keep2_1_v8 m c).trans (h1_dst0 m c)) ((keep2_1_v0 m c).trans (h1_ones m c))
theorem h3_one (c : Dev nD) : (V3 m c main_cst_3 : S_.Idx → EReal) = oneK :=
  s2_one (V2 m c)
theorem h4_deg (c : Dev nD) : (V4 m c main_v16 : S100000.Idx → EReal) = clipK oneK (countK (edgeRowK (eK m c) 1 0) onesK) :=
  s3_deg (V3 m c) _ _ (h3_one m c) (h3_cnt m c)
theorem h5_dst (c : Dev nD) : (V5 m c main_v20 : S300000.Idx → Elt Ideal .i32) = rowOfK (edgeColK (eK m c) 1) 1 :=
  s4_dst (V4 m c) _ ((keep4_1_v4 m c).trans (h1_col1 m c))
theorem h5_cnt (c : Dev nD) : (V5 m c main_v23 : S100000.Idx → EReal) = countK (rowOfK (edgeColK (eK m c) 0) 1) onesK :=
  s4_cnt (V4 m c) _ _ ((keep4_1_v2 m c).trans (h1_col0 m c)) ((keep4_1_v0 m c).trans (h1_ones m c))
theorem h5_one (c : Dev nD) : (V5 m c main_cst_5 : S_.Idx → EReal) = oneK :=
  s4_one (V4 m c)
theorem h6_deg (c : Dev nD) : (V6 m c main_v24 : S100000.Idx → EReal) = clipK oneK (countK (rowOfK (edgeColK (eK m c) 0) 1) onesK) :=
  s5_deg (V5 m c) _ _ (h5_one m c) (h5_cnt m c)
theorem h7_cnt (c : Dev nD) : (V7 m c main_v27 : S100000.Idx → EReal) = countK (rowOfK (edgeColK (eK m c) 1) 1) onesK :=
  s6_cnt (V6 m c) _ _ ((keep6_5_v20 m c).trans (h5_dst m c)) ((keep6_1_v0 m c).trans (h1_ones m c))
theorem h7_one (c : Dev nD) : (V7 m c main_cst_7 : S_.Idx → EReal) = oneK :=
  s6_one (V6 m c)
theorem h8_deg (c : Dev nD) : (V8 m c main_v28 : S100000.Idx → EReal) = clipK oneK (countK (rowOfK (edgeColK (eK m c) 1) 1) onesK) :=
  s7_deg (V7 m c) _ _ (h7_one m c) (h7_cnt m c)
theorem h9_dst (c : Dev nD) : (V9 m c main_v32 : S300000.Idx → Elt Ideal .i32) = rowOfK (edgeColK (eK m c) 1) 2 :=
  s8_dst (V8 m c) _ ((keep8_1_v4 m c).trans (h1_col1 m c))
theorem h9_cnt (c : Dev nD) : (V9 m c main_v35 : S100000.Idx → EReal) = countK (rowOfK (edgeColK (eK m c) 0) 2) onesK :=
  s8_cnt (V8 m c) _ _ ((keep8_1_v2 m c).trans (h1_col0 m c)) ((keep8_1_v0 m c).trans (h1_ones m c))
theorem h9_one (c : Dev nD) : (V9 m c main_cst_9 : S_.Idx → EReal) = oneK :=
  s8_one (V8 m c)
theorem h10_deg (c : Dev nD) : (V10 m c main_v36 : S100000.Idx → EReal) = clipK oneK (countK (rowOfK (edgeColK (eK m c) 0) 2) onesK) :=
  s9_deg (V9 m c) _ _ (h9_one m c) (h9_cnt m c)
theorem h11_cnt (c : Dev nD) : (V11 m c main_v39 : S100000.Idx → EReal) = countK (rowOfK (edgeColK (eK m c) 1) 2) onesK :=
  s10_cnt (V10 m c) _ _ ((keep10_9_v32 m c).trans (h9_dst m c)) ((keep10_1_v0 m c).trans (h1_ones m c))
theorem h11_one (c : Dev nD) : (V11 m c main_cst_11 : S_.Idx → EReal) = oneK :=
  s10_one (V10 m c)
theorem h12_deg (c : Dev nD) : (V12 m c main_v40 : S100000.Idx → EReal) = clipK oneK (countK (rowOfK (edgeColK (eK m c) 1) 2) onesK) :=
  s11_deg (V11 m c) _ _ (h11_one m c) (h11_cnt m c)
theorem h13_out (c : Dev nD) : (V13 m c main_v45 : S3x100000x1.Idx → EReal) = degStackK (eK m c) 0 :=
  (s12_out (V12 m c) _ _ _ ((keep12_2_v12 m c).trans (h2_deg m c)) ((keep12_6_v24 m c).trans (h6_deg m c)) ((keep12_10_v36 m c).trans (h10_deg m c))).trans rfl
theorem h13_in (c : Dev nD) : (V13 m c main_v50 : S3x100000x1.Idx → EReal) = degStackK (eK m c) 1 :=
  (s12_in (V12 m c) _ _ _ ((keep12_4_v16 m c).trans (h4_deg m c)) ((keep12_8_v28 m c).trans (h8_deg m c)) (h12_deg m c)).trans rfl
theorem h14_v51 (c : Dev nD) : (V14 m o c main_v51 : S3x100000x128.Idx → EReal) = o 14 main_v51 c :=
  Function.update_self _ _ _
theorem h15_agg (c : Dev nD) : (V15 m o c main_v103 : S3x100000x128.Idx → EReal) = aggStackK128 (eK m c) (o 14 main_v51 c) :=
  (s14_agg (V14 m o c) _ _ _ ((keep14_1_v2 m o c).trans (h1_col0 m c)) ((keep14_1_v4 m o c).trans (h1_col1 m c)) (h14_v51 m o c)).trans rfl
theorem h16_v104 (c : Dev nD) : V16 m o c main_v104 = o 16 main_v104 c :=
  Function.update_self _ _ _
theorem h17_col0 (c : Dev nD) : (V17 m o c main_v107 : S3x300000.Idx → Elt Ideal .i32) = edgeColK (eK m c) 0 :=
  s16_col0 (V16 m o c) _ ((keep16_0_arg5 m o c).trans (h0_arg5 m c))
theorem h17_col1 (c : Dev nD) : (V17 m o c main_v109 : S3x300000.Idx → Elt Ideal .i32) = edgeColK (eK m c) 1 :=
  s16_col1 (V16 m o c) _ ((keep16_0_arg5 m o c).trans (h0_arg5 m c))
theorem h17_ones (c : Dev nD) : (V17 m o c main_v105 : S300000.Idx → EReal) = onesK :=
  s16_ones (V16 m o c)
theorem h17_one (c : Dev nD) : (V17 m o c main_cst_22 : S_.Idx → EReal) = oneK :=
  s16_one (V16 m o c)
theorem h17_cnt (c : Dev nD) : (V17 m o c main_v116 : S100000.Idx → EReal) = countK (edgeRowK (eK m c) 0 0) onesK :=
  s16_cnt (V16 m o c) _ ((keep16_0_arg5 m o c).trans (h0_arg5 m c))
theorem h17_dst0 (c : Dev nD) : (V17 m o c main_v113 : S300000.Idx → Elt Ideal .i32) = edgeRowK (eK m c) 1 0 :=
  s16_dst0 (V16 m o c) _ ((keep16_0_arg5 m o c).trans (h0_arg5 m c))
theorem h18_deg (c : Dev nD) : (V18 m o c main_v117 : S100000.Idx → EReal) = clipK oneK (countK (edgeRowK (eK m c) 0 0) onesK) :=
  s17_deg (V17 m o c) _ _ (h17_one m o c) (h17_cnt m o c)
theorem h19_cnt (c : Dev nD) : (V19 m o c main_v120 : S100000.Idx → EReal) = countK (edgeRowK (eK m c) 1 0) onesK :=
  s18_cnt (V18 m o c) _ _ ((keep18_17_v113 m o c).trans (h17_dst0 m o c)) ((keep18_17_v105 m o c).trans (h17_ones m o c))
theorem h19_one (c : Dev nD) : (V19 m o c main_cst_24 : S_.Idx → EReal) = oneK :=
  s18_one (V18 m o c)
theorem h20_deg (c : Dev nD) : (V20 m o c main_v121 : S100000.Idx → EReal) = clipK oneK (countK (edgeRowK (eK m c) 1 0) onesK) :=
  s19_deg (V19 m o c) _ _ (h19_one m o c) (h19_cnt m o c)
theorem h21_dst (c : Dev nD) : (V21 m o c main_v125 : S300000.Idx → Elt Ideal .i32) = rowOfK (edgeColK (eK m c) 1) 1 :=
  s20_dst (V20 m o c) _ ((keep20_17_v109 m o c).trans (h17_col1 m o c))
theorem h21_cnt (c : Dev nD) : (V21 m o c main_v128 : S100000.Idx → EReal) = countK (rowOfK (edgeColK (eK m c) 0) 1) onesK :=
  s20_cnt (V20 m o c) _ _ ((keep20_17_v107 m o c).trans (h17_col0 m o c)) ((keep20_17_v105 m o c).trans (h17_ones m o c))
theorem h21_one (c : Dev nD) : (V21 m o c main_cst_26 : S_.Idx → EReal) = oneK :=
  s20_one (V20 m o c)
theorem h22_deg (c : Dev nD) : (V22 m o c main_v129 : S100000.Idx → EReal) = clipK oneK (countK (rowOfK (edgeColK (eK m c) 0) 1) onesK) :=
  s21_deg (V21 m o c) _ _ (h21_one m o c) (h21_cnt m o c)
theorem h23_cnt (c : Dev nD) : (V23 m o c main_v132 : S100000.Idx → EReal) = countK (rowOfK (edgeColK (eK m c) 1) 1) onesK :=
  s22_cnt (V22 m o c) _ _ ((keep22_21_v125 m o c).trans (h21_dst m o c)) ((keep22_17_v105 m o c).trans (h17_ones m o c))
theorem h23_one (c : Dev nD) : (V23 m o c main_cst_28 : S_.Idx → EReal) = oneK :=
  s22_one (V22 m o c)
theorem h24_deg (c : Dev nD) : (V24 m o c main_v133 : S100000.Idx → EReal) = clipK oneK (countK (rowOfK (edgeColK (eK m c) 1) 1) onesK) :=
  s23_deg (V23 m o c) _ _ (h23_one m o c) (h23_cnt m o c)
theorem h25_dst (c : Dev nD) : (V25 m o c main_v137 : S300000.Idx → Elt Ideal .i32) = rowOfK (edgeColK (eK m c) 1) 2 :=
  s24_dst (V24 m o c) _ ((keep24_17_v109 m o c).trans (h17_col1 m o c))
theorem h25_cnt (c : Dev nD) : (V25 m o c main_v140 : S100000.Idx → EReal) = countK (rowOfK (edgeColK (eK m c) 0) 2) onesK :=
  s24_cnt (V24 m o c) _ _ ((keep24_17_v107 m o c).trans (h17_col0 m o c)) ((keep24_17_v105 m o c).trans (h17_ones m o c))
theorem h25_one (c : Dev nD) : (V25 m o c main_cst_30 : S_.Idx → EReal) = oneK :=
  s24_one (V24 m o c)
theorem h26_deg (c : Dev nD) : (V26 m o c main_v141 : S100000.Idx → EReal) = clipK oneK (countK (rowOfK (edgeColK (eK m c) 0) 2) onesK) :=
  s25_deg (V25 m o c) _ _ (h25_one m o c) (h25_cnt m o c)
theorem h27_cnt (c : Dev nD) : (V27 m o c main_v144 : S100000.Idx → EReal) = countK (rowOfK (edgeColK (eK m c) 1) 2) onesK :=
  s26_cnt (V26 m o c) _ _ ((keep26_25_v137 m o c).trans (h25_dst m o c)) ((keep26_17_v105 m o c).trans (h17_ones m o c))
theorem h27_one (c : Dev nD) : (V27 m o c main_cst_32 : S_.Idx → EReal) = oneK :=
  s26_one (V26 m o c)
theorem h28_deg (c : Dev nD) : (V28 m o c main_v145 : S100000.Idx → EReal) = clipK oneK (countK (rowOfK (edgeColK (eK m c) 1) 2) onesK) :=
  s27_deg (V27 m o c) _ _ (h27_one m o c) (h27_cnt m o c)
theorem h29_out (c : Dev nD) : (V29 m o c main_v150 : S3x100000x1.Idx → EReal) = degStackK (eK m c) 0 :=
  (s28_out (V28 m o c) _ _ _ ((keep28_18_v117 m o c).trans (h18_deg m o c)) ((keep28_22_v129 m o c).trans (h22_deg m o c)) ((keep28_26_v141 m o c).trans (h26_deg m o c))).trans rfl
theorem h29_in (c : Dev nD) : (V29 m o c main_v155 : S3x100000x1.Idx → EReal) = degStackK (eK m c) 1 :=
  (s28_in (V28 m o c) _ _ _ ((keep28_20_v121 m o c).trans (h20_deg m o c)) ((keep28_24_v133 m o c).trans (h24_deg m o c)) (h28_deg m o c)).trans rfl
theorem h30_v156 (c : Dev nD) : (V30 m o c main_v156 : S3x100000x64.Idx → EReal) = o 30 main_v156 c :=
  Function.update_self _ _ _
theorem h31_agg (c : Dev nD) : (V31 m o c main_v208 : S3x100000x64.Idx → EReal) = aggStackK64 (eK m c) (o 30 main_v156 c) :=
  (s30_agg (V30 m o c) _ _ _ ((keep30_17_v107 m o c).trans (h17_col0 m o c)) ((keep30_17_v109 m o c).trans (h17_col1 m o c)) (h30_v156 m o c)).trans rfl

/-! ## What each region is entered with -/

/-- Region 0: the features and the first layer's weights as launched, and the stacked out-degrees. -/
theorem entry0 (c : Dev nD) :
    V13 m c main_arg0 = m ((c : Thread nD τ).loc main_arg0)
    ∧ (V13 m c main_v45 : S3x100000x1.Idx → EReal) = degStackK (eK m c) 0
    ∧ V13 m c main_arg1 = m ((c : Thread nD τ).loc main_arg1) :=
  ⟨(keep13_0_arg0 m c), h13_out m c, (keep13_0_arg1 m c)⟩

/-- Region 1: the stacked aggregations of what region 0 left, the stacked in-degrees, the first layer's biases as
    launched. -/
theorem entry1 (c : Dev nD) :
    (V15 m o c main_v103 : S3x100000x128.Idx → EReal) = aggStackK128 (eK m c) (o 14 main_v51 c)
    ∧ (V15 m o c main_v50 : S3x100000x1.Idx → EReal) = degStackK (eK m c) 1
    ∧ V15 m o c main_arg2 = m ((c : Thread nD τ).loc main_arg2) :=
  ⟨h15_agg m o c, (keep15_13_v50 m o c).trans (h13_in m c), (keep15_0_arg2 m o c)⟩

/-- Region 2: what region 1 left, the stacked out-degrees (computed afresh from the same edge list by the same
    operations, so the same term), the second layer's weights as launched. -/
theorem entry2 (c : Dev nD) :
    V29 m o c main_v104 = o 16 main_v104 c
    ∧ (V29 m o c main_v150 : S3x100000x1.Idx → EReal) = degStackK (eK m c) 0
    ∧ V29 m o c main_arg3 = m ((c : Thread nD τ).loc main_arg3) :=
  ⟨(keep29_16_v104 m o c).trans (h16_v104 m o c), h29_out m o c, (keep29_0_arg3 m o c)⟩

/-- Region 3: the stacked aggregations of what region 2 left, the stacked in-degrees, the second layer's biases as
    launched. -/
theorem entry3 (c : Dev nD) :
    (V31 m o c main_v208 : S3x100000x64.Idx → EReal) = aggStackK64 (eK m c) (o 30 main_v156 c)
    ∧ (V31 m o c main_v155 : S3x100000x1.Idx → EReal) = degStackK (eK m c) 1
    ∧ V31 m o c main_arg4 = m ((c : Thread nD τ).loc main_arg4) :=
  ⟨h31_agg m o c, (keep31_29_v155 m o c).trans (h29_in m o c), (keep31_0_arg4 m o c)⟩

end Cert.KernelIdeal.HandValue

end
-- ==== Proof.ValShared.lean ====
/-
  Two facts about whole-buffer and slab accesses that every region's value proof uses.

  A body that loads and stores whole staging buffers does so through the rectangle at zero offsets, however the
  zeros are spelt; and a load of the unit-thick slab at offset o along the first axis of a buffer reads the buffer
  at first coordinate o.
-/
import Idealize.ShloMosaic.Lib.Pipeline.Value
import Idealize.ShloMosaic.Lib.ValueIdx

noncomputable section

namespace Cert.KernelIdeal.HandValue

open Idealize.ShloMosaic Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- A load of the unit-thick slab at offset o along the first axis of a three-axis buffer reads the buffer at (o, p, q). -/
theorem ld_slab3 {Val : EltTy → Type} {e : EltTy} {n0 n1 n2 : Nat} (X : (⟨3, ![n0, n1, n2]⟩ : Shape).Idx → Val e) (o : Nat) (ho : o < n0)
    (inb : ∀ a, (![o, 0, 0] : Fin 3 → Nat) a + (![1, n1, n2] : Fin 3 → Nat) a ≤ (⟨3, ![n0, n1, n2]⟩ : Shape).size a)
    (u : Fin 1) (p : Fin n1) (q : Fin n2) :
    View.ld X (Rect.unit (s := ⟨3, ![n0, n1, n2]⟩) ![o, 0, 0] ![1, n1, n2] inb) (ix3 u p q) = X (ix3 ⟨o, ho⟩ p q) := by
  show X _ = X _
  refine congrArg X (funext fun a => Fin.ext ?_)
  have hu : u.val = 0 := by omega
  match a with
  | ⟨0, _⟩ => show o + 1 * u.val = o; omega
  | ⟨1, _⟩ => show 0 + 1 * p.val = p.val; omega
  | ⟨2, _⟩ => show 0 + 1 * q.val = q.val; omega

/-- A load of row o of a two-axis buffer reads the buffer at (o, q). -/
theorem ld_row2 {Val : EltTy → Type} {e : EltTy} {n0 n1 : Nat} (X : (⟨2, ![n0, n1]⟩ : Shape).Idx → Val e) (o : Nat) (ho : o < n0)
    (inb : ∀ a, (![o, 0] : Fin 2 → Nat) a + (![1, n1] : Fin 2 → Nat) a ≤ (⟨2, ![n0, n1]⟩ : Shape).size a)
    (u : Fin 1) (q : Fin n1) :
    View.ld X (Rect.unit (s := ⟨2, ![n0, n1]⟩) ![o, 0] ![1, n1] inb) (ix2 u q) = X (ix2 ⟨o, ho⟩ q) := by
  show X _ = X _
  refine congrArg X (funext fun a => Fin.ext ?_)
  have hu : u.val = 0 := by omega
  match a with
  | ⟨0, _⟩ => show o + 1 * u.val = o; omega
  | ⟨1, _⟩ => show 0 + 1 * q.val = q.val; omega

end Cert.KernelIdeal.HandValue

end
-- ==== Proof.ValScale1.lean ====
/-
  The first layer's scaled products, index by index, on the extended reals.

  Region 0 runs over 50 blocks of 2000 rows and, innermost, the 3 relations.  At a point it multiplies each of the
  block's feature rows by the reciprocal root of that row's out-degree under the relation and then by the relation's
  128×128 weights.  Entry (r, n, j) of the result therefore reads row n of the features, the degree (r, n) and
  column j of relation r's weights: the sum over k of (x(n, k) · rsqrt d(r, n, 0)) · w(r, k, j).  Proved here: the
  body's stored value at one index of a block, the block a point writes back as a block of that one function of the
  whole arrays, that the blocks cover the result array, and so the array after the region.
-/
import proofs.«142468_j3186865733925_1_alg».proof.Proof.IdealRegionData
import proofs.«142468_j3186865733925_1_alg».proof.Proof.LibRowOps
import proofs.«142468_j3186865733925_1_alg».proof.Proof.ValShared
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The stored value at one index of a block -/

/-- The block product contracts the rows' second axis with the weights' first. -/
theorem plain0 : Cert.RowOps.IsPlain dot_S2000x128_S128x128_S2000x128_1_0_0_1_n_n := ⟨rfl, rfl, rfl, rfl, rfl, rfl⟩

/-- Entry (p, q) of the block the body stores: row p of the feature block, scaled by the reciprocal root of the
    block's p-th degree, against column q of the weight block. -/
theorem pay0_apply (x0 : Vec Ideal S2000x128 .f32) (x1 : Vec Ideal S1x2000x1 .f32) (x2 : Vec Ideal S1x128x128 .f32)
    (u : Fin 1) (p : Fin 2000) (q : Fin 128) :
    k0_pay1 x0 x1 x2 (ix3 u p q)
      = ∑ k : Fin 128, (x0 (ix2 p k) * Ideal.rsqrt (x1 (ix3 (0 : Fin 1) p (0 : Fin 1)))) * x2 (ix3 (0 : Fin 1) k q) := by
  unfold k0_pay1
  rw [shapeCast_ab_1ab_apply]
  refine (Cert.RowOps.matmul_zero_apply plain0 none _ _ p q).trans (Finset.sum_congr rfl fun k _ => ?_)
  rw [truncf_apply, truncf_apply, mulf_apply, Cert.RowOps.spread_apply, shapeCast_1ab_ab_apply]
  show x0 (ix2 p k) * Ideal.rsqrt (shapeCast S2000x1 x1 shapeCasts_S1x2000x1_S2000x1 (ix2 p (0 : Fin 1))) * _ = _
  rw [shapeCast_1ab_ab_apply]

/-- The scaled product of whole arrays: features [100000, 128], out-degrees [3, 100000, 1], weights [3, 128, 128]. -/
def scaled1 (a : S100000x128.Idx → EReal) (d : S3x100000x1.Idx → EReal) (w : S3x128x128.Idx → EReal) :
    S3x100000x128.Idx → EReal :=
  fun i => ∑ k : Fin 128, (a (ix2 (n0 := 100000) (i 1) k) * Ideal.rsqrt (d (ix3 (n0 := 3) (n1 := 100000) (i 0) (i 1) (0 : Fin 1))))
    * w (ix3 (n0 := 3) (n2 := 128) (i 0) k (i 2))

theorem scaled1_apply (a : S100000x128.Idx → EReal) (d : S3x100000x1.Idx → EReal) (w : S3x128x128.Idx → EReal)
    (r : Fin 3) (n : Fin 100000) (j : Fin 128) :
    scaled1 a d w (ix3 r n j) = ∑ k : Fin 128, (a (ix2 n k) * Ideal.rsqrt (d (ix3 r n (0 : Fin 1)))) * w (ix3 r k j) := rfl

/-- A block's stored value at y is the whole-array product at i, when row (y 1) of the feature block is row (i 1) of
    the features, the block's degree (y 1) is the degree (i 0, i 1), and the weight block is relation (i 0)'s. -/
theorem pay0_eq_scaled1 (x0 : Vec Ideal S2000x128 .f32) (x1 : Vec Ideal S1x2000x1 .f32) (x2 : Vec Ideal S1x128x128 .f32)
    (a : S100000x128.Idx → EReal) (d : S3x100000x1.Idx → EReal) (w : S3x128x128.Idx → EReal)
    (y : S1x2000x128.Idx) (i : S3x100000x128.Idx)
    (h0 : ∀ k : Fin 128, x0 (ix2 (n0 := 2000) (y 1) k) = a (ix2 (n0 := 100000) (i 1) k))
    (h1 : x1 (ix3 (0 : Fin 1) (y 1 : Fin 2000) (0 : Fin 1)) = d (ix3 (n0 := 3) (n1 := 100000) (i 0) (i 1) (0 : Fin 1)))
    (h2 : ∀ k : Fin 128, x2 (ix3 (n2 := 128) (0 : Fin 1) k (y 2)) = w (ix3 (n0 := 3) (n2 := 128) (i 0) k (i 2))) :
    k0_pay1 x0 x1 x2 y = scaled1 a d w i := by
  obtain ⟨u, p, q, rfl⟩ : ∃ (u : Fin 1) (p : Fin 2000) (q : Fin 128), y = ix3 u p q := ⟨y 0, y 1, y 2, eq_ix3 y⟩
  rw [pay0_apply]
  exact Finset.sum_congr rfl fun k _ => by rw [h0 k, h1, h2 k]

/-! ## From blocks to the array -/

/-- Point t works on row block t / 3 under relation t % 3: the block indices of the four windows. -/
theorem index0 : ∀ t : Fin cfg0.N,
    win0_0.index t (0 : Fin 2) = t.val / 3 ∧ win0_0.index t (1 : Fin 2) = 0
    ∧ win0_1.index t (0 : Fin 3) = t.val % 3 ∧ win0_1.index t (1 : Fin 3) = t.val / 3 ∧ win0_1.index t (2 : Fin 3) = 0
    ∧ win0_2.index t (0 : Fin 3) = t.val % 3 ∧ win0_2.index t (1 : Fin 3) = 0 ∧ win0_2.index t (2 : Fin 3) = 0
    ∧ win0_3.index t (0 : Fin 3) = t.val % 3 ∧ win0_3.index t (1 : Fin 3) = t.val / 3 ∧ win0_3.index t (2 : Fin 3) = 0 :=
  (by decide +kernel : ∀ t : Fin grid0.N, _)

/-- What point t writes back is block t of the scaled product of the arrays the region is entered with. -/
theorem flushed0_eq (c : Dev nD) (t : Fin cfg0.N) :
    (dat0 (F := Ideal) V c).flushed 3 t
      = ((cfg0.win 3).blk t).view.read (Elt Ideal) (scaled1 (V c main_arg0) (V c main_v45) (V c main_arg1)) := by
  show (cfg0.win 3).cut (grid0.coords t) ((dat0 (F := Ideal) V c).after 3 t) = _
  rw [after0_3]
  unfold out0_3
  rw [View.canon_unit_zero zero3]
  simp only [View.ld_unit_zero (S := S2000x128) zero2, View.ld_unit_zero (S := S1x2000x1) zero3,
    View.ld_unit_zero (S := S1x128x128) zero3]
  obtain ⟨e00, e01, e10, e11, e12, e20, e21, e22, e30, e31, e32⟩ := index0 t
  funext y
  show k0_pay1 (iblk0 V c 0 t) (iblk0 V c 1 t) (iblk0 V c 2 t) y
    = scaled1 (V c main_arg0) (V c main_v45) (V c main_arg1) (((cfg0.win 3).blk t).view.emb y)
  refine pay0_eq_scaled1 (iblk0 V c 0 t) (iblk0 V c 1 t) (iblk0 V c 2 t) (V c main_arg0) (V c main_v45) (V c main_arg1)
    y (((cfg0.win 3).blk t).view.emb y) (fun k => ?_) ?_ (fun k => ?_)
  · show V c main_arg0 (((cfg0.win 0).blk t).view.emb (ix2 (n0 := 2000) (y 1) k))
      = V c main_arg0 (ix2 (n0 := 100000) ((((cfg0.win 3).blk t).view.emb y) 1) k)
    refine congrArg (V c main_arg0) (funext fun a => Fin.ext ?_)
    match a with
    | ⟨0, _⟩ =>
      show win0_0.index t (0 : Fin 2) * 2000 + 1 * (y 1).val = win0_3.index t (1 : Fin 3) * 2000 + 1 * (y 1).val
      rw [e00, e31]
    | ⟨1, _⟩ =>
      show win0_0.index t (1 : Fin 2) * 128 + 1 * k.val = k.val
      rw [e01]; omega
  · show V c main_v45 (((cfg0.win 1).blk t).view.emb (ix3 (0 : Fin 1) (y 1 : Fin 2000) (0 : Fin 1)))
      = V c main_v45 (ix3 (n0 := 3) (n1 := 100000) ((((cfg0.win 3).blk t).view.emb y) 0) ((((cfg0.win 3).blk t).view.emb y) 1) (0 : Fin 1))
    refine congrArg (V c main_v45) (funext fun a => Fin.ext ?_)
    have hy0 : (y 0).val < 1 := (y 0).isLt
    match a with
    | ⟨0, _⟩ =>
      show win0_1.index t (0 : Fin 3) * 1 + 1 * 0 = win0_3.index t (0 : Fin 3) * 1 + 1 * (y 0).val
      rw [e10, e30]; omega
    | ⟨1, _⟩ =>
      show win0_1.index t (1 : Fin 3) * 2000 + 1 * (y 1).val = win0_3.index t (1 : Fin 3) * 2000 + 1 * (y 1).val
      rw [e11, e31]
    | ⟨2, _⟩ =>
      show win0_1.index t (2 : Fin 3) * 1 + 1 * 0 = 0
      rw [e12]
  · show V c main_arg1 (((cfg0.win 2).blk t).view.emb (ix3 (n2 := 128) (0 : Fin 1) k (y 2)))
      = V c main_arg1 (ix3 (n0 := 3) (n2 := 128) ((((cfg0.win 3).blk t).view.emb y) 0) k ((((cfg0.win 3).blk t).view.emb y) 2))
    refine congrArg (V c main_arg1) (funext fun a => Fin.ext ?_)
    have hy0 : (y 0).val < 1 := (y 0).isLt
    match a with
    | ⟨0, _⟩ =>
      show win0_2.index t (0 : Fin 3) * 1 + 1 * 0 = win0_3.index t (0 : Fin 3) * 1 + 1 * (y 0).val
      rw [e20, e30]; omega
    | ⟨1, _⟩ =>
      show win0_2.index t (1 : Fin 3) * 128 + 1 * k.val = k.val
      rw [e21]; omega
    | ⟨2, _⟩ =>
      show win0_2.index t (2 : Fin 3) * 128 + 1 * (y 2).val = win0_3.index t (2 : Fin 3) * 128 + 1 * (y 2).val
      rw [e22, e32]

/-- An index of the result array lies in point t's block iff each coordinate lies in the block's range. -/
theorem mem_blk0 (t : Fin cfg0.N) (i : S3x100000x128.Idx) :
    i ∈ ((cfg0.win 3).blk t).view.set
      ↔ ∀ a : Fin 3, win0_3.index t a * S1x2000x128.size a ≤ (i a).val
          ∧ (i a).val < win0_3.index t a * S1x2000x128.size a + S1x2000x128.size a := by
  show i ∈ ((View.whole main_v51).slice (win0_3.rect t)).set ↔ _
  rw [View.set_slice_whole, Rect.mem_set_unit]
  exact Iff.rfl

/-- Every index (r, n, j) of the result array is in the block of the point with row block n / 2000 and relation r. -/
theorem cover0 (i : S3x100000x128.Idx) :
    ∃ t : Fin cfg0.N, (cfg0.win 3).flush t = true ∧ i ∈ ((cfg0.win 3).blk t).view.set := by
  have h0 : (i 0).val < 3 := (i 0).isLt
  have h1 : (i 1).val < 100000 := (i 1).isLt
  have h2 : (i 2).val < 128 := (i 2).isLt
  have hN : cfg0.N = 150 := N_0
  let t : Fin cfg0.N := ⟨(i 1).val / 2000 * 3 + (i 0).val, by rw [hN]; omega⟩
  have ht : t.val = (i 1).val / 2000 * 3 + (i 0).val := rfl
  obtain ⟨_, _, _, _, _, _, _, _, e30, e31, e32⟩ := index0 t
  refine ⟨t, flush0_3 t, ?_⟩
  rw [mem_blk0]
  intro a
  match a with
  | ⟨0, _⟩ =>
    show win0_3.index t (0 : Fin 3) * 1 ≤ (i 0).val ∧ (i 0).val < win0_3.index t (0 : Fin 3) * 1 + 1
    rw [e30, ht]; omega
  | ⟨1, _⟩ =>
    show win0_3.index t (1 : Fin 3) * 2000 ≤ (i 1).val ∧ (i 1).val < win0_3.index t (1 : Fin 3) * 2000 + 2000
    rw [e31, ht]; omega
  | ⟨2, _⟩ =>
    show win0_3.index t (2 : Fin 3) * 128 ≤ (i 2).val ∧ (i 2).val < win0_3.index t (2 : Fin 3) * 128 + 128
    rw [e32]; omega

/-- The result array after region 0 is the scaled product of the arrays the region is entered with. -/
theorem final0 (c : Dev nD) :
    (dat0 (F := Ideal) V c).arrAt 3 cfg0.N = scaled1 (V c main_arg0) (V c main_v45) (V c main_arg1) :=
  (dat0 (F := Ideal) V c).arrAt_eq_of_cover 3 (scaled1 (V c main_arg0) (V c main_v45) (V c main_arg1))
    (fun t _ => flushed0_eq V c t) cover0

/-- Entry (r, n, j) of the result array after region 0, the three arrays named at their literal shapes. -/
theorem final0_apply (c : Dev nD) (a : S100000x128.Idx → EReal) (d : S3x100000x1.Idx → EReal) (w : S3x128x128.Idx → EReal)
    (ha : V c main_arg0 = a) (hd : V c main_v45 = d) (hw : V c main_arg1 = w)
    (r : Fin 3) (n : Fin 100000) (j : Fin 128) :
    (dat0 (F := Ideal) V c).arrAt 3 cfg0.N (ix3 r n j)
      = ∑ k : Fin 128, (a (ix2 n k) * Ideal.rsqrt (d (ix3 r n (0 : Fin 1)))) * w (ix3 r k j) := by
  subst ha hd hw
  exact congrFun (final0 V c) (ix3 r n j)

end Cert.KernelIdeal.HandValue

end
-- ==== Proof.ValCombine1.lean ====
/-
  The first layer's output, index by index, on the extended reals.

  Region 1 runs over 50 blocks of 2000 rows.  At a point it takes, for each of the three relations in turn, the
  relation's aggregate rows, scales each row by the reciprocal root of its in-degree under the relation, adds the
  relation's bias row, and accumulates from zero; the total is clipped below at zero.  Entry (n, j) of the result
  therefore reads entry (r, n, j) of the aggregates, the degree (r, n) and the bias (r, j) for r = 0, 1, 2, combined
  in exactly that order.  Proved here: the body's stored value at one index of a block, the block a point writes back
  as a block of that one function of the whole arrays, that the blocks cover the result array, and so the array after
  the region.
-/
import proofs.«142468_j3186865733925_1_alg».proof.Proof.IdealRegionData
import proofs.«142468_j3186865733925_1_alg».proof.Proof.LibRowOps
import proofs.«142468_j3186865733925_1_alg».proof.Proof.ValShared
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The body's two layout patterns at an index -/

/-- One relation's aggregate times the reciprocal root of its in-degree, at (p, q). -/
theorem scaledTerm1_apply (a : Vec Ideal S1x2000x128 .f32) (d : Vec Ideal S1x2000x1 .f32) (p : Fin 2000) (q : Fin 128) :
    (mulf (shapeCast S2000x128 a shapeCasts_S1x2000x128_S2000x128)
        (broadcastTo S2000x128 (rsqrt (shapeCast S2000x1 d shapeCasts_S1x2000x1_S2000x1)) broadcasts_S2000x1_S2000x128) : FVec Ideal S2000x128 .f32) (ix2 p q)
      = a (ix3 (0 : Fin 1) p q) * Ideal.rsqrt (d (ix3 (0 : Fin 1) p (0 : Fin 1))) := by
  rw [mulf_apply, Cert.RowOps.spread_apply, shapeCast_1ab_ab_apply]
  show _ * Ideal.rsqrt (shapeCast S2000x1 d shapeCasts_S1x2000x1_S2000x1 (ix2 p (0 : Fin 1))) = _
  rw [shapeCast_1ab_ab_apply]

/-- One relation's bias row repeated over the rows, at (p, q). -/
theorem biasTerm1_apply (b : Vec Ideal S1x128 .f32) (p : Fin 2000) (q : Fin 128) :
    broadcastTo S2000x128 (shapeCast S1x128 (shapeCast S128 b shapeCasts_S1x128_S128) shapeCasts_S128_S1x128)
        broadcasts_S1x128_S2000x128 (ix2 p q)
      = b (ix2 (0 : Fin 1) q) := by
  rw [broadcastTo_1b_ab_apply, shapeCast_shapeCast]

/-! ## The stored value at one index of a block -/

/-- Entry (p, q) of the block the body stores, over the nine loaded slabs: from zero, each relation's scaled aggregate
    and then its bias added in turn, the total clipped below at zero. -/
theorem pay1_apply (d0 : Vec Ideal S1x2000x1 .f32) (a0 : Vec Ideal S1x2000x128 .f32) (b0 : Vec Ideal S1x128 .f32)
    (d1 : Vec Ideal S1x2000x1 .f32) (a1 : Vec Ideal S1x2000x128 .f32) (b1 : Vec Ideal S1x128 .f32)
    (d2 : Vec Ideal S1x2000x1 .f32) (a2 : Vec Ideal S1x2000x128 .f32) (b2 : Vec Ideal S1x128 .f32)
    (p : Fin 2000) (q : Fin 128) :
    k1_pay1 (k1_pay2 d0 a0 b0 d1 a1 b1 d2 a2) b2 (ix2 p q)
      = max ((((((Ideal.ofBits .f32 0x00000000#32
            + a0 (ix3 (0 : Fin 1) p q) * Ideal.rsqrt (d0 (ix3 (0 : Fin 1) p (0 : Fin 1)))) + b0 (ix2 (0 : Fin 1) q))
            + a1 (ix3 (0 : Fin 1) p q) * Ideal.rsqrt (d1 (ix3 (0 : Fin 1) p (0 : Fin 1)))) + b1 (ix2 (0 : Fin 1) q))
            + a2 (ix3 (0 : Fin 1) p q) * Ideal.rsqrt (d2 (ix3 (0 : Fin 1) p (0 : Fin 1)))) + b2 (ix2 (0 : Fin 1) q))
          (Ideal.ofBits .f32 0x00000000#32) := by
  unfold k1_pay1 k1_pay2
  rw [maximumf_apply, addf_apply, addf_apply, addf_apply, addf_apply, addf_apply, addf_apply,
    scaledTerm1_apply, scaledTerm1_apply, scaledTerm1_apply, biasTerm1_apply, biasTerm1_apply, biasTerm1_apply]
  rfl

/-- The same over the three whole input blocks: relation r's slab is the block at first coordinate r. -/
theorem out1_apply (x0 : Vec Ideal S3x2000x128 .f32) (x1 : Vec Ideal S3x2000x1 .f32) (x2 : Vec Ideal S3x128 .f32)
    (p : Fin 2000) (q : Fin 128) :
    out1_3 x0 x1 x2 (ix2 p q)
      = max ((((((Ideal.ofBits .f32 0x00000000#32
            + x0 (ix3 (0 : Fin 3) p q) * Ideal.rsqrt (x1 (ix3 (0 : Fin 3) p (0 : Fin 1)))) + x2 (ix2 (0 : Fin 3) q))
            + x0 (ix3 (1 : Fin 3) p q) * Ideal.rsqrt (x1 (ix3 (1 : Fin 3) p (0 : Fin 1)))) + x2 (ix2 (1 : Fin 3) q))
            + x0 (ix3 (2 : Fin 3) p q) * Ideal.rsqrt (x1 (ix3 (2 : Fin 3) p (0 : Fin 1)))) + x2 (ix2 (2 : Fin 3) q))
          (Ideal.ofBits .f32 0x00000000#32) := by
  unfold out1_3
  rw [View.canon_unit_zero zero2, pay1_apply]
  rw [ld_slab3 x0 0 (by decide), ld_slab3 x0 1 (by decide), ld_slab3 x0 2 (by decide),
    ld_slab3 x1 0 (by decide), ld_slab3 x1 1 (by decide), ld_slab3 x1 2 (by decide),
    ld_row2 x2 0 (by decide), ld_row2 x2 1 (by decide), ld_row2 x2 2 (by decide)]
  rfl

/-- The combination of whole arrays: aggregates [3, 100000, 128], in-degrees [3, 100000, 1], biases [3, 128]. -/
def combined1 (a : S3x100000x128.Idx → EReal) (d : S3x100000x1.Idx → EReal) (b : S3x128.Idx → EReal) :
    S100000x128.Idx → EReal :=
  fun i => max ((((((Ideal.ofBits .f32 0x00000000#32
      + a (ix3 (n1 := 100000) (n2 := 128) (0 : Fin 3) (i 0) (i 1)) * Ideal.rsqrt (d (ix3 (n1 := 100000) (0 : Fin 3) (i 0) (0 : Fin 1))))
        + b (ix2 (n1 := 128) (0 : Fin 3) (i 1)))
      + a (ix3 (n1 := 100000) (n2 := 128) (1 : Fin 3) (i 0) (i 1)) * Ideal.rsqrt (d (ix3 (n1 := 100000) (1 : Fin 3) (i 0) (0 : Fin 1))))
        + b (ix2 (n1 := 128) (1 : Fin 3) (i 1)))
      + a (ix3 (n1 := 100000) (n2 := 128) (2 : Fin 3) (i 0) (i 1)) * Ideal.rsqrt (d (ix3 (n1 := 100000) (2 : Fin 3) (i 0) (0 : Fin 1))))
        + b (ix2 (n1 := 128) (2 : Fin 3) (i 1)))
    (Ideal.ofBits .f32 0x00000000#32)

theorem combined1_apply (a : S3x100000x128.Idx → EReal) (d : S3x100000x1.Idx → EReal) (b : S3x128.Idx → EReal)
    (n : Fin 100000) (j : Fin 128) :
    combined1 a d b (ix2 n j)
      = max ((((((Ideal.ofBits .f32 0x00000000#32
            + a (ix3 (0 : Fin 3) n j) * Ideal.rsqrt (d (ix3 (0 : Fin 3) n (0 : Fin 1)))) + b (ix2 (0 : Fin 3) j))
            + a (ix3 (1 : Fin 3) n j) * Ideal.rsqrt (d (ix3 (1 : Fin 3) n (0 : Fin 1)))) + b (ix2 (1 : Fin 3) j))
            + a (ix3 (2 : Fin 3) n j) * Ideal.rsqrt (d (ix3 (2 : Fin 3) n (0 : Fin 1)))) + b (ix2 (2 : Fin 3) j))
          (Ideal.ofBits .f32 0x00000000#32) := rfl

/-- A block's stored value at y is the whole-array combination at i, when under every relation the block's row (y 0)
    is row (i 0) of the aggregates and of the degrees, and the bias block is the bias array. -/
theorem out1_eq_combined1 (x0 : Vec Ideal S3x2000x128 .f32) (x1 : Vec Ideal S3x2000x1 .f32) (x2 : Vec Ideal S3x128 .f32)
    (a : S3x100000x128.Idx → EReal) (d : S3x100000x1.Idx → EReal) (b : S3x128.Idx → EReal)
    (y : S2000x128.Idx) (i : S100000x128.Idx)
    (h0 : ∀ r : Fin 3, x0 (ix3 (n1 := 2000) (n2 := 128) r (y 0) (y 1)) = a (ix3 (n1 := 100000) (n2 := 128) r (i 0) (i 1)))
    (h1 : ∀ r : Fin 3, x1 (ix3 (n1 := 2000) r (y 0) (0 : Fin 1)) = d (ix3 (n1 := 100000) r (i 0) (0 : Fin 1)))
    (h2 : ∀ r : Fin 3, x2 (ix2 (n1 := 128) r (y 1)) = b (ix2 (n1 := 128) r (i 1))) :
    out1_3 x0 x1 x2 y = combined1 a d b i := by
  obtain ⟨p, q, rfl⟩ : ∃ (p : Fin 2000) (q : Fin 128), y = ix2 p q := ⟨y 0, y 1, eq_ix2 y⟩
  rw [out1_apply]
  have e0 := h0 0; have e1 := h0 1; have e2 := h0 2
  have f0 := h1 0; have f1 := h1 1; have f2 := h1 2
  have g0 := h2 0; have g1 := h2 1; have g2 := h2 2
  show max ((((((_ + x0 (ix3 (0 : Fin 3) p q) * Ideal.rsqrt (x1 (ix3 (0 : Fin 3) p (0 : Fin 1)))) + x2 (ix2 (0 : Fin 3) q))
            + x0 (ix3 (1 : Fin 3) p q) * Ideal.rsqrt (x1 (ix3 (1 : Fin 3) p (0 : Fin 1)))) + x2 (ix2 (1 : Fin 3) q))
            + x0 (ix3 (2 : Fin 3) p q) * Ideal.rsqrt (x1 (ix3 (2 : Fin 3) p (0 : Fin 1)))) + x2 (ix2 (2 : Fin 3) q)) _ = _
  rw [e0, e1, e2, f0, f1, f2, g0, g1, g2]
  rfl

/-! ## From blocks to the array -/

/-- Point t works on row block t: the block indices of the four windows. -/
theorem index1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the combination of the arrays the region is entered with. -/
theorem flushed1_eq (c : Dev nD) (t : Fin cfg1.N) :
    (dat1 (F := Ideal) V c).flushed 3 t
      = ((cfg1.win 3).blk t).view.read (Elt Ideal) (combined1 (V c main_v103) (V c main_v50) (V c main_arg2)) := by
  show (cfg1.win 3).cut (grid1.coords t) ((dat1 (F := Ideal) V c).after 3 t) = _
  rw [after1_3]
  obtain ⟨e00, e01, e02, e10, e11, e12, e20, e21, e30, e31⟩ := index1 t
  funext y
  show out1_3 (iblk1 V c 0 t) (iblk1 V c 1 t) (iblk1 V c 2 t) y
    = combined1 (V c main_v103) (V c main_v50) (V c main_arg2) (((cfg1.win 3).blk t).view.emb y)
  refine out1_eq_combined1 (iblk1 V c 0 t) (iblk1 V c 1 t) (iblk1 V c 2 t) (V c main_v103) (V c main_v50) (V c main_arg2)
    y (((cfg1.win 3).blk t).view.emb y) (fun r => ?_) (fun r => ?_) (fun r => ?_)
  · show V c main_v103 (((cfg1.win 0).blk t).view.emb (ix3 (n1 := 2000) (n2 := 128) r (y 0) (y 1)))
      = V c main_v103 (ix3 (n1 := 100000) (n2 := 128) r ((((cfg1.win 3).blk t).view.emb y) 0) ((((cfg1.win 3).blk t).view.emb y) 1))
    refine congrArg (V c main_v103) (funext fun a => Fin.ext ?_)
    match a with
    | ⟨0, _⟩ =>
      show win1_0.index t (0 : Fin 3) * 3 + 1 * r.val = r.val
      rw [e00]; omega
    | ⟨1, _⟩ =>
      show win1_0.index t (1 : Fin 3) * 2000 + 1 * (y 0).val = win1_3.index t (0 : Fin 2) * 2000 + 1 * (y 0).val
      rw [e01, e30]
    | ⟨2, _⟩ =>
      show win1_0.index t (2 : Fin 3) * 128 + 1 * (y 1).val = win1_3.index t (1 : Fin 2) * 128 + 1 * (y 1).val
      rw [e02, e31]
  · show V c main_v50 (((cfg1.win 1).blk t).view.emb (ix3 (n1 := 2000) r (y 0) (0 : Fin 1)))
      = V c main_v50 (ix3 (n1 := 100000) r ((((cfg1.win 3).blk t).view.emb y) 0) (0 : Fin 1))
    refine congrArg (V c main_v50) (funext fun a => Fin.ext ?_)
    match a with
    | ⟨0, _⟩ =>
      show win1_1.index t (0 : Fin 3) * 3 + 1 * r.val = r.val
      rw [e10]; omega
    | ⟨1, _⟩ =>
      show win1_1.index t (1 : Fin 3) * 2000 + 1 * (y 0).val = win1_3.index t (0 : Fin 2) * 2000 + 1 * (y 0).val
      rw [e11, e30]
    | ⟨2, _⟩ =>
      show win1_1.index t (2 : Fin 3) * 1 + 1 * 0 = 0
      rw [e12]
  · show V c main_arg2 (((cfg1.win 2).blk t).view.emb (ix2 (n1 := 128) r (y 1)))
      = V c main_arg2 (ix2 (n1 := 128) r ((((cfg1.win 3).blk t).view.emb y) 1))
    refine congrArg (V c main_arg2) (funext fun a => Fin.ext ?_)
    match a with
    | ⟨0, _⟩ =>
      show win1_2.index t (0 : Fin 2) * 3 + 1 * r.val = r.val
      rw [e20]; omega
    | ⟨1, _⟩ =>
      show win1_2.index t (1 : Fin 2) * 128 + 1 * (y 1).val = win1_3.index t (1 : Fin 2) * 128 + 1 * (y 1).val
      rw [e21, e31]

/-- An index of the result array lies in point t's block iff each coordinate lies in the block's range. -/
theorem mem_blk1 (t : Fin cfg1.N) (i : S100000x128.Idx) :
    i ∈ ((cfg1.win 3).blk t).view.set
      ↔ ∀ a : Fin 2, win1_3.index t a * S2000x128.size a ≤ (i a).val
          ∧ (i a).val < win1_3.index t a * S2000x128.size a + S2000x128.size a := by
  show i ∈ ((View.whole main_v104).slice (win1_3.rect t)).set ↔ _
  rw [View.set_slice_whole, Rect.mem_set_unit]
  exact Iff.rfl

/-- Every index (n, j) of the result array is in the block of the point n / 2000. -/
theorem cover1 (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 50 := N_1
  let t : Fin cfg1.N := ⟨(i 0).val / 2000, by rw [hN]; omega⟩
  have ht : t.val = (i 0).val / 2000 := rfl
  obtain ⟨_, _, _, _, _, _, _, _, e30, e31⟩ := index1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e30, ht]; omega
  | ⟨1, _⟩ =>
    show win1_3.index t (1 : Fin 2) * 128 ≤ (i 1).val ∧ (i 1).val < win1_3.index t (1 : Fin 2) * 128 + 128
    rw [e31]; omega

/-- The result array after region 1 is the combination of the arrays the region is entered with. -/
theorem final1 (c : Dev nD) :
    (dat1 (F := Ideal) V c).arrAt 3 cfg1.N = combined1 (V c main_v103) (V c main_v50) (V c main_arg2) :=
  (dat1 (F := Ideal) V c).arrAt_eq_of_cover 3 (combined1 (V c main_v103) (V c main_v50) (V c main_arg2))
    (fun t _ => flushed1_eq V c t) cover1

/-- Entry (n, j) of the result array after region 1, the three arrays named at their literal shapes. -/
theorem final1_apply (c : Dev nD) (a : S3x100000x128.Idx → EReal) (d : S3x100000x1.Idx → EReal) (b : S3x128.Idx → EReal)
    (ha : V c main_v103 = a) (hd : V c main_v50 = d) (hb : V c main_arg2 = b)
    (n : Fin 100000) (j : Fin 128) :
    (dat1 (F := Ideal) V c).arrAt 3 cfg1.N (ix2 n j)
      = max ((((((Ideal.ofBits .f32 0x00000000#32
            + a (ix3 (0 : Fin 3) n j) * Ideal.rsqrt (d (ix3 (0 : Fin 3) n (0 : Fin 1)))) + b (ix2 (0 : Fin 3) j))
            + a (ix3 (1 : Fin 3) n j) * Ideal.rsqrt (d (ix3 (1 : Fin 3) n (0 : Fin 1)))) + b (ix2 (1 : Fin 3) j))
            + a (ix3 (2 : Fin 3) n j) * Ideal.rsqrt (d (ix3 (2 : Fin 3) n (0 : Fin 1)))) + b (ix2 (2 : Fin 3) j))
          (Ideal.ofBits .f32 0x00000000#32) := by
  subst ha hd hb
  exact congrFun (final1 V c) (ix2 n j)

end Cert.KernelIdeal.HandValue

end
-- ==== Proof.ValScale2.lean ====
/-
  The second layer's scaled products, index by index, on the extended reals.

  Region 2 runs over 50 blocks of 2000 rows and, innermost, the 3 relations.  At a point it multiplies each of the
  block's rows of the first layer's output by the reciprocal root of that row's out-degree under the relation and
  then by the relation's 128×64 weights.  Entry (r, n, j) of the result therefore reads row n of the first layer's
  output, the degree (r, n) and column j of relation r's weights: the sum over k of
  (h(n, k) · rsqrt d(r, n, 0)) · w(r, k, j).  Proved here: the body's stored value at one index of a block, the
  block a point writes back as a block of that one function of the whole arrays, that the blocks cover the result
  array, and so the array after the region.
-/
import proofs.«142468_j3186865733925_1_alg».proof.Proof.IdealRegionData
import proofs.«142468_j3186865733925_1_alg».proof.Proof.LibRowOps
import proofs.«142468_j3186865733925_1_alg».proof.Proof.ValShared
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The stored value at one index of a block -/

/-- The block product contracts the rows' second axis with the weights' first. -/
theorem plain2 : Cert.RowOps.IsPlain dot_S2000x128_S128x64_S2000x64_1_0_0_1_n_n := ⟨rfl, rfl, rfl, rfl, rfl, rfl⟩

/-- Entry (p, q) of the block the body stores: row p of the feature block, scaled by the reciprocal root of the
    block's p-th degree, against column q of the weight block. -/
theorem pay2_apply (x0 : Vec Ideal S2000x128 .f32) (x1 : Vec Ideal S1x2000x1 .f32) (x2 : Vec Ideal S1x128x64 .f32)
    (u : Fin 1) (p : Fin 2000) (q : Fin 64) :
    k2_pay1 x0 x1 x2 (ix3 u p q)
      = ∑ k : Fin 128, (x0 (ix2 p k) * Ideal.rsqrt (x1 (ix3 (0 : Fin 1) p (0 : Fin 1)))) * x2 (ix3 (0 : Fin 1) k q) := by
  unfold k2_pay1
  rw [shapeCast_ab_1ab_apply]
  refine (Cert.RowOps.matmul_zero_apply plain2 none _ _ p q).trans (Finset.sum_congr rfl fun k _ => ?_)
  rw [truncf_apply, truncf_apply, mulf_apply, Cert.RowOps.spread_apply, shapeCast_1ab_ab_apply, shapeCast_self]
  show x0 (ix2 p k) * Ideal.rsqrt (shapeCast S2000x1 x1 shapeCasts_S1x2000x1_S2000x1 (ix2 p (0 : Fin 1))) * _ = _
  rw [shapeCast_1ab_ab_apply]

/-- The scaled product of whole arrays: features [100000, 128], out-degrees [3, 100000, 1], weights [3, 128, 64]. -/
def scaled2 (a : S100000x128.Idx → EReal) (d : S3x100000x1.Idx → EReal) (w : S3x128x64.Idx → EReal) :
    S3x100000x64.Idx → EReal :=
  fun i => ∑ k : Fin 128, (a (ix2 (n0 := 100000) (i 1) k) * Ideal.rsqrt (d (ix3 (n0 := 3) (n1 := 100000) (i 0) (i 1) (0 : Fin 1))))
    * w (ix3 (n0 := 3) (n2 := 64) (i 0) k (i 2))

theorem scaled2_apply (a : S100000x128.Idx → EReal) (d : S3x100000x1.Idx → EReal) (w : S3x128x64.Idx → EReal)
    (r : Fin 3) (n : Fin 100000) (j : Fin 64) :
    scaled2 a d w (ix3 r n j) = ∑ k : Fin 128, (a (ix2 n k) * Ideal.rsqrt (d (ix3 r n (0 : Fin 1)))) * w (ix3 r k j) := rfl

/-- A block's stored value at y is the whole-array product at i, when row (y 1) of the feature block is row (i 1) of
    the features, the block's degree (y 1) is the degree (i 0, i 1), and the weight block is relation (i 0)'s. -/
theorem pay2_eq_scaled2 (x0 : Vec Ideal S2000x128 .f32) (x1 : Vec Ideal S1x2000x1 .f32) (x2 : Vec Ideal S1x128x64 .f32)
    (a : S100000x128.Idx → EReal) (d : S3x100000x1.Idx → EReal) (w : S3x128x64.Idx → EReal)
    (y : S1x2000x64.Idx) (i : S3x100000x64.Idx)
    (h0 : ∀ k : Fin 128, x0 (ix2 (n0 := 2000) (y 1) k) = a (ix2 (n0 := 100000) (i 1) k))
    (h1 : x1 (ix3 (0 : Fin 1) (y 1 : Fin 2000) (0 : Fin 1)) = d (ix3 (n0 := 3) (n1 := 100000) (i 0) (i 1) (0 : Fin 1)))
    (h2 : ∀ k : Fin 128, x2 (ix3 (n2 := 64) (0 : Fin 1) k (y 2)) = w (ix3 (n0 := 3) (n2 := 64) (i 0) k (i 2))) :
    k2_pay1 x0 x1 x2 y = scaled2 a d w i := by
  obtain ⟨u, p, q, rfl⟩ : ∃ (u : Fin 1) (p : Fin 2000) (q : Fin 64), y = ix3 u p q := ⟨y 0, y 1, y 2, eq_ix3 y⟩
  rw [pay2_apply]
  exact Finset.sum_congr rfl fun k _ => by rw [h0 k, h1, h2 k]

/-! ## From blocks to the array -/

/-- Point t works on row block t / 3 under relation t % 3: the block indices of the four windows. -/
theorem index2 : ∀ t : Fin cfg2.N,
    win2_0.index t (0 : Fin 2) = t.val / 3 ∧ win2_0.index t (1 : Fin 2) = 0
    ∧ win2_1.index t (0 : Fin 3) = t.val % 3 ∧ win2_1.index t (1 : Fin 3) = t.val / 3 ∧ win2_1.index t (2 : Fin 3) = 0
    ∧ win2_2.index t (0 : Fin 3) = t.val % 3 ∧ win2_2.index t (1 : Fin 3) = 0 ∧ win2_2.index t (2 : Fin 3) = 0
    ∧ win2_3.index t (0 : Fin 3) = t.val % 3 ∧ win2_3.index t (1 : Fin 3) = t.val / 3 ∧ win2_3.index t (2 : Fin 3) = 0 :=
  (by decide +kernel : ∀ t : Fin grid2.N, _)

/-- What point t writes back is block t of the scaled product of the arrays the region is entered with. -/
theorem flushed2_eq (c : Dev nD) (t : Fin cfg2.N) :
    (dat2 (F := Ideal) V c).flushed 3 t
      = ((cfg2.win 3).blk t).view.read (Elt Ideal) (scaled2 (V c main_v104) (V c main_v150) (V c main_arg3)) := by
  show (cfg2.win 3).cut (grid2.coords t) ((dat2 (F := Ideal) V c).after 3 t) = _
  rw [after2_3]
  unfold out2_3
  rw [View.canon_unit_zero zero3]
  simp only [View.ld_unit_zero (S := S2000x128) zero2, View.ld_unit_zero (S := S1x2000x1) zero3,
    View.ld_unit_zero (S := S1x128x64) zero3]
  obtain ⟨e00, e01, e10, e11, e12, e20, e21, e22, e30, e31, e32⟩ := index2 t
  funext y
  show k2_pay1 (iblk2 V c 0 t) (iblk2 V c 1 t) (iblk2 V c 2 t) y
    = scaled2 (V c main_v104) (V c main_v150) (V c main_arg3) (((cfg2.win 3).blk t).view.emb y)
  refine pay2_eq_scaled2 (iblk2 V c 0 t) (iblk2 V c 1 t) (iblk2 V c 2 t) (V c main_v104) (V c main_v150) (V c main_arg3)
    y (((cfg2.win 3).blk t).view.emb y) (fun k => ?_) ?_ (fun k => ?_)
  · show V c main_v104 (((cfg2.win 0).blk t).view.emb (ix2 (n0 := 2000) (y 1) k))
      = V c main_v104 (ix2 (n0 := 100000) ((((cfg2.win 3).blk t).view.emb y) 1) k)
    refine congrArg (V c main_v104) (funext fun a => Fin.ext ?_)
    match a with
    | ⟨0, _⟩ =>
      show win2_0.index t (0 : Fin 2) * 2000 + 1 * (y 1).val = win2_3.index t (1 : Fin 3) * 2000 + 1 * (y 1).val
      rw [e00, e31]
    | ⟨1, _⟩ =>
      show win2_0.index t (1 : Fin 2) * 128 + 1 * k.val = k.val
      rw [e01]; omega
  · show V c main_v150 (((cfg2.win 1).blk t).view.emb (ix3 (0 : Fin 1) (y 1 : Fin 2000) (0 : Fin 1)))
      = V c main_v150 (ix3 (n0 := 3) (n1 := 100000) ((((cfg2.win 3).blk t).view.emb y) 0) ((((cfg2.win 3).blk t).view.emb y) 1) (0 : Fin 1))
    refine congrArg (V c main_v150) (funext fun a => Fin.ext ?_)
    have hy0 : (y 0).val < 1 := (y 0).isLt
    match a with
    | ⟨0, _⟩ =>
      show win2_1.index t (0 : Fin 3) * 1 + 1 * 0 = win2_3.index t (0 : Fin 3) * 1 + 1 * (y 0).val
      rw [e10, e30]; omega
    | ⟨1, _⟩ =>
      show win2_1.index t (1 : Fin 3) * 2000 + 1 * (y 1).val = win2_3.index t (1 : Fin 3) * 2000 + 1 * (y 1).val
      rw [e11, e31]
    | ⟨2, _⟩ =>
      show win2_1.index t (2 : Fin 3) * 1 + 1 * 0 = 0
      rw [e12]
  · show V c main_arg3 (((cfg2.win 2).blk t).view.emb (ix3 (n2 := 64) (0 : Fin 1) k (y 2)))
      = V c main_arg3 (ix3 (n0 := 3) (n2 := 64) ((((cfg2.win 3).blk t).view.emb y) 0) k ((((cfg2.win 3).blk t).view.emb y) 2))
    refine congrArg (V c main_arg3) (funext fun a => Fin.ext ?_)
    have hy0 : (y 0).val < 1 := (y 0).isLt
    match a with
    | ⟨0, _⟩ =>
      show win2_2.index t (0 : Fin 3) * 1 + 1 * 0 = win2_3.index t (0 : Fin 3) * 1 + 1 * (y 0).val
      rw [e20, e30]; omega
    | ⟨1, _⟩ =>
      show win2_2.index t (1 : Fin 3) * 128 + 1 * k.val = k.val
      rw [e21]; omega
    | ⟨2, _⟩ =>
      show win2_2.index t (2 : Fin 3) * 64 + 1 * (y 2).val = win2_3.index t (2 : Fin 3) * 64 + 1 * (y 2).val
      rw [e22, e32]

/-- An index of the result array lies in point t's block iff each coordinate lies in the block's range. -/
theorem mem_blk2 (t : Fin cfg2.N) (i : S3x100000x64.Idx) :
    i ∈ ((cfg2.win 3).blk t).view.set
      ↔ ∀ a : Fin 3, win2_3.index t a * S1x2000x64.size a ≤ (i a).val
          ∧ (i a).val < win2_3.index t a * S1x2000x64.size a + S1x2000x64.size a := by
  show i ∈ ((View.whole main_v156).slice (win2_3.rect t)).set ↔ _
  rw [View.set_slice_whole, Rect.mem_set_unit]
  exact Iff.rfl

/-- Every index (r, n, j) of the result array is in the block of the point with row block n / 2000 and relation r. -/
theorem cover2 (i : S3x100000x64.Idx) :
    ∃ t : Fin cfg2.N, (cfg2.win 3).flush t = true ∧ i ∈ ((cfg2.win 3).blk t).view.set := by
  have h0 : (i 0).val < 3 := (i 0).isLt
  have h1 : (i 1).val < 100000 := (i 1).isLt
  have h2 : (i 2).val < 64 := (i 2).isLt
  have hN : cfg2.N = 150 := N_2
  let t : Fin cfg2.N := ⟨(i 1).val / 2000 * 3 + (i 0).val, by rw [hN]; omega⟩
  have ht : t.val = (i 1).val / 2000 * 3 + (i 0).val := rfl
  obtain ⟨_, _, _, _, _, _, _, _, e30, e31, e32⟩ := index2 t
  refine ⟨t, flush2_3 t, ?_⟩
  rw [mem_blk2]
  intro a
  match a with
  | ⟨0, _⟩ =>
    show win2_3.index t (0 : Fin 3) * 1 ≤ (i 0).val ∧ (i 0).val < win2_3.index t (0 : Fin 3) * 1 + 1
    rw [e30, ht]; omega
  | ⟨1, _⟩ =>
    show win2_3.index t (1 : Fin 3) * 2000 ≤ (i 1).val ∧ (i 1).val < win2_3.index t (1 : Fin 3) * 2000 + 2000
    rw [e31, ht]; omega
  | ⟨2, _⟩ =>
    show win2_3.index t (2 : Fin 3) * 64 ≤ (i 2).val ∧ (i 2).val < win2_3.index t (2 : Fin 3) * 64 + 64
    rw [e32]; omega

/-- The result array after region 2 is the scaled product of the arrays the region is entered with. -/
theorem final2 (c : Dev nD) :
    (dat2 (F := Ideal) V c).arrAt 3 cfg2.N = scaled2 (V c main_v104) (V c main_v150) (V c main_arg3) :=
  (dat2 (F := Ideal) V c).arrAt_eq_of_cover 3 (scaled2 (V c main_v104) (V c main_v150) (V c main_arg3))
    (fun t _ => flushed2_eq V c t) cover2

/-- Entry (r, n, j) of the result array after region 2, the three arrays named at their literal shapes. -/
theorem final2_apply (c : Dev nD) (a : S100000x128.Idx → EReal) (d : S3x100000x1.Idx → EReal) (w : S3x128x64.Idx → EReal)
    (ha : V c main_v104 = a) (hd : V c main_v150 = d) (hw : V c main_arg3 = w)
    (r : Fin 3) (n : Fin 100000) (j : Fin 64) :
    (dat2 (F := Ideal) V c).arrAt 3 cfg2.N (ix3 r n j)
      = ∑ k : Fin 128, (a (ix2 n k) * Ideal.rsqrt (d (ix3 r n (0 : Fin 1)))) * w (ix3 r k j) := by
  subst ha hd hw
  exact congrFun (final2 V c) (ix3 r n j)

end Cert.KernelIdeal.HandValue

end
-- ==== Proof.ValCombine2.lean ====
/-
  The second layer's output, index by index, on the extended reals.

  Region 3 runs over 50 blocks of 2000 rows.  At a point it takes, for each of the three relations in turn, the
  relation's aggregate rows (64 features), scales each row by the reciprocal root of its in-degree under the
  relation, adds the relation's bias row, and accumulates from zero; the total is clipped below at zero.  Entry
  (n, j) of the result therefore reads entry (r, n, j) of the aggregates, the degree (r, n) and the bias (r, j) for
  r = 0, 1, 2, combined in exactly that order.  Proved here: the body's stored value at one index of a block, the
  block a point writes back as a block of that one function of the whole arrays, that the blocks cover the result
  array, and so the array after the region.
-/
import proofs.«142468_j3186865733925_1_alg».proof.Proof.IdealRegionData
import proofs.«142468_j3186865733925_1_alg».proof.Proof.LibRowOps
import proofs.«142468_j3186865733925_1_alg».proof.Proof.ValShared
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The body's two layout patterns at an index -/

/-- One relation's aggregate times the reciprocal root of its in-degree, at (p, q). -/
theorem scaledTerm3_apply (a : Vec Ideal S1x2000x64 .f32) (d : Vec Ideal S1x2000x1 .f32) (p : Fin 2000) (q : Fin 64) :
    (mulf (shapeCast S2000x64 a shapeCasts_S1x2000x64_S2000x64)
        (broadcastTo S2000x64 (rsqrt (shapeCast S2000x1 d shapeCasts_S1x2000x1_S2000x1)) broadcasts_S2000x1_S2000x64) : FVec Ideal S2000x64 .f32) (ix2 p q)
      = a (ix3 (0 : Fin 1) p q) * Ideal.rsqrt (d (ix3 (0 : Fin 1) p (0 : Fin 1))) := by
  rw [mulf_apply, Cert.RowOps.spread_apply, shapeCast_1ab_ab_apply]
  show _ * Ideal.rsqrt (shapeCast S2000x1 d shapeCasts_S1x2000x1_S2000x1 (ix2 p (0 : Fin 1))) = _
  rw [shapeCast_1ab_ab_apply]

/-- One relation's bias row repeated over the rows, at (p, q). -/
theorem biasTerm3_apply (b : Vec Ideal S1x64 .f32) (p : Fin 2000) (q : Fin 64) :
    broadcastTo S2000x64 (shapeCast S1x64 (shapeCast S64 b shapeCasts_S1x64_S64) shapeCasts_S64_S1x64)
        broadcasts_S1x64_S2000x64 (ix2 p q)
      = b (ix2 (0 : Fin 1) q) := by
  rw [broadcastTo_1b_ab_apply, shapeCast_shapeCast]

/-! ## The stored value at one index of a block -/

/-- Entry (p, q) of the block the body stores, over the nine loaded slabs: from zero, each relation's scaled aggregate
    and then its bias added in turn, the total clipped below at zero. -/
theorem pay3_apply (d0 : Vec Ideal S1x2000x1 .f32) (a0 : Vec Ideal S1x2000x64 .f32) (b0 : Vec Ideal S1x64 .f32)
    (d1 : Vec Ideal S1x2000x1 .f32) (a1 : Vec Ideal S1x2000x64 .f32) (b1 : Vec Ideal S1x64 .f32)
    (d2 : Vec Ideal S1x2000x1 .f32) (a2 : Vec Ideal S1x2000x64 .f32) (b2 : Vec Ideal S1x64 .f32)
    (p : Fin 2000) (q : Fin 64) :
    k3_pay1 (k3_pay2 d0 a0 b0 d1 a1 b1 d2 a2) b2 (ix2 p q)
      = max ((((((Ideal.ofBits .f32 0x00000000#32
            + a0 (ix3 (0 : Fin 1) p q) * Ideal.rsqrt (d0 (ix3 (0 : Fin 1) p (0 : Fin 1)))) + b0 (ix2 (0 : Fin 1) q))
            + a1 (ix3 (0 : Fin 1) p q) * Ideal.rsqrt (d1 (ix3 (0 : Fin 1) p (0 : Fin 1)))) + b1 (ix2 (0 : Fin 1) q))
            + a2 (ix3 (0 : Fin 1) p q) * Ideal.rsqrt (d2 (ix3 (0 : Fin 1) p (0 : Fin 1)))) + b2 (ix2 (0 : Fin 1) q))
          (Ideal.ofBits .f32 0x00000000#32) := by
  unfold k3_pay1 k3_pay2
  rw [maximumf_apply, addf_apply, addf_apply, addf_apply, addf_apply, addf_apply, addf_apply,
    scaledTerm3_apply, scaledTerm3_apply, scaledTerm3_apply, biasTerm3_apply, biasTerm3_apply, biasTerm3_apply]
  rfl

/-- The same over the three whole input blocks: relation r's slab is the block at first coordinate r. -/
theorem out3_apply (x0 : Vec Ideal S3x2000x64 .f32) (x1 : Vec Ideal S3x2000x1 .f32) (x2 : Vec Ideal S3x64 .f32)
    (p : Fin 2000) (q : Fin 64) :
    out3_3 x0 x1 x2 (ix2 p q)
      = max ((((((Ideal.ofBits .f32 0x00000000#32
            + x0 (ix3 (0 : Fin 3) p q) * Ideal.rsqrt (x1 (ix3 (0 : Fin 3) p (0 : Fin 1)))) + x2 (ix2 (0 : Fin 3) q))
            + x0 (ix3 (1 : Fin 3) p q) * Ideal.rsqrt (x1 (ix3 (1 : Fin 3) p (0 : Fin 1)))) + x2 (ix2 (1 : Fin 3) q))
            + x0 (ix3 (2 : Fin 3) p q) * Ideal.rsqrt (x1 (ix3 (2 : Fin 3) p (0 : Fin 1)))) + x2 (ix2 (2 : Fin 3) q))
          (Ideal.ofBits .f32 0x00000000#32) := by
  unfold out3_3
  rw [View.canon_unit_zero zero2, pay3_apply]
  rw [ld_slab3 x0 0 (by decide), ld_slab3 x0 1 (by decide), ld_slab3 x0 2 (by decide),
    ld_slab3 x1 0 (by decide), ld_slab3 x1 1 (by decide), ld_slab3 x1 2 (by decide),
    ld_row2 x2 0 (by decide), ld_row2 x2 1 (by decide), ld_row2 x2 2 (by decide)]
  rfl

/-- The combination of whole arrays: aggregates [3, 100000, 64], in-degrees [3, 100000, 1], biases [3, 64]. -/
def combined2 (a : S3x100000x64.Idx → EReal) (d : S3x100000x1.Idx → EReal) (b : S3x64.Idx → EReal) :
    S100000x64.Idx → EReal :=
  fun i => max ((((((Ideal.ofBits .f32 0x00000000#32
      + a (ix3 (n1 := 100000) (n2 := 64) (0 : Fin 3) (i 0) (i 1)) * Ideal.rsqrt (d (ix3 (n1 := 100000) (0 : Fin 3) (i 0) (0 : Fin 1))))
        + b (ix2 (n1 := 64) (0 : Fin 3) (i 1)))
      + a (ix3 (n1 := 100000) (n2 := 64) (1 : Fin 3) (i 0) (i 1)) * Ideal.rsqrt (d (ix3 (n1 := 100000) (1 : Fin 3) (i 0) (0 : Fin 1))))
        + b (ix2 (n1 := 64) (1 : Fin 3) (i 1)))
      + a (ix3 (n1 := 100000) (n2 := 64) (2 : Fin 3) (i 0) (i 1)) * Ideal.rsqrt (d (ix3 (n1 := 100000) (2 : Fin 3) (i 0) (0 : Fin 1))))
        + b (ix2 (n1 := 64) (2 : Fin 3) (i 1)))
    (Ideal.ofBits .f32 0x00000000#32)

theorem combined2_apply (a : S3x100000x64.Idx → EReal) (d : S3x100000x1.Idx → EReal) (b : S3x64.Idx → EReal)
    (n : Fin 100000) (j : Fin 64) :
    combined2 a d b (ix2 n j)
      = max ((((((Ideal.ofBits .f32 0x00000000#32
            + a (ix3 (0 : Fin 3) n j) * Ideal.rsqrt (d (ix3 (0 : Fin 3) n (0 : Fin 1)))) + b (ix2 (0 : Fin 3) j))
            + a (ix3 (1 : Fin 3) n j) * Ideal.rsqrt (d (ix3 (1 : Fin 3) n (0 : Fin 1)))) + b (ix2 (1 : Fin 3) j))
            + a (ix3 (2 : Fin 3) n j) * Ideal.rsqrt (d (ix3 (2 : Fin 3) n (0 : Fin 1)))) + b (ix2 (2 : Fin 3) j))
          (Ideal.ofBits .f32 0x00000000#32) := rfl

/-- A block's stored value at y is the whole-array combination at i, when under every relation the block's row (y 0)
    is row (i 0) of the aggregates and of the degrees, and the bias block is the bias array. -/
theorem out3_eq_combined2 (x0 : Vec Ideal S3x2000x64 .f32) (x1 : Vec Ideal S3x2000x1 .f32) (x2 : Vec Ideal S3x64 .f32)
    (a : S3x100000x64.Idx → EReal) (d : S3x100000x1.Idx → EReal) (b : S3x64.Idx → EReal)
    (y : S2000x64.Idx) (i : S100000x64.Idx)
    (h0 : ∀ r : Fin 3, x0 (ix3 (n1 := 2000) (n2 := 64) r (y 0) (y 1)) = a (ix3 (n1 := 100000) (n2 := 64) r (i 0) (i 1)))
    (h1 : ∀ r : Fin 3, x1 (ix3 (n1 := 2000) r (y 0) (0 : Fin 1)) = d (ix3 (n1 := 100000) r (i 0) (0 : Fin 1)))
    (h2 : ∀ r : Fin 3, x2 (ix2 (n1 := 64) r (y 1)) = b (ix2 (n1 := 64) r (i 1))) :
    out3_3 x0 x1 x2 y = combined2 a d b i := by
  obtain ⟨p, q, rfl⟩ : ∃ (p : Fin 2000) (q : Fin 64), y = ix2 p q := ⟨y 0, y 1, eq_ix2 y⟩
  rw [out3_apply]
  have e0 := h0 0; have e1 := h0 1; have e2 := h0 2
  have f0 := h1 0; have f1 := h1 1; have f2 := h1 2
  have g0 := h2 0; have g1 := h2 1; have g2 := h2 2
  show max ((((((_ + x0 (ix3 (0 : Fin 3) p q) * Ideal.rsqrt (x1 (ix3 (0 : Fin 3) p (0 : Fin 1)))) + x2 (ix2 (0 : Fin 3) q))
            + x0 (ix3 (1 : Fin 3) p q) * Ideal.rsqrt (x1 (ix3 (1 : Fin 3) p (0 : Fin 1)))) + x2 (ix2 (1 : Fin 3) q))
            + x0 (ix3 (2 : Fin 3) p q) * Ideal.rsqrt (x1 (ix3 (2 : Fin 3) p (0 : Fin 1)))) + x2 (ix2 (2 : Fin 3) q)) _ = _
  rw [e0, e1, e2, f0, f1, f2, g0, g1, g2]
  rfl

/-! ## From blocks to the array -/

/-- Point t works on row block t: the block indices of the four windows. -/
theorem index3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = t.val ∧ win3_1.index t (2 : Fin 3) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the combination of the arrays the region is entered with. -/
theorem flushed3_eq (c : Dev nD) (t : Fin cfg3.N) :
    (dat3 (F := Ideal) V c).flushed 3 t
      = ((cfg3.win 3).blk t).view.read (Elt Ideal) (combined2 (V c main_v208) (V c main_v155) (V c main_arg4)) := by
  show (cfg3.win 3).cut (grid3.coords t) ((dat3 (F := Ideal) V c).after 3 t) = _
  rw [after3_3]
  obtain ⟨e00, e01, e02, e10, e11, e12, e20, e21, e30, e31⟩ := index3 t
  funext y
  show out3_3 (iblk3 V c 0 t) (iblk3 V c 1 t) (iblk3 V c 2 t) y
    = combined2 (V c main_v208) (V c main_v155) (V c main_arg4) (((cfg3.win 3).blk t).view.emb y)
  refine out3_eq_combined2 (iblk3 V c 0 t) (iblk3 V c 1 t) (iblk3 V c 2 t) (V c main_v208) (V c main_v155) (V c main_arg4)
    y (((cfg3.win 3).blk t).view.emb y) (fun r => ?_) (fun r => ?_) (fun r => ?_)
  · show V c main_v208 (((cfg3.win 0).blk t).view.emb (ix3 (n1 := 2000) (n2 := 64) r (y 0) (y 1)))
      = V c main_v208 (ix3 (n1 := 100000) (n2 := 64) r ((((cfg3.win 3).blk t).view.emb y) 0) ((((cfg3.win 3).blk t).view.emb y) 1))
    refine congrArg (V c main_v208) (funext fun a => Fin.ext ?_)
    match a with
    | ⟨0, _⟩ =>
      show win3_0.index t (0 : Fin 3) * 3 + 1 * r.val = r.val
      rw [e00]; omega
    | ⟨1, _⟩ =>
      show win3_0.index t (1 : Fin 3) * 2000 + 1 * (y 0).val = win3_3.index t (0 : Fin 2) * 2000 + 1 * (y 0).val
      rw [e01, e30]
    | ⟨2, _⟩ =>
      show win3_0.index t (2 : Fin 3) * 64 + 1 * (y 1).val = win3_3.index t (1 : Fin 2) * 64 + 1 * (y 1).val
      rw [e02, e31]
  · show V c main_v155 (((cfg3.win 1).blk t).view.emb (ix3 (n1 := 2000) r (y 0) (0 : Fin 1)))
      = V c main_v155 (ix3 (n1 := 100000) r ((((cfg3.win 3).blk t).view.emb y) 0) (0 : Fin 1))
    refine congrArg (V c main_v155) (funext fun a => Fin.ext ?_)
    match a with
    | ⟨0, _⟩ =>
      show win3_1.index t (0 : Fin 3) * 3 + 1 * r.val = r.val
      rw [e10]; omega
    | ⟨1, _⟩ =>
      show win3_1.index t (1 : Fin 3) * 2000 + 1 * (y 0).val = win3_3.index t (0 : Fin 2) * 2000 + 1 * (y 0).val
      rw [e11, e30]
    | ⟨2, _⟩ =>
      show win3_1.index t (2 : Fin 3) * 1 + 1 * 0 = 0
      rw [e12]
  · show V c main_arg4 (((cfg3.win 2).blk t).view.emb (ix2 (n1 := 64) r (y 1)))
      = V c main_arg4 (ix2 (n1 := 64) r ((((cfg3.win 3).blk t).view.emb y) 1))
    refine congrArg (V c main_arg4) (funext fun a => Fin.ext ?_)
    match a with
    | ⟨0, _⟩ =>
      show win3_2.index t (0 : Fin 2) * 3 + 1 * r.val = r.val
      rw [e20]; omega
    | ⟨1, _⟩ =>
      show win3_2.index t (1 : Fin 2) * 64 + 1 * (y 1).val = win3_3.index t (1 : Fin 2) * 64 + 1 * (y 1).val
      rw [e21, e31]

/-- An index of the result array lies in point t's block iff each coordinate lies in the block's range. -/
theorem mem_blk3 (t : Fin cfg3.N) (i : S100000x64.Idx) :
    i ∈ ((cfg3.win 3).blk t).view.set
      ↔ ∀ a : Fin 2, win3_3.index t a * S2000x64.size a ≤ (i a).val
          ∧ (i a).val < win3_3.index t a * S2000x64.size a + S2000x64.size a := by
  show i ∈ ((View.whole main_v209).slice (win3_3.rect t)).set ↔ _
  rw [View.set_slice_whole, Rect.mem_set_unit]
  exact Iff.rfl

/-- Every index (n, j) of the result array is in the block of the point n / 2000. -/
theorem cover3 (i : S100000x64.Idx) :
    ∃ t : Fin cfg3.N, (cfg3.win 3).flush t = true ∧ i ∈ ((cfg3.win 3).blk t).view.set := by
  have h0 : (i 0).val < 100000 := (i 0).isLt
  have h1 : (i 1).val < 64 := (i 1).isLt
  have hN : cfg3.N = 50 := N_3
  let t : Fin cfg3.N := ⟨(i 0).val / 2000, by rw [hN]; omega⟩
  have ht : t.val = (i 0).val / 2000 := rfl
  obtain ⟨_, _, _, _, _, _, _, _, e30, e31⟩ := index3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    rw [e30, ht]; omega
  | ⟨1, _⟩ =>
    show win3_3.index t (1 : Fin 2) * 64 ≤ (i 1).val ∧ (i 1).val < win3_3.index t (1 : Fin 2) * 64 + 64
    rw [e31]; omega

/-- The result array after region 3 is the combination of the arrays the region is entered with. -/
theorem final3 (c : Dev nD) :
    (dat3 (F := Ideal) V c).arrAt 3 cfg3.N = combined2 (V c main_v208) (V c main_v155) (V c main_arg4) :=
  (dat3 (F := Ideal) V c).arrAt_eq_of_cover 3 (combined2 (V c main_v208) (V c main_v155) (V c main_arg4))
    (fun t _ => flushed3_eq V c t) cover3

/-- Entry (n, j) of the result array after region 3, the three arrays named at their literal shapes. -/
theorem final3_apply (c : Dev nD) (a : S3x100000x64.Idx → EReal) (d : S3x100000x1.Idx → EReal) (b : S3x64.Idx → EReal)
    (ha : V c main_v208 = a) (hd : V c main_v155 = d) (hb : V c main_arg4 = b)
    (n : Fin 100000) (j : Fin 64) :
    (dat3 (F := Ideal) V c).arrAt 3 cfg3.N (ix2 n j)
      = max ((((((Ideal.ofBits .f32 0x00000000#32
            + a (ix3 (0 : Fin 3) n j) * Ideal.rsqrt (d (ix3 (0 : Fin 3) n (0 : Fin 1)))) + b (ix2 (0 : Fin 3) j))
            + a (ix3 (1 : Fin 3) n j) * Ideal.rsqrt (d (ix3 (1 : Fin 3) n (0 : Fin 1)))) + b (ix2 (1 : Fin 3) j))
            + a (ix3 (2 : Fin 3) n j) * Ideal.rsqrt (d (ix3 (2 : Fin 3) n (0 : Fin 1)))) + b (ix2 (2 : Fin 3) j))
          (Ideal.ofBits .f32 0x00000000#32) := by
  subst ha hd hb
  exact congrFun (final3 V c) (ix2 n j)

end Cert.KernelIdeal.HandValue

end
-- ==== Proof.LibStack3.lean ====
/-
  Three arrays stacked along a new leading axis, and read back.

  The host stacks three vectors of length n into a [3, n] matrix by viewing each as a [1, n] row and joining the rows
  along axis 0; a trailing unit axis then makes it [3, n, 1]. Three [n, o] matrices are stacked into [3, n, o] the same
  way. Going the other way, slab r of a [3, n, o] array, cut out as [1, n, o] and viewed as [n, o], is the array at
  leading coordinate r; and row (r, s) of a [3, 2, E] array, cut out in one step or in two, is the array at (r, s, ·).
  Each statement reads the composite at an index built from explicit coordinates.
-/
import Idealize.ShloMosaic.Lib.ValueIdx
import Idealize.ShloMosaic.Lib.ValueLayout
import Idealize.ShloMosaic.Lib.Pipeline.Value

noncomputable section

namespace Cert.Stack3

open Idealize.ShloMosaic Idealize.ShloMosaic.ValueIdx

variable {α : Type}

/-- The r-th of three. -/
def pick {β : Type} (a0 a1 a2 : β) : Fin 3 → β
  | ⟨0, _⟩ => a0
  | ⟨1, _⟩ => a1
  | ⟨2, _⟩ => a2

/-- A vector viewed as a one-row matrix, read at (0, i). -/
theorem row_apply {n : Nat} (v : (⟨1, ![n]⟩ : Shape).Idx → α)
    (h : (⟨1, ![n]⟩ : Shape).BroadcastsInDim ⟨2, ![1, n]⟩ ![1]) (z : Fin 1) (i : Fin n) :
    broadcastInDim ⟨2, ![1, n]⟩ ![1] h v (ix2 z i) = v (ix1 i) := by
  refine broadcastInDim_apply _ h v _ (ix1 i) fun a => ?_
  match a with
  | ⟨0, _⟩ =>
    show i.val = if n = 1 then 0 else i.val
    split
    · rename_i h1; subst h1; exact Nat.lt_one_iff.mp i.isLt
    · rfl

/-- A matrix viewed as a one-slab array, read at (0, i, j). -/
theorem slab_apply {n o : Nat} (x : (⟨2, ![n, o]⟩ : Shape).Idx → α)
    (h : (⟨2, ![n, o]⟩ : Shape).BroadcastsInDim ⟨3, ![1, n, o]⟩ ![1, 2]) (z : Fin 1) (i : Fin n) (j : Fin o) :
    broadcastInDim ⟨3, ![1, n, o]⟩ ![1, 2] h x (ix3 z i j) = x (ix2 i j) := by
  refine broadcastInDim_apply _ h x _ (ix2 i j) fun a => ?_
  match a with
  | ⟨0, _⟩ =>
    show i.val = if n = 1 then 0 else i.val
    split
    · rename_i h1; subst h1; exact Nat.lt_one_iff.mp i.isLt
    · rfl
  | ⟨1, _⟩ =>
    show j.val = if o = 1 then 0 else j.val
    split
    · rename_i h1; subst h1; exact Nat.lt_one_iff.mp j.isLt
    · rfl

/-- A [3, n] matrix given a trailing unit axis, read at (r, i, 0). -/
theorem keepdims_apply {n : Nat} (x : (⟨2, ![3, n]⟩ : Shape).Idx → α)
    (h : (⟨2, ![3, n]⟩ : Shape).BroadcastsInDim ⟨3, ![3, n, 1]⟩ ![0, 1]) (r : Fin 3) (i : Fin n) (z : Fin 1) :
    broadcastInDim ⟨3, ![3, n, 1]⟩ ![0, 1] h x (ix3 r i z) = x (ix2 r i) := by
  refine broadcastInDim_apply _ h x _ (ix2 r i) fun a => ?_
  match a with
  | ⟨0, _⟩ =>
    split
    · rename_i h1; exact absurd h1 (show ¬ (3 : Nat) = 1 by decide)
    · rfl
  | ⟨1, _⟩ =>
    show i.val = if n = 1 then 0 else i.val
    split
    · rename_i h1; subst h1; exact Nat.lt_one_iff.mp i.isLt
    · rfl

/-- Three vectors stacked into a [3, n] matrix, read at (r, i). -/
theorem stackVec_apply {n : Nat} (v0 v1 v2 : (⟨1, ![n]⟩ : Shape).Idx → α)
    (hb : (⟨1, ![n]⟩ : Shape).BroadcastsInDim ⟨2, ![1, n]⟩ ![1])
    (hc : Shape.Concatenates (([⟨⟨2, ![1, n]⟩, broadcastInDim ⟨2, ![1, n]⟩ ![1] hb v0⟩, ⟨⟨2, ![1, n]⟩, broadcastInDim ⟨2, ![1, n]⟩ ![1] hb v1⟩,
      ⟨⟨2, ![1, n]⟩, broadcastInDim ⟨2, ![1, n]⟩ ![1] hb v2⟩] : List ((s : Shape) × (s.Idx → α))).map (·.1)) ⟨2, ![3, n]⟩ 0)
    (r : Fin 3) (i : Fin n) :
    concatenate ⟨2, ![3, n]⟩ 0 [⟨⟨2, ![1, n]⟩, broadcastInDim ⟨2, ![1, n]⟩ ![1] hb v0⟩, ⟨⟨2, ![1, n]⟩, broadcastInDim ⟨2, ![1, n]⟩ ![1] hb v1⟩,
      ⟨⟨2, ![1, n]⟩, broadcastInDim ⟨2, ![1, n]⟩ ![1] hb v2⟩] hc (ix2 r i) = pick v0 v1 v2 r (ix1 i) := by
  have key : ∀ (k : Nat) (hk : k < 3) (x₁ : (⟨2, ![1, n]⟩ : Shape).Idx → α),
      ([⟨⟨2, ![1, n]⟩, broadcastInDim ⟨2, ![1, n]⟩ ![1] hb v0⟩, ⟨⟨2, ![1, n]⟩, broadcastInDim ⟨2, ![1, n]⟩ ![1] hb v1⟩,
        ⟨⟨2, ![1, n]⟩, broadcastInDim ⟨2, ![1, n]⟩ ![1] hb v2⟩] : List ((s : Shape) × (s.Idx → α)))[k]'(by simpa using hk) = ⟨⟨2, ![1, n]⟩, x₁⟩ →
      r.val = k →
      concatenate ⟨2, ![3, n]⟩ 0 [⟨⟨2, ![1, n]⟩, broadcastInDim ⟨2, ![1, n]⟩ ![1] hb v0⟩, ⟨⟨2, ![1, n]⟩, broadcastInDim ⟨2, ![1, n]⟩ ![1] hb v1⟩,
        ⟨⟨2, ![1, n]⟩, broadcastInDim ⟨2, ![1, n]⟩ ![1] hb v2⟩] hc (ix2 r i) = x₁ (ix2 (0 : Fin 1) i) := by
    intro k hk x₁ hx hr
    refine concatenate_apply_piece (0 : Fin 2) _ hc (ix2 r i) k (by simpa using hk) ⟨2, ![1, n]⟩ x₁ hx rfl k ?_ (ix2 (0 : Fin 1) i) ?_ ?_
    · match k, hk with
      | 0, _ => rfl
      | 1, _ => rfl
      | 2, _ => rfl
    · intro b hb'
      match b with
      | ⟨0, _⟩ => exact absurd rfl hb'
      | ⟨1, _⟩ => rfl
    · show k + 0 = r.val
      omega
  match r with
  | ⟨0, _⟩ => exact (key 0 (by decide) _ rfl rfl).trans (row_apply v0 hb 0 i)
  | ⟨1, _⟩ => exact (key 1 (by decide) _ rfl rfl).trans (row_apply v1 hb 0 i)
  | ⟨2, _⟩ => exact (key 2 (by decide) _ rfl rfl).trans (row_apply v2 hb 0 i)

/-- Three [n, o] matrices stacked into a [3, n, o] array, read at (r, i, j). -/
theorem stackMat_apply {n o : Nat} (a0 a1 a2 : (⟨2, ![n, o]⟩ : Shape).Idx → α)
    (hb : (⟨2, ![n, o]⟩ : Shape).BroadcastsInDim ⟨3, ![1, n, o]⟩ ![1, 2])
    (hc : Shape.Concatenates (([⟨⟨3, ![1, n, o]⟩, broadcastInDim ⟨3, ![1, n, o]⟩ ![1, 2] hb a0⟩, ⟨⟨3, ![1, n, o]⟩, broadcastInDim ⟨3, ![1, n, o]⟩ ![1, 2] hb a1⟩,
      ⟨⟨3, ![1, n, o]⟩, broadcastInDim ⟨3, ![1, n, o]⟩ ![1, 2] hb a2⟩] : List ((s : Shape) × (s.Idx → α))).map (·.1)) ⟨3, ![3, n, o]⟩ 0)
    (r : Fin 3) (i : Fin n) (j : Fin o) :
    concatenate ⟨3, ![3, n, o]⟩ 0 [⟨⟨3, ![1, n, o]⟩, broadcastInDim ⟨3, ![1, n, o]⟩ ![1, 2] hb a0⟩, ⟨⟨3, ![1, n, o]⟩, broadcastInDim ⟨3, ![1, n, o]⟩ ![1, 2] hb a1⟩,
      ⟨⟨3, ![1, n, o]⟩, broadcastInDim ⟨3, ![1, n, o]⟩ ![1, 2] hb a2⟩] hc (ix3 r i j) = pick a0 a1 a2 r (ix2 i j) := by
  have key : ∀ (k : Nat) (hk : k < 3) (x₁ : (⟨3, ![1, n, o]⟩ : Shape).Idx → α),
      ([⟨⟨3, ![1, n, o]⟩, broadcastInDim ⟨3, ![1, n, o]⟩ ![1, 2] hb a0⟩, ⟨⟨3, ![1, n, o]⟩, broadcastInDim ⟨3, ![1, n, o]⟩ ![1, 2] hb a1⟩,
        ⟨⟨3, ![1, n, o]⟩, broadcastInDim ⟨3, ![1, n, o]⟩ ![1, 2] hb a2⟩] : List ((s : Shape) × (s.Idx → α)))[k]'(by simpa using hk) = ⟨⟨3, ![1, n, o]⟩, x₁⟩ →
      r.val = k →
      concatenate ⟨3, ![3, n, o]⟩ 0 [⟨⟨3, ![1, n, o]⟩, broadcastInDim ⟨3, ![1, n, o]⟩ ![1, 2] hb a0⟩, ⟨⟨3, ![1, n, o]⟩, broadcastInDim ⟨3, ![1, n, o]⟩ ![1, 2] hb a1⟩,
        ⟨⟨3, ![1, n, o]⟩, broadcastInDim ⟨3, ![1, n, o]⟩ ![1, 2] hb a2⟩] hc (ix3 r i j) = x₁ (ix3 (0 : Fin 1) i j) := by
    intro k hk x₁ hx hr
    refine concatenate_apply_piece (0 : Fin 3) _ hc (ix3 r i j) k (by simpa using hk) ⟨3, ![1, n, o]⟩ x₁ hx rfl k ?_ (ix3 (0 : Fin 1) i j) ?_ ?_
    · match k, hk with
      | 0, _ => rfl
      | 1, _ => rfl
      | 2, _ => rfl
    · intro b hb'
      match b with
      | ⟨0, _⟩ => exact absurd rfl hb'
      | ⟨1, _⟩ => rfl
      | ⟨2, _⟩ => rfl
    · show k + 0 = r.val
      omega
  match r with
  | ⟨0, _⟩ => exact (key 0 (by decide) _ rfl rfl).trans (slab_apply a0 hb 0 i j)
  | ⟨1, _⟩ => exact (key 1 (by decide) _ rfl rfl).trans (slab_apply a1 hb 0 i j)
  | ⟨2, _⟩ => exact (key 2 (by decide) _ rfl rfl).trans (slab_apply a2 hb 0 i j)

/-- Slab r of a [3, n, o] array, cut out and viewed as [n, o], read at (i, j). -/
theorem slabOf_apply {n o : Nat} (M : (⟨3, ![3, n, o]⟩ : Shape).Idx → α) (r : Fin 3)
    (hs : (⟨3, ![3, n, o]⟩ : Shape).Slices ![r.val, 0, 0] ⟨3, ![1, n, o]⟩)
    (hc : (⟨3, ![1, n, o]⟩ : Shape).ShapeCasts ⟨2, ![n, o]⟩) (i : Fin n) (j : Fin o) :
    shapeCast ⟨2, ![n, o]⟩ (extractStridedSlice ⟨3, ![1, n, o]⟩ ![r.val, 0, 0] M hs) hc (ix2 i j) = M (ix3 r i j) := by
  rw [shapeCast_apply _ hc (ix2 i j) (ix3 (0 : Fin 1) i j) (by
    rw [Shape.rowMajor_val_three, Shape.rowMajor_val_two]
    show (0 * n + i.val) * o + j.val = i.val * o + j.val
    rw [Nat.zero_mul, Nat.zero_add])]
  refine extractStridedSlice_apply _ M hs _ (ix3 r i j) fun a => ?_
  match a with
  | ⟨0, _⟩ => show r.val = r.val + 0; omega
  | ⟨1, _⟩ => show i.val = 0 + i.val; omega
  | ⟨2, _⟩ => show j.val = 0 + j.val; omega

/-- Row (r, s) of a [3, 2, E] array cut out in one step and viewed as a vector, read at i. -/
theorem rowOf_apply {E : Nat} (e : (⟨3, ![3, 2, E]⟩ : Shape).Idx → α) (r : Fin 3) (s : Fin 2)
    (hs : (⟨3, ![3, 2, E]⟩ : Shape).Slices ![r.val, s.val, 0] ⟨3, ![1, 1, E]⟩)
    (hc : (⟨3, ![1, 1, E]⟩ : Shape).ShapeCasts ⟨1, ![E]⟩) (i : Fin E) :
    shapeCast ⟨1, ![E]⟩ (extractStridedSlice ⟨3, ![1, 1, E]⟩ ![r.val, s.val, 0] e hs) hc (ix1 i) = e (ix3 r s i) := by
  rw [shapeCast_apply _ hc (ix1 i) (ix3 (0 : Fin 1) (0 : Fin 1) i) (by
    rw [Shape.rowMajor_val_three, Shape.rowMajor_val_one]
    show (0 * 1 + 0) * E + i.val = i.val
    simp)]
  refine extractStridedSlice_apply _ e hs _ (ix3 r s i) fun a => ?_
  match a with
  | ⟨0, _⟩ => show r.val = r.val + 0; omega
  | ⟨1, _⟩ => show s.val = s.val + 0; omega
  | ⟨2, _⟩ => show i.val = 0 + i.val; omega

/-- Row (r, s) of a [3, 2, E] array cut out in two steps — column s of every relation first, viewed as [3, E]; then
    row r of that, viewed as a vector — read at i. -/
theorem rowOfTwice_apply {E : Nat} (e : (⟨3, ![3, 2, E]⟩ : Shape).Idx → α) (r : Fin 3) (s : Fin 2)
    (hs1 : (⟨3, ![3, 2, E]⟩ : Shape).Slices ![0, s.val, 0] ⟨3, ![3, 1, E]⟩)
    (hc1 : (⟨3, ![3, 1, E]⟩ : Shape).ShapeCasts ⟨2, ![3, E]⟩)
    (hs2 : (⟨2, ![3, E]⟩ : Shape).Slices ![r.val, 0] ⟨2, ![1, E]⟩)
    (hc2 : (⟨2, ![1, E]⟩ : Shape).ShapeCasts ⟨1, ![E]⟩) (i : Fin E) :
    shapeCast ⟨1, ![E]⟩ (extractStridedSlice ⟨2, ![1, E]⟩ ![r.val, 0]
      (shapeCast ⟨2, ![3, E]⟩ (extractStridedSlice ⟨3, ![3, 1, E]⟩ ![0, s.val, 0] e hs1) hc1) hs2) hc2 (ix1 i) = e (ix3 r s i) := by
  rw [shapeCast_apply _ hc2 (ix1 i) (ix2 (0 : Fin 1) i) (by
    rw [Shape.rowMajor_val_two, Shape.rowMajor_val_one]
    show 0 * E + i.val = i.val
    rw [Nat.zero_mul, Nat.zero_add])]
  rw [extractStridedSlice_apply _ _ hs2 (ix2 (0 : Fin 1) i) (ix2 r i) (fun a => by
    match a with
    | ⟨0, _⟩ => show r.val = r.val + 0; omega
    | ⟨1, _⟩ => show i.val = 0 + i.val; omega)]
  rw [shapeCast_apply _ hc1 (ix2 r i) (ix3 r (0 : Fin 1) i) (by
    rw [Shape.rowMajor_val_three, Shape.rowMajor_val_two]
    show (r.val * 1 + 0) * E + i.val = r.val * E + i.val
    rw [Nat.mul_one, Nat.add_zero])]
  refine extractStridedSlice_apply _ e hs1 _ (ix3 r s i) fun a => ?_
  match a with
  | ⟨0, _⟩ => show r.val = 0 + r.val; omega
  | ⟨1, _⟩ => show s.val = s.val + 0; omega
  | ⟨2, _⟩ => show i.val = 0 + i.val; omega

end Cert.Stack3

end
-- ==== Proof.LayerAssemble.lean ====
/-
  One layer assembled from its parts.

  A layer is computed in two pipelined stages with host gathers and scatter-adds between them. If the first stage
  leaves, for each relation r, the rows scaled by the reciprocal root of the stacked out-degrees times the relation's
  weights (`hM`), if the stacked degrees are the per-relation degree vectors (`hDO`, `hDI`), if the array handed to the
  second stage stacks the three aggregates of the first stage's slabs (`hslab`, `hA`), and if the second stage leaves the
  accumulated, bias-shifted, clipped sum (`hH`), then what it leaves is the specification's layer. No law of
  arithmetic is used: the two sides are the same expression, index by index.
-/
import proofs.«142468_j3186865733925_1_alg».proof.Proof.Spec

noncomputable section

namespace Cert.Spec

open Idealize.ShloMosaic Idealize.ShloMosaic.ValueIdx

theorem layer_of_stages {O : Nat} (h : (⟨2, ![100000, 128]⟩ : Shape).Idx → EReal) (W : (⟨3, ![3, 128, O]⟩ : Shape).Idx → EReal)
    (b : (⟨2, ![3, O]⟩ : Shape).Idx → EReal)
    (DO DI : (⟨3, ![3, 100000, 1]⟩ : Shape).Idx → EReal) (dout din : Fin 3 → (⟨1, ![100000]⟩ : Shape).Idx → EReal)
    (hDO : ∀ (r : Fin 3) (n : Fin 100000), DO (ix3 r n (0 : Fin 1)) = dout r (ix1 n))
    (hDI : ∀ (r : Fin 3) (n : Fin 100000), DI (ix3 r n (0 : Fin 1)) = din r (ix1 n))
    (M : (⟨3, ![3, 100000, O]⟩ : Shape).Idx → EReal)
    (hM : ∀ (r : Fin 3) (n : Fin 100000) (j : Fin O),
      M (ix3 r n j) = ∑ k : Fin 128, (h (ix2 n k) * Ideal.rsqrt (DO (ix3 r n (0 : Fin 1)))) * W (ix3 r k j))
    (agg : Fin 3 → ((⟨2, ![100000, O]⟩ : Shape).Idx → EReal) → ((⟨2, ![100000, O]⟩ : Shape).Idx → EReal))
    (slab : Fin 3 → (⟨2, ![100000, O]⟩ : Shape).Idx → EReal)
    (hslab : ∀ (r : Fin 3) (n : Fin 100000) (j : Fin O), slab r (ix2 n j) = M (ix3 r n j))
    (A : (⟨3, ![3, 100000, O]⟩ : Shape).Idx → EReal)
    (hA : ∀ (r : Fin 3) (n : Fin 100000) (j : Fin O), A (ix3 r n j) = agg r (slab r) (ix2 n j))
    (H : (⟨2, ![100000, O]⟩ : Shape).Idx → EReal)
    (hH : ∀ (n : Fin 100000) (j : Fin O), H (ix2 n j) =
      max ((((((z + A (ix3 0 n j) * Ideal.rsqrt (DI (ix3 0 n (0 : Fin 1)))) + b (ix2 0 j))
        + A (ix3 1 n j) * Ideal.rsqrt (DI (ix3 1 n (0 : Fin 1)))) + b (ix2 1 j))
        + A (ix3 2 n j) * Ideal.rsqrt (DI (ix3 2 n (0 : Fin 1)))) + b (ix2 2 j)) z) :
    H = layer h W b dout din agg := by
  have hs : ∀ r : Fin 3, slab r = msg h W dout r := by
    intro r
    funext i
    obtain ⟨n, j, rfl⟩ : ∃ (n : Fin 100000) (j : Fin O), i = ix2 n j := ⟨i 0, i 1, eq_ix2 i⟩
    rw [hslab, hM, hDO]
    rfl
  funext i
  obtain ⟨n, j, rfl⟩ : ∃ (n : Fin 100000) (j : Fin O), i = ix2 n j := ⟨i 0, i 1, eq_ix2 i⟩
  rw [hH]
  simp only [hA, hs, hDI]
  rfl

end Cert.Spec

end
-- ==== Proof.KernelIsSpec.lean ====
/-
  The pipelined program ends at the specification.

  Between its regions the program stacks, over the three relations, the clipped degrees (3×100000×1) and the
  aggregates of the first stage's slabs (3×100000×width). Read at an index these stacks are the per-relation degree
  and aggregate, the kernel's two-step cut of the edge list is the edge array's row, and each region's result is
  known index by index; so each layer is the specification's layer (no arithmetic law is needed on this side: the
  program computes the specification's expression as it stands), and the two layers compose.
-/
import proofs.«142468_j3186865733925_1_alg».proof.Proof.IdealRun
import proofs.«142468_j3186865733925_1_alg».proof.Proof.IdealEntry
import proofs.«142468_j3186865733925_1_alg».proof.Proof.ValScale1
import proofs.«142468_j3186865733925_1_alg».proof.Proof.ValCombine1
import proofs.«142468_j3186865733925_1_alg».proof.Proof.ValScale2
import proofs.«142468_j3186865733925_1_alg».proof.Proof.ValCombine2
import proofs.«142468_j3186865733925_1_alg».proof.Proof.LibStack3
import proofs.«142468_j3186865733925_1_alg».proof.Proof.LayerAssemble

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-! ## The stacks, read at an index -/

/-- The kernel's two cuts, one after the other, give the edge array's row (r, s). -/
theorem edgeRowK_endpoints (e : S3x2x300000.Idx → Elt Ideal .i32) (s : Fin 2) (r : Fin 3) :
    edgeRowK e s r = Cert.Spec.endpoints e r s := by
  funext i
  obtain ⟨i, rfl⟩ : ∃ i' : Fin 300000, i = ix1 i' := ⟨i 0, eq_ix1 i⟩
  match s, r with
  | ⟨0, _⟩, ⟨0, _⟩ => exact Cert.Stack3.rowOfTwice_apply e 0 0 _ _ _ _ i
  | ⟨0, _⟩, ⟨1, _⟩ => exact Cert.Stack3.rowOfTwice_apply e 1 0 _ _ _ _ i
  | ⟨0, _⟩, ⟨2, _⟩ => exact Cert.Stack3.rowOfTwice_apply e 2 0 _ _ _ _ i
  | ⟨1, _⟩, ⟨0, _⟩ => exact Cert.Stack3.rowOfTwice_apply e 0 1 _ _ _ _ i
  | ⟨1, _⟩, ⟨1, _⟩ => exact Cert.Stack3.rowOfTwice_apply e 1 1 _ _ _ _ i
  | ⟨1, _⟩, ⟨2, _⟩ => exact Cert.Stack3.rowOfTwice_apply e 2 1 _ _ _ _ i

/-- The stacked degrees at (r, n, 0) are relation r's degree at node n. -/
theorem degStackK_apply (e : S3x2x300000.Idx → Elt Ideal .i32) (s : Fin 2) (r : Fin 3) (n : Fin 100000) :
    degStackK e s (ix3 r n (0 : Fin 1)) = degK (Cert.Spec.endpoints e r s) (ix1 n) := by
  unfold degStackK
  refine (Cert.Stack3.keepdims_apply _ _ r n 0).trans ?_
  refine (Cert.Stack3.stackVec_apply _ _ _ _ _ r n).trans ?_
  match r with
  | ⟨0, _⟩ => show degK (edgeRowK e s 0) (ix1 n) = _; rw [edgeRowK_endpoints]; rfl
  | ⟨1, _⟩ => show degK (edgeRowK e s 1) (ix1 n) = _; rw [edgeRowK_endpoints]; rfl
  | ⟨2, _⟩ => show degK (edgeRowK e s 2) (ix1 n) = _; rw [edgeRowK_endpoints]; rfl

/-- Slab r of a 3×100000×128 array at (n, j). -/
theorem slabK128_apply (M : S3x100000x128.Idx → EReal) (r : Fin 3) (n : Fin 100000) (j : Fin 128) :
    slabK128 M r (ix2 n j) = M (ix3 r n j) := by
  match r with
  | ⟨0, _⟩ => exact Cert.Stack3.slabOf_apply M 0 _ _ n j
  | ⟨1, _⟩ => exact Cert.Stack3.slabOf_apply M 1 _ _ n j
  | ⟨2, _⟩ => exact Cert.Stack3.slabOf_apply M 2 _ _ n j

/-- Slab r of a 3×100000×64 array at (n, j). -/
theorem slabK64_apply (M : S3x100000x64.Idx → EReal) (r : Fin 3) (n : Fin 100000) (j : Fin 64) :
    slabK64 M r (ix2 n j) = M (ix3 r n j) := by
  match r with
  | ⟨0, _⟩ => exact Cert.Stack3.slabOf_apply M 0 _ _ n j
  | ⟨1, _⟩ => exact Cert.Stack3.slabOf_apply M 1 _ _ n j
  | ⟨2, _⟩ => exact Cert.Stack3.slabOf_apply M 2 _ _ n j

/-- The stacked aggregates at (r, n, j) are relation r's aggregate of slab r at (n, j). -/
theorem aggStackK128_apply (e : S3x2x300000.Idx → Elt Ideal .i32) (M : S3x100000x128.Idx → EReal)
    (r : Fin 3) (n : Fin 100000) (j : Fin 128) :
    aggStackK128 e M (ix3 r n j)
      = aggK128 (Cert.Spec.endpoints e r 0) (Cert.Spec.endpoints e r 1) (slabK128 M r) (ix2 n j) := by
  unfold aggStackK128
  refine (Cert.Stack3.stackMat_apply _ _ _ _ _ r n j).trans ?_
  match r with
  | ⟨0, _⟩ => show aggK128 (edgeRowK e 0 0) (edgeRowK e 1 0) _ (ix2 n j) = _; rw [edgeRowK_endpoints, edgeRowK_endpoints]; rfl
  | ⟨1, _⟩ => show aggK128 (edgeRowK e 0 1) (edgeRowK e 1 1) _ (ix2 n j) = _; rw [edgeRowK_endpoints, edgeRowK_endpoints]; rfl
  | ⟨2, _⟩ => show aggK128 (edgeRowK e 0 2) (edgeRowK e 1 2) _ (ix2 n j) = _; rw [edgeRowK_endpoints, edgeRowK_endpoints]; rfl

theorem aggStackK64_apply (e : S3x2x300000.Idx → Elt Ideal .i32) (M : S3x100000x64.Idx → EReal)
    (r : Fin 3) (n : Fin 100000) (j : Fin 64) :
    aggStackK64 e M (ix3 r n j)
      = aggK64 (Cert.Spec.endpoints e r 0) (Cert.Spec.endpoints e r 1) (slabK64 M r) (ix2 n j) := by
  unfold aggStackK64
  refine (Cert.Stack3.stackMat_apply _ _ _ _ _ r n j).trans ?_
  match r with
  | ⟨0, _⟩ => show aggK64 (edgeRowK e 0 0) (edgeRowK e 1 0) _ (ix2 n j) = _; rw [edgeRowK_endpoints, edgeRowK_endpoints]; rfl
  | ⟨1, _⟩ => show aggK64 (edgeRowK e 0 1) (edgeRowK e 1 1) _ (ix2 n j) = _; rw [edgeRowK_endpoints, edgeRowK_endpoints]; rfl
  | ⟨2, _⟩ => show aggK64 (edgeRowK e 0 2) (edgeRowK e 1 2) _ (ix2 n j) = _; rw [edgeRowK_endpoints, edgeRowK_endpoints]; rfl

/-! ## The two layers -/

variable (m : (ℓ : Loc nD τ sig) → Buf (Elt Ideal) ℓ) (c : Dev nD)

/-- Relation r's clipped out-degrees and in-degrees, off the edge list as launched. -/
def doutK (r : Fin 3) : S100000.Idx → EReal := degK (Cert.Spec.endpoints (eK m c) r 0)
def dinK (r : Fin 3) : S100000.Idx → EReal := degK (Cert.Spec.endpoints (eK m c) r 1)
/-- Relation r's aggregation along its edges, at either width. -/
def agg1K (r : Fin 3) : (S100000x128.Idx → EReal) → (S100000x128.Idx → EReal) :=
  aggK128 (Cert.Spec.endpoints (eK m c) r 0) (Cert.Spec.endpoints (eK m c) r 1)
def agg2K (r : Fin 3) : (S100000x64.Idx → EReal) → (S100000x64.Idx → EReal) :=
  aggK64 (Cert.Spec.endpoints (eK m c) r 0) (Cert.Spec.endpoints (eK m c) r 1)

set_option maxHeartbeats 2000000 in
/-- What region 1 leaves is the specification's first layer of the arguments. -/
theorem layer1 :
    (outs (F := Ideal) m 16 main_v104 c : S100000x128.Idx → EReal)
      = Cert.Spec.layer (m ((c.tc : Thread nD τ).loc main_arg0)) (m ((c.tc : Thread nD τ).loc main_arg1))
          (m ((c.tc : Thread nD τ).loc main_arg2)) (doutK m c) (dinK m c) (agg1K m c) := by
  have e0 := entry0 m c
  have e1 := entry1 m (outs (F := Ideal) m) c
  refine Cert.Spec.layer_of_stages _ _ _ (degStackK (eK m c) 0) (degStackK (eK m c) 1) (doutK m c) (dinK m c)
    (fun r n => degStackK_apply (eK m c) 0 r n) (fun r n => degStackK_apply (eK m c) 1 r n)
    (outs (F := Ideal) m 14 main_v51 c) (fun r n j => ?_) (agg1K m c) (slabK128 (outs (F := Ideal) m 14 main_v51 c))
    (fun r n j => slabK128_apply _ r n j) (aggStackK128 (eK m c) (outs (F := Ideal) m 14 main_v51 c))
    (fun r n j => aggStackK128_apply (eK m c) _ r n j) _ (fun n j => ?_)
  · rw [outs_14]
    exact final0_apply (fun c b => V13 m c b) c _ _ _ e0.1 e0.2.1 e0.2.2 r n j
  · rw [outs_16]
    exact final1_apply (fun c b => V15 m (outs (F := Ideal) m) c b) c _ _ _ e1.1 e1.2.1 e1.2.2 n j

set_option maxHeartbeats 2000000 in
/-- What region 3 leaves is the specification's second layer of what region 1 left. -/
theorem layer2 :
    (outs (F := Ideal) m 32 main_v209 c : S100000x64.Idx → EReal)
      = Cert.Spec.layer (outs (F := Ideal) m 16 main_v104 c) (m ((c.tc : Thread nD τ).loc main_arg3))
          (m ((c.tc : Thread nD τ).loc main_arg4)) (doutK m c) (dinK m c) (agg2K m c) := by
  have e2 := entry2 m (outs (F := Ideal) m) c
  have e3 := entry3 m (outs (F := Ideal) m) c
  refine Cert.Spec.layer_of_stages _ _ _ (degStackK (eK m c) 0) (degStackK (eK m c) 1) (doutK m c) (dinK m c)
    (fun r n => degStackK_apply (eK m c) 0 r n) (fun r n => degStackK_apply (eK m c) 1 r n)
    (outs (F := Ideal) m 30 main_v156 c) (fun r n j => ?_) (agg2K m c) (slabK64 (outs (F := Ideal) m 30 main_v156 c))
    (fun r n j => slabK64_apply _ r n j) (aggStackK64 (eK m c) (outs (F := Ideal) m 30 main_v156 c))
    (fun r n j => aggStackK64_apply (eK m c) _ r n j) _ (fun n j => ?_)
  · rw [outs_30]
    exact final2_apply (fun c b => V29 m (outs (F := Ideal) m) c b) c _ _ _ e2.1 e2.2.1 e2.2.2 r n j
  · rw [outs_32]
    exact final3_apply (fun c b => V31 m (outs (F := Ideal) m) c b) c _ _ _ e3.1 e3.2.1 e3.2.2 n j

/-- The program's result is the specification's network of the arguments. -/
theorem kernel_result :
    (outs (F := Ideal) m 32 main_v209 c : S100000x64.Idx → EReal)
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (doutK m c) (dinK m c) (agg1K m c) (agg2K m c) := by
  unfold Cert.Spec.net
  rw [← layer1 m c]
  exact layer2 m c

end Cert.KernelIdeal.HandValue

end
-- ==== Proof.lean ====
/- The two-layer relational graph convolution: the pipelined program and its host reference compute one function
   of the arguments over the extended reals.

   Both programs compute, per layer and per relation, the rows of the features scaled by the reciprocal root of the
   clipped out-degree, times the relation's weights; gather these messages along the sources and sum them into the
   destinations; scale by the reciprocal root of the clipped in-degree, add the relation's bias, accumulate the three
   relations from zero in order and clip at zero (Proof/Spec.lean). The pipelined program does the dense parts in four
   regions over row blocks (Proof/IdealRegionData.lean; their runs in Proof/IdealBody*.lean and Proof/IdealRun.lean,
   their results index by index in Proof/Val*.lean) with the degrees and aggregates stacked over the relations between
   them (Proof/IdealEntry.lean, Proof/LibStack3.lean), and ends at the specification (Proof/KernelIsSpec.lean); the
   reference ends there too (Proof/RefIsSpec.lean), its power -1/2 of a degree being the reciprocal root because every
   degree is at least 1. The two programs' degree and aggregation functions are the same host operations on the same
   edge rows. The frames are the runs with the results dropped; the idealization rewrote nothing. -/
import proofs.«142468_j3186865733925_1_alg».proof.Defs
import proofs.«142468_j3186865733925_1_alg».proof.Proof.Gen.Kernel
import proofs.«142468_j3186865733925_1_alg».proof.Proof.Gen.KernelIdeal
import proofs.«142468_j3186865733925_1_alg».proof.Proof.Gen.ReferenceIdeal
import proofs.«142468_j3186865733925_1_alg».proof.Proof.Gen.Pre_finite_inputs
import proofs.«142468_j3186865733925_1_alg».proof.Proof.BitsRun
import proofs.«142468_j3186865733925_1_alg».proof.Proof.IdealRun
import proofs.«142468_j3186865733925_1_alg».proof.Proof.RefRun
import proofs.«142468_j3186865733925_1_alg».proof.Proof.RefIsSpec
import proofs.«142468_j3186865733925_1_alg».proof.Proof.KernelIsSpec
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ =>
  (θ_run (Cert.Kernel.defs (F := Bits)) _ _).mono (fun _ h c => (h c).2) (Cert.Kernel.Hand.run (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run (F := Ideal) m ρ)

/-- And the reference. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the specification's network of those arguments. -/
theorem algebraic : Cert.algebraic_KernelIdeal_ReferenceIdeal := by
  intro m ρ m' ρ' _ hagree
  refine ⟨fun c => Cert.KernelIdeal.Hand.outs (F := Ideal) m 32 Cert.KernelIdeal.main_v209 c,
    Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  refine (Cert.ReferenceIdeal.HandValue.result_eq m' c).trans ?_
  refine Eq.trans ?_ (Cert.KernelIdeal.HandValue.kernel_result m c).symm
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
